-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x64 : Shape := ⟨2, ![20000, 64]⟩
abbrev S2x320000 : Shape := ⟨2, ![2, 320000]⟩
abbrev S320000x32 : Shape := ⟨2, ![320000, 32]⟩
abbrev S20000 : Shape := ⟨1, ![20000]⟩
abbrev S64x32 : Shape := ⟨2, ![64, 32]⟩
abbrev S64 : Shape := ⟨1, ![64]⟩
abbrev S256x64 : Shape := ⟨2, ![256, 64]⟩
abbrev S256 : Shape := ⟨1, ![256]⟩
abbrev S256x32 : Shape := ⟨2, ![256, 32]⟩
abbrev S256x256 : Shape := ⟨2, ![256, 256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S20000x64 : S_.BroadcastsInDim S20000x64 (![] : Fin 0 → Fin S20000x64.rank)
  reducesTo_S20000x64_S_d0_1 : S20000x64.ReducesTo [0, 1] S_
  h_S_ : 0 < S_.numel
  bcast_S_S320000x32 : S_.BroadcastsInDim S320000x32 (![] : Fin 0 → Fin S320000x32.rank)
  reducesTo_S320000x32_S_d0_1 : S320000x32.ReducesTo [0, 1] S_
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S256x32 : S_.BroadcastsInDim S256x32 (![] : Fin 0 → Fin S256x32.rank)
  reducesTo_S256x32_S_d0_1 : S256x32.ReducesTo [0, 1] S_
  bcast_S_S256x256 : S_.BroadcastsInDim S256x256 (![] : Fin 0 → Fin S256x256.rank)
  reducesTo_S256x256_S_d0_1 : S256x256.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part8 {F : FTy → Type} [FloatOps F] (main_arg30 : FVec F S1x128 .f32) (main_arg31 : FVec F S1 .f32) (main_v133 : IVec S_ 1) (main_v136 : IVec S128 1) : IVec S_ 1 :=
  let main_c_53 : IVec S_ 1 := constantI S_ 1 1#1
  let main_v137 : IVec S_ 1 := (fun x v => Host.reduce IntOp.andi x v reducesTo_S128_S_d0 h_S_) main_v136 main_c_53
  let main_v138 : IVec S_ 1 := andi main_v133 main_v137
  let main_v139 : FVec F S1x128 .f32 := Host.absf main_arg30
  let main_cst_54 : FVec F S_ .f32 := constant S_ .f32 0x7F800000#32
  let main_v140 : FVec F S1x128 .f32 := broadcastInDim S1x128 ![] bcast_S_S1x128 main_cst_54
  let main_v141 : IVec S1x128 1 := cmpf .olt main_v139 main_v140
  let main_c_55 : IVec S_ 1 := constantI S_ 1 1#1
  let main_v142 : IVec S_ 1 := (fun x v => Host.reduce IntOp.andi x v reducesTo_S1x128_S_d0_1 h_S_) main_v141 main_c_55
  let main_v143 : IVec S_ 1 := andi main_v138 main_v142
  let main_v144 : FVec F S1 .f32 := Host.absf main_arg31
  let main_cst_56 : FVec F S_ .f32 := constant S_ .f32 0x7F800000#32
  let main_v145 : FVec F S1 .f32 := broadcastInDim S1 ![] bcast_S_S1 main_cst_56
  let main_v146 : IVec S1 1 := cmpf .olt main_v144 main_v145
  let main_c_57 : IVec S_ 1 := constantI S_ 1 1#1
  let main_v147 : IVec S_ 1 := (fun x v => Host.reduce IntOp.andi x v reducesTo_S1_S_d0 h_S_) main_v146 main_c_57
  let main_v148 : IVec S_ 1 := andi main_v143 main_v147
  main_v148

def fn_part7 {F : FTy → Type} [FloatOps F] (main_arg27 : FVec F S256 .f32) (main_arg28 : FVec F S128x256 .f32) (main_arg29 : FVec F S128 .f32) (main_arg30 : FVec F S1x128 .f32) (main_arg31 : FVec F S1 .f32) (main_v118 : IVec S_ 1) (main_v119 : FVec F S256 .f32) : IVec S_ 1 :=
  let main_cst_46 : FVec F S_ .f32 := constant S_ .f32 0x7F800000#32
  let main_v120 : FVec F S256 .f32 := broadcastInDim S256 ![] bcast_S_S256 main_cst_46
  let main_v121 : IVec S256 1 := cmpf .olt main_v119 main_v120
  let main_c_47 : IVec S_ 1 := constantI S_ 1 1#1
  let main_v122 : IVec S_ 1 := (fun x v => Host.reduce IntOp.andi x v reducesTo_S256_S_d0 h_S_) main_v121 main_c_47
  let main_v123 : IVec S_ 1 := andi main_v118 main_v122
  let main_v124 : FVec F S256 .f32 := Host.absf main_arg27
  let main_cst_48 : FVec F S_ .f32 := constant S_ .f32 0x7F800000#32
  let main_v125 : FVec F S256 .f32 := broadcastInDim S256 ![] bcast_S_S256 main_cst_48
  let main_v126 : IVec S256 1 := cmpf .olt main_v124 main_v125
  let main_c_49 : IVec S_ 1 := constantI S_ 1 1#1
  let main_v127 : IVec S_ 1 := (fun x v => Host.reduce IntOp.andi x v reducesTo_S256_S_d0 h_S_) main_v126 main_c_49
  let main_v128 : IVec S_ 1 := andi main_v123 main_v127
  let main_v129 : FVec F S128x256 .f32 := Host.absf main_arg28
  let main_cst_50 : FVec F S_ .f32 := constant S_ .f32 0x7F800000#32
  let main_v130 : FVec F S128x256 .f32 := broadcastInDim S128x256 ![] bcast_S_S128x256 main_cst_50
  let main_v131 : IVec S128x256 1 := cmpf .olt main_v129 main_v130
  let main_c_51 : IVec S_ 1 := constantI S_ 1 1#1
  let main_v132 : IVec S_ 1 := (fun x v => Host.reduce IntOp.andi x v reducesTo_S128x256_S_d0_1 h_S_) main_v131 main_c_51
  let main_v133 : IVec S_ 1 := andi main_v128 main_v132
  let main_v134 : FVec F S128 .f32 := Host.absf main_arg29
  let main_cst_52 : FVec F S_ .f32 := constant S_ .f32 0x7F800000#32
  let main_v135 : FVec F S128 .f32 := broadcastInDim S128 ![] bcast_S_S128 main_cst_52
  let main_v136 : IVec S128 1 := cmpf .olt main_v134 main_v135
  fn_part8 (F := F) main_arg30 main_arg31 main_v133 main_v136

def fn_part6 {F : FTy → Type} [FloatOps F] (main_arg23 : FVec F S256 .f32) (main_arg24 : FVec F S256 .f32) (main_arg25 : FVec F S256 .f32) (main_arg26 : FVec F S256 .f32) (main_arg27 : FVec F S256 .f32) (main_arg28 : FVec F S128x256 .f32) (main_arg29 : FVec F S128 .f32) (main_arg30 : FVec F S1x128 .f32) (main_arg31 : FVec F S1 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S256 .f32 := Host.absf main_arg23
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S256 .f32 := Host.absf main_arg24
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  let main_v114 : FVec F S256 .f32 := Host.absf main_arg25
  let main_cst_44 : FVec F S_ .f32 := constant S_ .f32 0x7F800000#32
  let main_v115 : FVec F S256 .f32 := broadcastInDim S256 ![] bcast_S_S256 main_cst_44
  let main_v116 : IVec S256 1 := cmpf .olt main_v114 main_v115
  let main_c_45 : IVec S_ 1 := constantI S_ 1 1#1
  let main_v117 : IVec S_ 1 := (fun x v => Host.reduce IntOp.andi x v reducesTo_S256_S_d0 h_S_) main_v116 main_c_45
  let main_v118 : IVec S_ 1 := andi main_v113 main_v117
  let main_v119 : FVec F S256 .f32 := Host.absf main_arg26
  fn_part7 (F := F) main_arg27 main_arg28 main_arg29 main_arg30 main_arg31 main_v118 main_v119

def fn_part5 {F : FTy → Type} [FloatOps F] (main_arg20 : FVec F S256 .f32) (main_arg21 : FVec F S256 .f32) (main_arg22 : FVec F S256 .f32) (main_arg23 : FVec F S256 .f32) (main_arg24 : FVec F S256 .f32) (main_arg25 : FVec F S256 .f32) (main_arg26 : FVec F S256 .f32) (main_arg27 : FVec F S256 .f32) (main_arg28 : FVec F S128x256 .f32) (main_arg29 : FVec F S128 .f32) (main_arg30 : FVec F S1x128 .f32) (main_arg31 : FVec F S1 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256 .f32 := Host.absf main_arg20
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256 .f32 := Host.absf main_arg21
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S256 .f32 := Host.absf main_arg22
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg23 main_arg24 main_arg25 main_arg26 main_arg27 main_arg28 main_arg29 main_arg30 main_arg31 main_v98 main_v101 main_c_39

def fn_part4 {F : FTy → Type} [FloatOps F] (main_arg16 : FVec F S256 .f32) (main_arg17 : FVec F S256 .f32) (main_arg18 : FVec F S256 .f32) (main_arg19 : FVec F S256 .f32) (main_arg20 : FVec F S256 .f32) (main_arg21 : FVec F S256 .f32) (main_arg22 : FVec F S256 .f32) (main_arg23 : FVec F S256 .f32) (main_arg24 : FVec F S256 .f32) (main_arg25 : FVec F S256 .f32) (main_arg26 : FVec F S256 .f32) (main_arg27 : FVec F S256 .f32) (main_arg28 : FVec F S128x256 .f32) (main_arg29 : FVec F S128 .f32) (main_arg30 : FVec F S1x128 .f32) (main_arg31 : FVec F S1 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg17
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg18
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_arg29 main_arg30 main_arg31 main_v83 main_v84 main_cst_32

def fn_part3 {F : FTy → Type} [FloatOps F] (main_arg13 : FVec F S256 .f32) (main_arg14 : FVec F S256x256 .f32) (main_arg15 : FVec F S256 .f32) (main_arg16 : FVec F S256 .f32) (main_arg17 : FVec F S256 .f32) (main_arg18 : FVec F S256 .f32) (main_arg19 : FVec F S256 .f32) (main_arg20 : FVec F S256 .f32) (main_arg21 : FVec F S256 .f32) (main_arg22 : FVec F S256 .f32) (main_arg23 : FVec F S256 .f32) (main_arg24 : FVec F S256 .f32) (main_arg25 : FVec F S256 .f32) (main_arg26 : FVec F S256 .f32) (main_arg27 : FVec F S256 .f32) (main_arg28 : FVec F S128x256 .f32) (main_arg29 : FVec F S128 .f32) (main_arg30 : FVec F S1x128 .f32) (main_arg31 : FVec F S1 .f32) (main_v48 : IVec S_ 1) (main_v49 : FVec F S256x32 .f32) (main_v50 : FVec F S256x32 .f32) : IVec S_ 1 :=
  let main_v51 : IVec S256x32 1 := cmpf .olt main_v49 main_v50
  let main_c_19 : IVec S_ 1 := constantI S_ 1 1#1
  let main_v52 : IVec S_ 1 := (fun x v => Host.reduce IntOp.andi x v reducesTo_S256x32_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg14
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg16 main_arg17 main_arg18 main_arg19 main_arg20 main_arg21 main_arg22 main_arg23 main_arg24 main_arg25 main_arg26 main_arg27 main_arg28 main_arg29 main_arg30 main_arg31 main_v63 main_v67

def fn_part2 {F : FTy → Type} [FloatOps F] (main_arg9 : FVec F S256 .f32) (main_arg10 : FVec F S256x256 .f32) (main_arg11 : FVec F S256 .f32) (main_arg12 : FVec F S256x32 .f32) (main_arg13 : FVec F S256 .f32) (main_arg14 : FVec F S256x256 .f32) (main_arg15 : FVec F S256 .f32) (main_arg16 : FVec F S256 .f32) (main_arg17 : FVec F S256 .f32) (main_arg18 : FVec F S256 .f32) (main_arg19 : FVec F S256 .f32) (main_arg20 : FVec F S256 .f32) (main_arg21 : FVec F S256 .f32) (main_arg22 : FVec F S256 .f32) (main_arg23 : FVec F S256 .f32) (main_arg24 : FVec F S256 .f32) (main_arg25 : FVec F S256 .f32) (main_arg26 : FVec F S256 .f32) (main_arg27 : FVec F S256 .f32) (main_arg28 : FVec F S128x256 .f32) (main_arg29 : FVec F S128 .f32) (main_arg30 : FVec F S1x128 .f32) (main_arg31 : FVec F S1 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg10
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x32 .f32 := Host.absf main_arg12
  let main_cst_18 : FVec F S_ .f32 := constant S_ .f32 0x7F800000#32
  let main_v50 : FVec F S256x32 .f32 := broadcastInDim S256x32 ![] bcast_S_S256x32 main_cst_18
  fn_part3 (F := F) main_arg13 main_arg14 main_arg15 main_arg16 main_arg17 main_arg18 main_arg19 main_arg20 main_arg21 main_arg22 main_arg23 main_arg24 main_arg25 main_arg26 main_arg27 main_arg28 main_arg29 main_arg30 main_arg31 main_v48 main_v49 main_v50

def fn_part1 {F : FTy → Type} [FloatOps F] (main_arg6 : FVec F S256x64 .f32) (main_arg7 : FVec F S256 .f32) (main_arg8 : FVec F S256x32 .f32) (main_arg9 : FVec F S256 .f32) (main_arg10 : FVec F S256x256 .f32) (main_arg11 : FVec F S256 .f32) (main_arg12 : FVec F S256x32 .f32) (main_arg13 : FVec F S256 .f32) (main_arg14 : FVec F S256x256 .f32) (main_arg15 : FVec F S256 .f32) (main_arg16 : FVec F S256 .f32) (main_arg17 : FVec F S256 .f32) (main_arg18 : FVec F S256 .f32) (main_arg19 : FVec F S256 .f32) (main_arg20 : FVec F S256 .f32) (main_arg21 : FVec F S256 .f32) (main_arg22 : FVec F S256 .f32) (main_arg23 : FVec F S256 .f32) (main_arg24 : FVec F S256 .f32) (main_arg25 : FVec F S256 .f32) (main_arg26 : FVec F S256 .f32) (main_arg27 : FVec F S256 .f32) (main_arg28 : FVec F S128x256 .f32) (main_arg29 : FVec F S128 .f32) (main_arg30 : FVec F S1x128 .f32) (main_arg31 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S256x64 .f32 := Host.absf main_arg6
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x32 .f32 := Host.absf main_arg8
  let main_cst_10 : FVec F S_ .f32 := constant S_ .f32 0x7F800000#32
  let main_v30 : FVec F S256x32 .f32 := broadcastInDim S256x32 ![] bcast_S_S256x32 main_cst_10
  let main_v31 : IVec S256x32 1 := cmpf .olt main_v29 main_v30
  let main_c_11 : IVec S_ 1 := constantI S_ 1 1#1
  let main_v32 : IVec S_ 1 := (fun x v => Host.reduce IntOp.andi x v reducesTo_S256x32_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v33

def fn {F : FTy → Type} [FloatOps F] (main_arg0 : FVec F S20000x64 .f32) (main_arg1 : IVec S2x320000 32) (main_arg2 : FVec F S320000x32 .f32) (main_arg3 : IVec S20000 32) (main_arg4 : FVec F S64x32 .f32) (main_arg5 : FVec F S64 .f32) (main_arg6 : FVec F S256x64 .f32) (main_arg7 : FVec F S256 .f32) (main_arg8 : FVec F S256x32 .f32) (main_arg9 : FVec F S256 .f32) (main_arg10 : FVec F S256x256 .f32) (main_arg11 : FVec F S256 .f32) (main_arg12 : FVec F S256x32 .f32) (main_arg13 : FVec F S256 .f32) (main_arg14 : FVec F S256x256 .f32) (main_arg15 : FVec F S256 .f32) (main_arg16 : FVec F S256 .f32) (main_arg17 : FVec F S256 .f32) (main_arg18 : FVec F S256 .f32) (main_arg19 : FVec F S256 .f32) (main_arg20 : FVec F S256 .f32) (main_arg21 : FVec F S256 .f32) (main_arg22 : FVec F S256 .f32) (main_arg23 : FVec F S256 .f32) (main_arg24 : FVec F S256 .f32) (main_arg25 : FVec F S256 .f32) (main_arg26 : FVec F S256 .f32) (main_arg27 : FVec F S256 .f32) (main_arg28 : FVec F S128x256 .f32) (main_arg29 : FVec F S128 .f32) (main_arg30 : FVec F S1x128 .f32) (main_arg31 : FVec F S1 .f32) : IVec S_ 1 :=
  let main_v0 : FVec F S20000x64 .f32 := Host.absf main_arg0
  let main_cst : FVec F S_ .f32 := constant S_ .f32 0x7F800000#32
  let main_v1 : FVec F S20000x64 .f32 := broadcastInDim S20000x64 ![] bcast_S_S20000x64 main_cst
  let main_v2 : IVec S20000x64 1 := cmpf .olt main_v0 main_v1
  let main_c : IVec S_ 1 := constantI S_ 1 1#1
  let main_v3 : IVec S_ 1 := (fun x v => Host.reduce IntOp.andi x v reducesTo_S20000x64_S_d0_1 h_S_) main_v2 main_c
  let main_v4 : FVec F S320000x32 .f32 := Host.absf main_arg2
  let main_cst_0 : FVec F S_ .f32 := constant S_ .f32 0x7F800000#32
  let main_v5 : FVec F S320000x32 .f32 := broadcastInDim S320000x32 ![] bcast_S_S320000x32 main_cst_0
  let main_v6 : IVec S320000x32 1 := cmpf .olt main_v4 main_v5
  let main_c_1 : IVec S_ 1 := constantI S_ 1 1#1
  let main_v7 : IVec S_ 1 := (fun x v => Host.reduce IntOp.andi x v reducesTo_S320000x32_S_d0_1 h_S_) main_v6 main_c_1
  let main_v8 : IVec S_ 1 := andi main_v3 main_v7
  let main_v9 : FVec F S64x32 .f32 := Host.absf main_arg4
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v13 main_v16
-- ==== Kernel.lean ====
abbrev S20000x64 : Shape := ⟨2, ![20000, 64]⟩
abbrev S2x320000 : Shape := ⟨2, ![2, 320000]⟩
abbrev S320000x32 : Shape := ⟨2, ![320000, 32]⟩
abbrev S20000 : Shape := ⟨1, ![20000]⟩
abbrev S64x32 : Shape := ⟨2, ![64, 32]⟩
abbrev S64 : Shape := ⟨1, ![64]⟩
abbrev S256x64 : Shape := ⟨2, ![256, 64]⟩
abbrev S256 : Shape := ⟨1, ![256]⟩
abbrev S256x32 : Shape := ⟨2, ![256, 32]⟩
abbrev S256x256 : Shape := ⟨2, ![256, 256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S1x320000 : Shape := ⟨2, ![1, 320000]⟩
abbrev S320000 : Shape := ⟨1, ![320000]⟩
abbrev S32x64 : Shape := ⟨2, ![32, 64]⟩
abbrev S64x256 : Shape := ⟨2, ![64, 256]⟩
abbrev S1x64 : Shape := ⟨2, ![1, 64]⟩
abbrev S1x256 : Shape := ⟨2, ![1, 256]⟩
abbrev S_ : Shape := ⟨0, ![]⟩
abbrev S320000x1 : Shape := ⟨2, ![320000, 1]⟩
abbrev S320000x64 : Shape := ⟨2, ![320000, 64]⟩
abbrev S4000x64 : Shape := ⟨2, ![4000, 64]⟩
abbrev S4000x32 : Shape := ⟨2, ![4000, 32]⟩
abbrev S20000x256 : Shape := ⟨2, ![20000, 256]⟩
abbrev S2000x64 : Shape := ⟨2, ![2000, 64]⟩
abbrev S2000x256 : Shape := ⟨2, ![2000, 256]⟩
abbrev S32x256 : Shape := ⟨2, ![32, 256]⟩
abbrev S320000x256 : Shape := ⟨2, ![320000, 256]⟩
abbrev S4000x256 : Shape := ⟨2, ![4000, 256]⟩
abbrev S512x256 : Shape := ⟨2, ![512, 256]⟩
abbrev S20000x1 : Shape := ⟨2, ![20000, 1]⟩
abbrev S512 : Shape := ⟨1, ![512]⟩
abbrev S512x1 : Shape := ⟨2, ![512, 1]⟩
abbrev S256x128 : Shape := ⟨2, ![256, 128]⟩
abbrev S128x1 : Shape := ⟨2, ![128, 1]⟩
abbrev S1x1 : Shape := ⟨2, ![1, 1]⟩
abbrev S512x128 : Shape := ⟨2, ![512, 128]⟩

abbrev nBuf : Space → Nat
  | .hbm => 126
  | .vmem => 66
  | .smem => 0
  | _ => 0

abbrev bufTy : (tb : Table) → Fin (tcTables nBuf tb) → BufTy
  | .hbm, ⟨0, _⟩ => ⟨S20000x64, .f32⟩
  | .hbm, ⟨1, _⟩ => ⟨S2x320000, .i32⟩
  | .hbm, ⟨2, _⟩ => ⟨S320000x32, .f32⟩
  | .hbm, ⟨3, _⟩ => ⟨S20000, .i32⟩
  | .hbm, ⟨4, _⟩ => ⟨S64x32, .f32⟩
  | .hbm, ⟨5, _⟩ => ⟨S64, .f32⟩
  | .hbm, ⟨6, _⟩ => ⟨S256x64, .f32⟩
  | .hbm, ⟨7, _⟩ => ⟨S256, .f32⟩
  | .hbm, ⟨8, _⟩ => ⟨S256x32, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x32, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S256, .f32⟩
  | .hbm, ⟨20, _⟩ => ⟨S256, .f32⟩
  | .hbm, ⟨21, _⟩ => ⟨S256, .f32⟩
  | .hbm, ⟨22, _⟩ => ⟨S256, .f32⟩
  | .hbm, ⟨23, _⟩ => ⟨S256, .f32⟩
  | .hbm, ⟨24, _⟩ => ⟨S256, .f32⟩
  | .hbm, ⟨25, _⟩ => ⟨S256, .f32⟩
  | .hbm, ⟨26, _⟩ => ⟨S256, .f32⟩
  | .hbm, ⟨27, _⟩ => ⟨S256, .f32⟩
  | .hbm, ⟨28, _⟩ => ⟨S128x256, .f32⟩
  | .hbm, ⟨29, _⟩ => ⟨S128, .f32⟩
  | .hbm, ⟨30, _⟩ => ⟨S1x128, .f32⟩
  | .hbm, ⟨31, _⟩ => ⟨S1, .f32⟩
  | .hbm, ⟨32, _⟩ => ⟨S1x320000, .i32⟩
  | .hbm, ⟨33, _⟩ => ⟨S320000, .i32⟩
  | .hbm, ⟨34, _⟩ => ⟨S1x320000, .i32⟩
  | .hbm, ⟨35, _⟩ => ⟨S320000, .i32⟩
  | .hbm, ⟨36, _⟩ => ⟨S32x64, .f32⟩
  | .hbm, ⟨37, _⟩ => ⟨S64x256, .f32⟩
  | .hbm, ⟨38, _⟩ => ⟨S1x64, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S1x256, .f32⟩
  | .hbm, ⟨44, _⟩ => ⟨S_, .i32⟩
  | .hbm, ⟨45, _⟩ => ⟨S320000, .i32⟩
  | .hbm, ⟨46, _⟩ => ⟨S320000, .i1⟩
  | .hbm, ⟨47, _⟩ => ⟨S_, .i32⟩
  | .hbm, ⟨48, _⟩ => ⟨S320000, .i32⟩
  | .hbm, ⟨49, _⟩ => ⟨S320000, .i32⟩
  | .hbm, ⟨50, _⟩ => ⟨S320000, .i32⟩
  | .hbm, ⟨51, _⟩ => ⟨S320000x1, .i32⟩
  | .hbm, ⟨52, _⟩ => ⟨S320000x64, .f32⟩
  | .hbm, ⟨53, _⟩ => ⟨S320000x64, .f32⟩
  | .hbm, ⟨54, _⟩ => ⟨S_, .f32⟩
  | .hbm, ⟨55, _⟩ => ⟨S20000x64, .f32⟩
  | .hbm, ⟨56, _⟩ => ⟨S320000x1, .i32⟩
  | .hbm, ⟨57, _⟩ => ⟨S20000x64, .f32⟩
  | .hbm, ⟨58, _⟩ => ⟨S20000x256, .f32⟩
  | .hbm, ⟨59, _⟩ => ⟨S32x256, .f32⟩
  | .hbm, ⟨60, _⟩ => ⟨S256x256, .f32⟩
  | .hbm, ⟨61, _⟩ => ⟨S1x256, .f32⟩
  | .hbm, ⟨62, _⟩ => ⟨S1x256, .f32⟩
  | .hbm, ⟨63, _⟩ => ⟨S1x256, .f32⟩
  | .hbm, ⟨64, _⟩ => ⟨S1x256, .f32⟩
  | .hbm, ⟨65, _⟩ => ⟨S1x256, .f32⟩
  | .hbm, ⟨66, _⟩ => ⟨S1x256, .f32⟩
  | .hbm, ⟨67, _⟩ => ⟨S_, .i32⟩
  | .hbm, ⟨68, _⟩ => ⟨S320000, .i32⟩
  | .hbm, ⟨69, _⟩ => ⟨S320000, .i1⟩
  | .hbm, ⟨70, _⟩ => ⟨S_, .i32⟩
  | .hbm, ⟨71, _⟩ => ⟨S320000, .i32⟩
  | .hbm, ⟨72, _⟩ => ⟨S320000, .i32⟩
  | .hbm, ⟨73, _⟩ => ⟨S320000, .i32⟩
  | .hbm, ⟨74, _⟩ => ⟨S320000x1, .i32⟩
  | .hbm, ⟨75, _⟩ => ⟨S320000x256, .f32⟩
  | .hbm, ⟨76, _⟩ => ⟨S320000x256, .f32⟩
  | .hbm, ⟨77, _⟩ => ⟨S_, .f32⟩
  | .hbm, ⟨78, _⟩ => ⟨S20000x256, .f32⟩
  | .hbm, ⟨79, _⟩ => ⟨S320000x1, .i32⟩
  | .hbm, ⟨80, _⟩ => ⟨S20000x256, .f32⟩
  | .hbm, ⟨81, _⟩ => ⟨S20000x256, .f32⟩
  | .hbm, ⟨82, _⟩ => ⟨S32x256, .f32⟩
  | .hbm, ⟨83, _⟩ => ⟨S256x256, .f32⟩
  | .hbm, ⟨84, _⟩ => ⟨S1x256, .f32⟩
  | .hbm, ⟨85, _⟩ => ⟨S1x256, .f32⟩
  | .hbm, ⟨86, _⟩ => ⟨S1x256, .f32⟩
  | .hbm, ⟨87, _⟩ => ⟨S1x256, .f32⟩
  | .hbm, ⟨88, _⟩ => ⟨S1x256, .f32⟩
  | .hbm, ⟨89, _⟩ => ⟨S1x256, .f32⟩
  | .hbm, ⟨90, _⟩ => ⟨S_, .i32⟩
  | .hbm, ⟨91, _⟩ => ⟨S320000, .i32⟩
  | .hbm, ⟨92, _⟩ => ⟨S320000, .i1⟩
  | .hbm, ⟨93, _⟩ => ⟨S_, .i32⟩
  | .hbm, ⟨94, _⟩ => ⟨S320000, .i32⟩
  | .hbm, ⟨95, _⟩ => ⟨S320000, .i32⟩
  | .hbm, ⟨96, _⟩ => ⟨S320000, .i32⟩
  | .hbm, ⟨97, _⟩ => ⟨S320000x1, .i32⟩
  | .hbm, ⟨98, _⟩ => ⟨S320000x256, .f32⟩
  | .hbm, ⟨99, _⟩ => ⟨S320000x256, .f32⟩
  | .hbm, ⟨100, _⟩ => ⟨S_, .f32⟩
  | .hbm, ⟨101, _⟩ => ⟨S20000x256, .f32⟩
  | .hbm, ⟨102, _⟩ => ⟨S320000x1, .i32⟩
  | .hbm, ⟨103, _⟩ => ⟨S20000x256, .f32⟩
  | .hbm, ⟨104, _⟩ => ⟨S20000x256, .f32⟩
  | .hbm, ⟨105, _⟩ => ⟨S_, .f32⟩
  | .hbm, ⟨106, _⟩ => ⟨S512x256, .f32⟩
  | .hbm, ⟨107, _⟩ => ⟨S20000x1, .i32⟩
  | .hbm, ⟨108, _⟩ => ⟨S512x256, .f32⟩
  | .hbm, ⟨109, _⟩ => ⟨S_, .f32⟩
  | .hbm, ⟨110, _⟩ => ⟨S20000, .f32⟩
  | .hbm, ⟨111, _⟩ => ⟨S_, .f32⟩
  | .hbm, ⟨112, _⟩ => ⟨S512, .f32⟩
  | .hbm, ⟨113, _⟩ => ⟨S20000x1, .i32⟩
  | .hbm, ⟨114, _⟩ => ⟨S512, .f32⟩
  | .hbm, ⟨115, _⟩ => ⟨S_, .f32⟩
  | .hbm, ⟨116, _⟩ => ⟨S512, .f32⟩
  | .hbm, ⟨117, _⟩ => ⟨S512, .f32⟩
  | .hbm, ⟨118, _⟩ => ⟨S512x1, .f32⟩
  | .hbm, ⟨119, _⟩ => ⟨S512x256, .f32⟩
  | .hbm, ⟨120, _⟩ => ⟨S512x256, .f32⟩
  | .hbm, ⟨121, _⟩ => ⟨S256x128, .f32⟩
  | .hbm, ⟨122, _⟩ => ⟨S1x128, .f32⟩
  | .hbm, ⟨123, _⟩ => ⟨S128x1, .f32⟩
  | .hbm, ⟨124, _⟩ => ⟨S1x1, .f32⟩
  | .hbm, ⟨125, _⟩ => ⟨S512x1, .f32⟩
  | .local _ .vmem, ⟨0, _⟩ => ⟨S4000x64, .f32⟩
  | .local _ .vmem, ⟨1, _⟩ => ⟨S4000x64, .f32⟩
  | .local _ .vmem, ⟨2, _⟩ => ⟨S4000x32, .f32⟩
  | .local _ .vmem, ⟨3, _⟩ => ⟨S4000x32, .f32⟩
  | .local _ .vmem, ⟨4, _⟩ => ⟨S32x64, .f32⟩
  | .local _ .vmem, ⟨5, _⟩ => ⟨S1x64, .f32⟩
  | .local _ .vmem, ⟨6, _⟩ => ⟨S4000x64, .f32⟩
  | .local _ .vmem, ⟨7, _⟩ => ⟨S4000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S64x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | .local _ .vmem, ⟨20, _⟩ => ⟨S4000x256, .f32⟩
  | .local _ .vmem, ⟨21, _⟩ => ⟨S4000x256, .f32⟩
  | .local _ .vmem, ⟨22, _⟩ => ⟨S4000x32, .f32⟩
  | .local _ .vmem, ⟨23, _⟩ => ⟨S4000x32, .f32⟩
  | .local _ .vmem, ⟨24, _⟩ => ⟨S32x256, .f32⟩
  | .local _ .vmem, ⟨25, _⟩ => ⟨S1x256, .f32⟩
  | .local _ .vmem, ⟨26, _⟩ => ⟨S4000x256, .f32⟩
  | .local _ .vmem, ⟨27, _⟩ => ⟨S4000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S256x256, .f32⟩
  | .local _ .vmem, ⟨33, _⟩ => ⟨S1x256, .f32⟩
  | .local _ .vmem, ⟨34, _⟩ => ⟨S1x256, .f32⟩
  | .local _ .vmem, ⟨35, _⟩ => ⟨S1x256, .f32⟩
  | .local _ .vmem, ⟨36, _⟩ => ⟨S1x256, .f32⟩
  | .local _ .vmem, ⟨37, _⟩ => ⟨S1x256, .f32⟩
  | .local _ .vmem, ⟨38, _⟩ => ⟨S2000x256, .f32⟩
  | .local _ .vmem, ⟨39, _⟩ => ⟨S2000x256, .f32⟩
  | .local _ .vmem, ⟨40, _⟩ => ⟨S4000x256, .f32⟩
  | .local _ .vmem, ⟨41, _⟩ => ⟨S4000x256, .f32⟩
  | .local _ .vmem, ⟨42, _⟩ => ⟨S4000x32, .f32⟩
  | .local _ .vmem, ⟨43, _⟩ => ⟨S4000x32, .f32⟩
  | .local _ .vmem, ⟨44, _⟩ => ⟨S32x256, .f32⟩
  | .local _ .vmem, ⟨45, _⟩ => ⟨S1x256, .f32⟩
  | .local _ .vmem, ⟨46, _⟩ => ⟨S4000x256, .f32⟩
  | .local _ .vmem, ⟨47, _⟩ => ⟨S4000x256, .f32⟩
  | .local _ .vmem, ⟨48, _⟩ => ⟨S2000x256, .f32⟩
  | .local _ .vmem, ⟨49, _⟩ => ⟨S2000x256, .f32⟩
  | .local _ .vmem, ⟨50, _⟩ => ⟨S2000x256, .f32⟩
  | .local _ .vmem, ⟨51, _⟩ => ⟨S2000x256, .f32⟩
  | .local _ .vmem, ⟨52, _⟩ => ⟨S256x256, .f32⟩
  | .local _ .vmem, ⟨53, _⟩ => ⟨S1x256, .f32⟩
  | .local _ .vmem, ⟨54, _⟩ => ⟨S1x256, .f32⟩
  | .local _ .vmem, ⟨55, _⟩ => ⟨S1x256, .f32⟩
  | .local _ .vmem, ⟨56, _⟩ => ⟨S1x256, .f32⟩
  | .local _ .vmem, ⟨57, _⟩ => ⟨S1x256, .f32⟩
  | .local _ .vmem, ⟨58, _⟩ => ⟨S2000x256, .f32⟩
  | .local _ .vmem, ⟨59, _⟩ => ⟨S2000x256, .f32⟩
  | .local _ .vmem, ⟨60, _⟩ => ⟨S512x256, .f32⟩
  | .local _ .vmem, ⟨61, _⟩ => ⟨S256x128, .f32⟩
  | .local _ .vmem, ⟨62, _⟩ => ⟨S1x128, .f32⟩
  | .local _ .vmem, ⟨63, _⟩ => ⟨S128x1, .f32⟩
  | .local _ .vmem, ⟨64, _⟩ => ⟨S1x1, .f32⟩
  | .local _ .vmem, ⟨65, _⟩ => ⟨S512x1, .f32⟩
  | _, _ => ⟨S20000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_c : Ref sig .tc := ⟨.hbm, 44, rfl⟩
abbrev main_v12 : Ref sig .tc := ⟨.hbm, 45, rfl⟩
abbrev main_v13 : Ref sig .tc := ⟨.hbm, 46, rfl⟩
abbrev main_c_0 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_cst : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_c_1 : Ref sig .tc := ⟨.hbm, 67, rfl⟩
abbrev main_v32 : Ref sig .tc := ⟨.hbm, 68, rfl⟩
abbrev main_v33 : Ref sig .tc := ⟨.hbm, 69, rfl⟩
abbrev main_c_2 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_3 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_c_4 : Ref sig .tc := ⟨.hbm, 90, rfl⟩
abbrev main_v52 : Ref sig .tc := ⟨.hbm, 91, rfl⟩
abbrev main_v53 : Ref sig .tc := ⟨.hbm, 92, rfl⟩
abbrev main_c_5 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_cst_6 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_7 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_cst_8 : Ref sig .tc := ⟨.hbm, 109, rfl⟩
abbrev main_v67 : Ref sig .tc := ⟨.hbm, 110, rfl⟩
abbrev main_cst_9 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_10 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg8_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg7_0 : Ref sig .tc := ⟨.vmem, 37, rfl⟩
abbrev cc3_stg8_0 : Ref sig .tc := ⟨.vmem, 38, rfl⟩
abbrev cc3_stg8_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg4_1 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg1_1 : Ref sig .tc := ⟨.vmem, 51, rfl⟩
abbrev cc5_stg2_0 : Ref sig .tc := ⟨.vmem, 52, rfl⟩
abbrev cc5_stg3_0 : Ref sig .tc := ⟨.vmem, 53, rfl⟩
abbrev cc5_stg4_0 : Ref sig .tc := ⟨.vmem, 54, rfl⟩
abbrev cc5_stg5_0 : Ref sig .tc := ⟨.vmem, 55, rfl⟩
abbrev cc5_stg6_0 : Ref sig .tc := ⟨.vmem, 56, rfl⟩
abbrev cc5_stg7_0 : Ref sig .tc := ⟨.vmem, 57, rfl⟩
abbrev cc5_stg8_0 : Ref sig .tc := ⟨.vmem, 58, rfl⟩
abbrev cc5_stg8_1 : Ref sig .tc := ⟨.vmem, 59, rfl⟩
abbrev cc6_stg0_0 : Ref sig .tc := ⟨.vmem, 60, rfl⟩
abbrev cc6_stg1_0 : Ref sig .tc := ⟨.vmem, 61, rfl⟩
abbrev cc6_stg2_0 : Ref sig .tc := ⟨.vmem, 62, rfl⟩
abbrev cc6_stg3_0 : Ref sig .tc := ⟨.vmem, 63, rfl⟩
abbrev cc6_stg4_0 : Ref sig .tc := ⟨.vmem, 64, rfl⟩
abbrev cc6_stg5_0 : Ref sig .tc := ⟨.vmem, 65, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem8_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem7_0 : DmaSem sig := 37
abbrev cc3_sem8_0 : DmaSem sig := 38
abbrev cc3_sem8_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem4_1 : DmaSem sig := 47
abbrev cc5_sem0_0 : DmaSem sig := 48
abbrev cc5_sem0_1 : DmaSem sig := 49
abbrev cc5_sem1_0 : DmaSem sig := 50
abbrev cc5_sem1_1 : DmaSem sig := 51
abbrev cc5_sem2_0 : DmaSem sig := 52
abbrev cc5_sem3_0 : DmaSem sig := 53
abbrev cc5_sem4_0 : DmaSem sig := 54
abbrev cc5_sem5_0 : DmaSem sig := 55
abbrev cc5_sem6_0 : DmaSem sig := 56
abbrev cc5_sem7_0 : DmaSem sig := 57
abbrev cc5_sem8_0 : DmaSem sig := 58
abbrev cc5_sem8_1 : DmaSem sig := 59
abbrev cc6_sem0_0 : DmaSem sig := 60
abbrev cc6_sem1_0 : DmaSem sig := 61
abbrev cc6_sem2_0 : DmaSem sig := 62
abbrev cc6_sem3_0 : DmaSem sig := 63
abbrev cc6_sem4_0 : DmaSem sig := 64
abbrev cc6_sem5_0 : DmaSem sig := 65

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x256 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![80], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S32x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S4000x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x256 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S2000x256 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x256 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S256x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S512x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  transposes_S64x32_S32x64_1_0 : S64x32.Transposes [1, 0] S32x64
  transposes_S256x64_S64x256_1_0 : S256x64.Transposes [1, 0] S64x256
  shapeCasts_S64_S1x64 : S64.ShapeCasts S1x64
  shapeCasts_S256_S1x256 : S256.ShapeCasts S1x256
  bcast_S_S320000 : S_.BroadcastsInDim S320000 (![] : Fin 0 → Fin S320000.rank)
  bcast_S320000_S320000x1_0 : S320000.BroadcastsInDim S320000x1 (![0] : Fin 1 → Fin S320000x1.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x32_S4000x32_0_0 : ∀ a, (![0, 0] : Fin 2 → Nat) a + S4000x32.size a ≤ S4000x32.size a
  h_S4000x32 : 0 < S4000x32.numel
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  bitsLt_bf16_f32 : FTy.bits .bf16 < FTy.bits .f32
  broadcasts_S1x64_S4000x64 : S1x64.Broadcasts S4000x64
  bcast_S_S20000x64 : S_.BroadcastsInDim S20000x64 (![] : Fin 0 → Fin S20000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  transposes_S256x32_S32x256_1_0 : S256x32.Transposes [1, 0] S32x256
  transposes_S256x256_S256x256_1_0 : S256x256.Transposes [1, 0] S256x256
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S32x256_S32x256_0_0 : ∀ a, (![0, 0] : Fin 2 → Nat) a + S32x256.size a ≤ S32x256.size a
  h_S32x256 : 0 < S32x256.numel
  shapeCasts_S32x256_S32x256 : S32x256.ShapeCasts S32x256
  broadcasts_S1x256_S4000x256 : S1x256.Broadcasts S4000x256
  bcast_S_S20000x256 : S_.BroadcastsInDim S20000x256 (![] : Fin 0 → Fin S20000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S_S512x256 : S_.BroadcastsInDim S512x256 (![] : Fin 0 → Fin S512x256.rank)
  bcast_S20000_S20000x1_0 : S20000.BroadcastsInDim S20000x1 (![0] : Fin 1 → Fin S20000x1.rank)
  bcast_S_S20000 : S_.BroadcastsInDim S20000 (![] : Fin 0 → Fin S20000.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  transposes_S128x256_S256x128_1_0 : S128x256.Transposes [1, 0] S256x128
  shapeCasts_S128_S1x128 : S128.ShapeCasts S1x128
  transposes_S1x128_S128x1_1_0 : S1x128.Transposes [1, 0] S128x1
  shapeCasts_S1_S1x1 : S1.ShapeCasts S1x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  gather_S20000x64_S320000x1_S320000x64_1_0_n_n_0_1_164_wf : GatherDims.WF S20000x64 S320000x1 S320000x64 [1] [0] [] [0] [] 1 ![1, 64]
  dot_S4000x32_S32x64_S4000x64_1_0_0_1_n_n_wf : DotDims.WF S4000x32 S32x64 S4000x64 [1] [0] [0] [1] [] []
  scatter_S20000x64_S320000x1_S320000x64_1_0_0_1_wf : ScatterDims.WF S20000x64 S320000x1 S320000x64 [1] [0] [0] 1
  dot_S2000x64_S64x256_S2000x256_1_0_0_1_n_n_wf : DotDims.WF S2000x64 S64x256 S2000x256 [1] [0] [0] [1] [] []
  gather_S20000x256_S320000x1_S320000x256_1_0_n_n_0_1_1256_wf : GatherDims.WF S20000x256 S320000x1 S320000x256 [1] [0] [] [0] [] 1 ![1, 256]
  dot_S4000x32_S32x256_S4000x256_1_0_0_1_n_n_wf : DotDims.WF S4000x32 S32x256 S4000x256 [1] [0] [0] [1] [] []
  scatter_S20000x256_S320000x1_S320000x256_1_0_0_1_wf : ScatterDims.WF S20000x256 S320000x1 S320000x256 [1] [0] [0] 1
  dot_S2000x256_S256x256_S2000x256_1_0_0_1_n_n_wf : DotDims.WF S2000x256 S256x256 S2000x256 [1] [0] [0] [1] [] []
  scatter_S512x256_S20000x1_S20000x256_1_0_0_1_wf : ScatterDims.WF S512x256 S20000x1 S20000x256 [1] [0] [0] 1
  scatter_S512_S20000x1_S20000_n_0_0_1_wf : ScatterDims.WF S512 S20000x1 S20000 [] [0] [0] 1
  dot_S512x256_S256x128_S512x128_1_0_0_1_n_n_wf : DotDims.WF S512x256 S256x128 S512x128 [1] [0] [0] [1] [] []
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S320000x64.size a
  hwx0_0 : ∀ i : grid0.Coords, EltTy.bits .f32 = 32 ∨ (Rect.block (s := S320000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x32.size a ≤ S320000x32.size a
  hwx0_1 : ∀ i : grid0.Coords, EltTy.bits .f32 = 32 ∨ (Rect.block (s := S320000x32) S4000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x64.size a ≤ S320000x64.size a
  hwx0_4 : ∀ i : grid0.Coords, EltTy.bits .f32 = 32 ∨ (Rect.block (s := S320000x64) S4000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S20000x64.size a
  hwx1_0 : ∀ i : grid1.Coords, EltTy.bits .f32 = 32 ∨ (Rect.block (s := S20000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S20000x64.size a
  hwx1_1 : ∀ i : grid1.Coords, EltTy.bits .f32 = 32 ∨ (Rect.block (s := S20000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x256.size a ≤ S64x256.size a
  hwx1_2 : ∀ i : grid1.Coords, EltTy.bits .f32 = 32 ∨ (Rect.block (s := S64x256) S64x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x256.size a ≤ S20000x256.size a
  hwx1_8 : ∀ i : grid1.Coords, EltTy.bits .f32 = 32 ∨ (Rect.block (s := S20000x256) S2000x256.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S320000x256.size a
  hwx2_0 : ∀ i : grid2.Coords, EltTy.bits .f32 = 32 ∨ (Rect.block (s := S320000x256) S4000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x32.size a ≤ S320000x32.size a
  hwx2_1 : ∀ i : grid2.Coords, EltTy.bits .f32 = 32 ∨ (Rect.block (s := S320000x32) S4000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x256.size a ≤ S32x256.size a
  hwx2_2 : ∀ i : grid2.Coords, EltTy.bits .f32 = 32 ∨ (Rect.block (s := S32x256) S32x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x256.size a ≤ S320000x256.size a
  hwx2_4 : ∀ i : grid2.Coords, EltTy.bits .f32 = 32 ∨ (Rect.block (s := S320000x256) S4000x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S20000x256.size a
  hwx3_0 : ∀ i : grid3.Coords, EltTy.bits .f32 = 32 ∨ (Rect.block (s := S20000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S20000x256.size a
  hwx3_1 : ∀ i : grid3.Coords, EltTy.bits .f32 = 32 ∨ (Rect.block (s := S20000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x256.size a ≤ S1x256.size a
  hwx3_7 : ∀ i : grid3.Coords, EltTy.bits .f32 = 32 ∨ (Rect.block (s := S1x256) S1x256.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x256.size a ≤ S20000x256.size a
  hwx3_8 : ∀ i : grid3.Coords, EltTy.bits .f32 = 32 ∨ (Rect.block (s := S20000x256) S2000x256.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x256.size a ≤ S320000x256.size a
  hwx4_0 : ∀ i : grid4.Coords, EltTy.bits .f32 = 32 ∨ (Rect.block (s := S320000x256) S4000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x32.size a ≤ S320000x32.size a
  hwx4_1 : ∀ i : grid4.Coords, EltTy.bits .f32 = 32 ∨ (Rect.block (s := S320000x32) S4000x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32x256.size a ≤ S32x256.size a
  hwx4_2 : ∀ i : grid4.Coords, EltTy.bits .f32 = 32 ∨ (Rect.block (s := S32x256) S32x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4000x256.size a ≤ S320000x256.size a
  hwx4_4 : ∀ i : grid4.Coords, EltTy.bits .f32 = 32 ∨ (Rect.block (s := S320000x256) S4000x256.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S20000x256.size a
  hwx5_0 : ∀ i : grid5.Coords, EltTy.bits .f32 = 32 ∨ (Rect.block (s := S20000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S20000x256.size a
  hwx5_1 : ∀ i : grid5.Coords, EltTy.bits .f32 = 32 ∨ (Rect.block (s := S20000x256) S2000x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x256.size a ≤ S256x256.size a
  hwx5_2 : ∀ i : grid5.Coords, EltTy.bits .f32 = 32 ∨ (Rect.block (s := S256x256) S256x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x256.size a ≤ S1x256.size a
  hwx5_5 : ∀ i : grid5.Coords, EltTy.bits .f32 = 32 ∨ (Rect.block (s := S1x256) S1x256.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x256.size a ≤ S1x256.size a
  hwx5_6 : ∀ i : grid5.Coords, EltTy.bits .f32 = 32 ∨ (Rect.block (s := S1x256) S1x256.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x256.size a ≤ S1x256.size a
  hwx5_7 : ∀ i : grid5.Coords, EltTy.bits .f32 = 32 ∨ (Rect.block (s := S1x256) S1x256.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S2000x256.size a ≤ S20000x256.size a
  hwx5_8 : ∀ i : grid5.Coords, EltTy.bits .f32 = 32 ∨ (Rect.block (s := S20000x256) S2000x256.size (cc5_transform_8 i) (hinb5_8 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x256.size a ≤ S512x256.size a
  hwx6_0 : ∀ i : grid6.Coords, EltTy.bits .f32 = 32 ∨ (Rect.block (s := S512x256) S512x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x128.size a ≤ S256x128.size a
  hwx6_1 : ∀ i : grid6.Coords, EltTy.bits .f32 = 32 ∨ (Rect.block (s := S256x128) S256x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x1.size a ≤ S128x1.size a
  hwx6_3 : ∀ i : grid6.Coords, EltTy.bits .f32 = 32 ∨ (Rect.block (s := S128x1) S128x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S512x1.size a ≤ S512x1.size a
  hwx6_5 : ∀ i : grid6.Coords, EltTy.bits .f32 = 32 ∨ (Rect.block (s := S512x1) S512x1.size (cc6_transform_5 i) (hinb6_5 i)).WholeWords (EltTy.packing .f32)

variable [Facts₀]

def gather_S20000x64_S320000x1_S320000x64_1_0_n_n_0_1_164 : GatherDims S20000x64 S320000x1 S320000x64 where
  offsetDims := [1]
  collapsedSliceDims := [0]
  operandBatchingDims := []
  startIndicesBatchingDims := []
  startIndexMap := [0]
  indexVectorDim := 1
  sliceSizes := ![1, 64]
  wf := gather_S20000x64_S320000x1_S320000x64_1_0_n_n_0_1_164_wf
def dot_S4000x32_S32x64_S4000x64_1_0_0_1_n_n : DotDims S4000x32 S32x64 S4000x64 where
  lhsContracting := [1]
  rhsContracting := [0]
  lhsNonContracting := [0]
  rhsNonContracting := [1]
  lhsBatch := []
  rhsBatch := []
  wf := dot_S4000x32_S32x64_S4000x64_1_0_0_1_n_n_wf
def scatter_S20000x64_S320000x1_S320000x64_1_0_0_1 : ScatterDims S20000x64 S320000x1 S320000x64 where
  updateWindowDims := [1]
  insertedWindowDims := [0]
  scatterDimsToOperandDims := [0]
  indexVectorDim := 1
  wf := scatter_S20000x64_S320000x1_S320000x64_1_0_0_1_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def dot_S4000x32_S32x256_S4000x256_1_0_0_1_n_n : DotDims S4000x32 S32x256 S4000x256 where
  lhsContracting := [1]
  rhsContracting := [0]
  lhsNonContracting := [0]
  rhsNonContracting := [1]
  lhsBatch := []
  rhsBatch := []
  wf := dot_S4000x32_S32x256_S4000x256_1_0_0_1_n_n_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S512x256_S20000x1_S20000x256_1_0_0_1 : ScatterDims S512x256 S20000x1 S20000x256 where
  updateWindowDims := [1]
  insertedWindowDims := [0]
  scatterDimsToOperandDims := [0]
  indexVectorDim := 1
  wf := scatter_S512x256_S20000x1_S20000x256_1_0_0_1_wf
def scatter_S512_S20000x1_S20000_n_0_0_1 : ScatterDims S512 S20000x1 S20000 where
  updateWindowDims := []
  insertedWindowDims := [0]
  scatterDimsToOperandDims := [0]
  indexVectorDim := 1
  wf := scatter_S512_S20000x1_S20000_n_0_0_1_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_v18) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S4000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S64x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v11) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v23) S2000x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v38) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S4000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S32x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S4000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v23) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v25) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v27) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v28) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v29) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v30) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v31) S1x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v43) S2000x256.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v58) S4000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg2) S4000x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v44) S32x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v46) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v59) S4000x256.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v43) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v62) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v45) S256x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v47) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v48) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v49) S1x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v50) S1x256.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v51) S1x256.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v63) S2000x256.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev win6_0 : Pipeline.Window sig grid6 :=
  Pipeline.Window.ofSpec (Memref.whole main_v75) S512x256.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v76) S256x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v77) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v78) S128x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v79) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v80) S512x1.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S20000x64 : Shape := ⟨2, ![20000, 64]⟩
abbrev S2x320000 : Shape := ⟨2, ![2, 320000]⟩
abbrev S320000x32 : Shape := ⟨2, ![320000, 32]⟩
abbrev S20000 : Shape := ⟨1, ![20000]⟩
abbrev S64x32 : Shape := ⟨2, ![64, 32]⟩
abbrev S64 : Shape := ⟨1, ![64]⟩
abbrev S256x64 : Shape := ⟨2, ![256, 64]⟩
abbrev S256 : Shape := ⟨1, ![256]⟩
abbrev S256x32 : Shape := ⟨2, ![256, 32]⟩
abbrev S256x256 : Shape := ⟨2, ![256, 256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x64 : Shape := ⟨2, ![320000, 64]⟩
abbrev S32x64 : Shape := ⟨2, ![32, 64]⟩
abbrev S1x64 : Shape := ⟨2, ![1, 64]⟩
abbrev S64x256 : Shape := ⟨2, ![64, 256]⟩
abbrev S20000x256 : Shape := ⟨2, ![20000, 256]⟩
abbrev S1x256 : Shape := ⟨2, ![1, 256]⟩
abbrev S320000x256 : Shape := ⟨2, ![320000, 256]⟩
abbrev S32x256 : Shape := ⟨2, ![32, 256]⟩
abbrev S512x256 : Shape := ⟨2, ![512, 256]⟩
abbrev S20000x1 : Shape := ⟨2, ![20000, 1]⟩
abbrev S512 : Shape := ⟨1, ![512]⟩
abbrev S512x1 : Shape := ⟨2, ![512, 1]⟩
abbrev S256x128 : Shape := ⟨2, ![256, 128]⟩
abbrev S512x128 : Shape := ⟨2, ![512, 128]⟩
abbrev S128x1 : Shape := ⟨2, ![128, 1]⟩
abbrev S1x1 : Shape := ⟨2, ![1, 1]⟩

abbrev nBuf : Space → Nat
  | .hbm => 214
  | .vmem => 0
  | .smem => 0
  | _ => 0

abbrev hbmTy0_0 (i : Nat) : BufTy := match i % 128 with
  | 0 => ⟨S20000x64, .f32⟩
  | 1 => ⟨S2x320000, .i32⟩
  | 2 => ⟨S320000x32, .f32⟩
  | 3 => ⟨S20000, .i32⟩
  | 4 => ⟨S64x32, .f32⟩
  | 5 => ⟨S64, .f32⟩
  | 6 => ⟨S256x64, .f32⟩
  | 7 => ⟨S256, .f32⟩
  | 8 => ⟨S256x32, .f32⟩
  | 9 => ⟨S256, .f32⟩
  | 10 => ⟨S256x256, .f32⟩
  | 11 => ⟨S256, .f32⟩
  | 12 => ⟨S256x32, .f32⟩
  | 13 => ⟨S256, .f32⟩
  | 14 => ⟨S256x256, .f32⟩
  | 15 => ⟨S256, .f32⟩
  | 16 => ⟨S256, .f32⟩
  | 17 => ⟨S256, .f32⟩
  | 18 => ⟨S256, .f32⟩
  | 19 => ⟨S256, .f32⟩
  | 20 => ⟨S256, .f32⟩
  | 21 => ⟨S256, .f32⟩
  | 22 => ⟨S256, .f32⟩
  | 23 => ⟨S256, .f32⟩
  | 24 => ⟨S256, .f32⟩
  | 25 => ⟨S256, .f32⟩
  | 26 => ⟨S256, .f32⟩
  | 27 => ⟨S256, .f32⟩
  | 28 => ⟨S128x256, .f32⟩
  | 29 => ⟨S128, .f32⟩
  | 30 => ⟨S1x128, .f32⟩
  | 31 => ⟨S1, .f32⟩
  | 32 => ⟨S1x320000, .i32⟩
  | 33 => ⟨S320000, .i32⟩
  | 34 => ⟨S1x320000, .i32⟩
  | 35 => ⟨S320000, .i32⟩
  | 36 => ⟨S_, .i32⟩
  | 37 => ⟨S320000, .i32⟩
  | 38 => ⟨S320000, .i1⟩
  | 39 => ⟨S_, .i32⟩
  | 40 => ⟨S320000, .i32⟩
  | 41 => ⟨S320000, .i32⟩
  | 42 => ⟨S320000, .i32⟩
  | 43 => ⟨S320000x1, .i32⟩
  | 44 => ⟨S320000x64, .f32⟩
  | 45 => ⟨S32x64, .f32⟩
  | 46 => ⟨S320000x64, .f32⟩
  | 47 => ⟨S320000x64, .f32⟩
  | 48 => ⟨S1x64, .f32⟩
  | 49 => ⟨S320000x64, .f32⟩
  | 50 => ⟨S320000x64, .f32⟩
  | 51 => ⟨S_, .f32⟩
  | 52 => ⟨S320000x64, .f32⟩
  | 53 => ⟨S320000x64, .f32⟩
  | 54 => ⟨S_, .f32⟩
  | 55 => ⟨S20000x64, .f32⟩
  | 56 => ⟨S320000x1, .i32⟩
  | 57 => ⟨S20000x64, .f32⟩
  | 58 => ⟨S20000x64, .f32⟩
  | 59 => ⟨S64x256, .f32⟩
  | 60 => ⟨S20000x256, .f32⟩
  | 61 => ⟨S1x256, .f32⟩
  | 62 => ⟨S20000x256, .f32⟩
  | 63 => ⟨S20000x256, .f32⟩
  | 64 => ⟨S1x256, .f32⟩
  | 65 => ⟨S20000x256, .f32⟩
  | 66 => ⟨S20000x256, .f32⟩
  | 67 => ⟨S_, .f32⟩
  | 68 => ⟨S256, .f32⟩
  | 69 => ⟨S256, .f32⟩
  | 70 => ⟨S256, .f32⟩
  | 71 => ⟨S1x256, .f32⟩
  | 72 => ⟨S20000x256, .f32⟩
  | 73 => ⟨S20000x256, .f32⟩
  | 74 => ⟨S1x256, .f32⟩
  | 75 => ⟨S20000x256, .f32⟩
  | 76 => ⟨S20000x256, .f32⟩
  | 77 => ⟨S1x256, .f32⟩
  | 78 => ⟨S20000x256, .f32⟩
  | 79 => ⟨S20000x256, .f32⟩
  | 80 => ⟨S_, .f32⟩
  | 81 => ⟨S20000x256, .f32⟩
  | 82 => ⟨S20000x256, .f32⟩
  | 83 => ⟨S_, .i32⟩
  | 84 => ⟨S320000, .i32⟩
  | 85 => ⟨S320000, .i1⟩
  | 86 => ⟨S_, .i32⟩
  | 87 => ⟨S320000, .i32⟩
  | 88 => ⟨S320000, .i32⟩
  | 89 => ⟨S320000, .i32⟩
  | 90 => ⟨S320000x1, .i32⟩
  | 91 => ⟨S320000x256, .f32⟩
  | 92 => ⟨S32x256, .f32⟩
  | 93 => ⟨S320000x256, .f32⟩
  | 94 => ⟨S320000x256, .f32⟩
  | 95 => ⟨S1x256, .f32⟩
  | 96 => ⟨S320000x256, .f32⟩
  | 97 => ⟨S320000x256, .f32⟩
  | 98 => ⟨S_, .f32⟩
  | 99 => ⟨S320000x256, .f32⟩
  | 100 => ⟨S320000x256, .f32⟩
  | 101 => ⟨S_, .f32⟩
  | 102 => ⟨S20000x256, .f32⟩
  | 103 => ⟨S320000x1, .i32⟩
  | 104 => ⟨S20000x256, .f32⟩
  | 105 => ⟨S20000x256, .f32⟩
  | 106 => ⟨S256x256, .f32⟩
  | 107 => ⟨S20000x256, .f32⟩
  | 108 => ⟨S1x256, .f32⟩
  | 109 => ⟨S20000x256, .f32⟩
  | 110 => ⟨S20000x256, .f32⟩
  | 111 => ⟨S1x256, .f32⟩
  | 112 => ⟨S20000x256, .f32⟩
  | 113 => ⟨S20000x256, .f32⟩
  | 114 => ⟨S_, .f32⟩
  | 115 => ⟨S256, .f32⟩
  | 116 => ⟨S256, .f32⟩
  | 117 => ⟨S256, .f32⟩
  | 118 => ⟨S1x256, .f32⟩
  | 119 => ⟨S20000x256, .f32⟩
  | 120 => ⟨S20000x256, .f32⟩
  | 121 => ⟨S1x256, .f32⟩
  | 122 => ⟨S20000x256, .f32⟩
  | 123 => ⟨S20000x256, .f32⟩
  | 124 => ⟨S1x256, .f32⟩
  | 125 => ⟨S20000x256, .f32⟩
  | 126 => ⟨S20000x256, .f32⟩
  | 127 => ⟨S_, .f32⟩
  | _ => ⟨S20000x64, .f32⟩

abbrev hbmTy0_1 (i : Nat) : BufTy := match i % 128 with
  | 0 => ⟨S20000x256, .f32⟩
  | 1 => ⟨S20000x256, .f32⟩
  | 2 => ⟨S_, .i32⟩
  | 3 => ⟨S320000, .i32⟩
  | 4 => ⟨S320000, .i1⟩
  | 5 => ⟨S_, .i32⟩
  | 6 => ⟨S320000, .i32⟩
  | 7 => ⟨S320000, .i32⟩
  | 8 => ⟨S320000, .i32⟩
  | 9 => ⟨S320000x1, .i32⟩
  | 10 => ⟨S320000x256, .f32⟩
  | 11 => ⟨S32x256, .f32⟩
  | 12 => ⟨S320000x256, .f32⟩
  | 13 => ⟨S320000x256, .f32⟩
  | 14 => ⟨S1x256, .f32⟩
  | 15 => ⟨S320000x256, .f32⟩
  | 16 => ⟨S320000x256, .f32⟩
  | 17 => ⟨S_, .f32⟩
  | 18 => ⟨S320000x256, .f32⟩
  | 19 => ⟨S320000x256, .f32⟩
  | 20 => ⟨S_, .f32⟩
  | 21 => ⟨S20000x256, .f32⟩
  | 22 => ⟨S320000x1, .i32⟩
  | 23 => ⟨S20000x256, .f32⟩
  | 24 => ⟨S20000x256, .f32⟩
  | 25 => ⟨S256x256, .f32⟩
  | 26 => ⟨S20000x256, .f32⟩
  | 27 => ⟨S1x256, .f32⟩
  | 28 => ⟨S20000x256, .f32⟩
  | 29 => ⟨S20000x256, .f32⟩
  | 30 => ⟨S1x256, .f32⟩
  | 31 => ⟨S20000x256, .f32⟩
  | 32 => ⟨S20000x256, .f32⟩
  | 33 => ⟨S_, .f32⟩
  | 34 => ⟨S256, .f32⟩
  | 35 => ⟨S256, .f32⟩
  | 36 => ⟨S256, .f32⟩
  | 37 => ⟨S1x256, .f32⟩
  | 38 => ⟨S20000x256, .f32⟩
  | 39 => ⟨S20000x256, .f32⟩
  | 40 => ⟨S1x256, .f32⟩
  | 41 => ⟨S20000x256, .f32⟩
  | 42 => ⟨S20000x256, .f32⟩
  | 43 => ⟨S1x256, .f32⟩
  | 44 => ⟨S20000x256, .f32⟩
  | 45 => ⟨S20000x256, .f32⟩
  | 46 => ⟨S_, .f32⟩
  | 47 => ⟨S20000x256, .f32⟩
  | 48 => ⟨S20000x256, .f32⟩
  | 49 => ⟨S_, .f32⟩
  | 50 => ⟨S512x256, .f32⟩
  | 51 => ⟨S20000x1, .i32⟩
  | 52 => ⟨S512x256, .f32⟩
  | 53 => ⟨S_, .f32⟩
  | 54 => ⟨S20000, .f32⟩
  | 55 => ⟨S_, .f32⟩
  | 56 => ⟨S512, .f32⟩
  | 57 => ⟨S20000x1, .i32⟩
  | 58 => ⟨S512, .f32⟩
  | 59 => ⟨S_, .f32⟩
  | 60 => ⟨S512, .f32⟩
  | 61 => ⟨S512, .f32⟩
  | 62 => ⟨S512x1, .f32⟩
  | 63 => ⟨S512x256, .f32⟩
  | 64 => ⟨S512x256, .f32⟩
  | 65 => ⟨S256x128, .f32⟩
  | 66 => ⟨S512x128, .f32⟩
  | 67 => ⟨S1x128, .f32⟩
  | 68 => ⟨S512x128, .f32⟩
  | 69 => ⟨S512x128, .f32⟩
  | 70 => ⟨S_, .f32⟩
  | 71 => ⟨S512x128, .f32⟩
  | 72 => ⟨S512x128, .f32⟩
  | 73 => ⟨S128x1, .f32⟩
  | 74 => ⟨S512x1, .f32⟩
  | 75 => ⟨S1x1, .f32⟩
  | 76 => ⟨S512x1, .f32⟩
  | 77 => ⟨S512x1, .f32⟩
  | 78 => ⟨S512x1, .f32⟩
  | 79 => ⟨S512x1, .f32⟩
  | 80 => ⟨S_, .f32⟩
  | 81 => ⟨S512x1, .f32⟩
  | 82 => ⟨S512x1, .f32⟩
  | 83 => ⟨S_, .f32⟩
  | 84 => ⟨S512x1, .f32⟩
  | 85 => ⟨S512x1, .f32⟩
  | _ => ⟨S20000x64, .f32⟩

abbrev hbmTy (i : Nat) : BufTy := match i / 128 with
  | 0 => hbmTy0_0 i
  | 1 => hbmTy0_1 i
  | _ => ⟨S20000x64, .f32⟩

abbrev bufTy : (tb : Table) → Fin (tcTables nBuf tb) → BufTy
  | .hbm, ⟨i, _⟩ => hbmTy i
  | _, _ => ⟨S20000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_c : Ref sig .tc := ⟨.hbm, 36, rfl⟩
abbrev main_v4 : Ref sig .tc := ⟨.hbm, 37, rfl⟩
abbrev main_v5 : Ref sig .tc := ⟨.hbm, 38, rfl⟩
abbrev main_c_0 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_call0_cst : Ref sig .tc := ⟨.hbm, 51, rfl⟩
abbrev main_call0_v0 : Ref sig .tc := ⟨.hbm, 52, rfl⟩
abbrev main_v17 : Ref sig .tc := ⟨.hbm, 53, rfl⟩
abbrev main_cst : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_cst_1 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_call1_cst : Ref sig .tc := ⟨.hbm, 80, rfl⟩
abbrev main_call1_v0 : Ref sig .tc := ⟨.hbm, 81, rfl⟩
abbrev main_v42 : Ref sig .tc := ⟨.hbm, 82, rfl⟩
abbrev main_c_2 : Ref sig .tc := ⟨.hbm, 83, rfl⟩
abbrev main_v43 : Ref sig .tc := ⟨.hbm, 84, rfl⟩
abbrev main_v44 : Ref sig .tc := ⟨.hbm, 85, rfl⟩
abbrev main_c_3 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_call2_cst : Ref sig .tc := ⟨.hbm, 98, rfl⟩
abbrev main_call2_v0 : Ref sig .tc := ⟨.hbm, 99, rfl⟩
abbrev main_v56 : Ref sig .tc := ⟨.hbm, 100, rfl⟩
abbrev main_cst_4 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_cst_5 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_call3_cst : Ref sig .tc := ⟨.hbm, 127, rfl⟩
abbrev main_call3_v0 : Ref sig .tc := ⟨.hbm, 128, rfl⟩
abbrev main_v81 : Ref sig .tc := ⟨.hbm, 129, rfl⟩
abbrev main_c_6 : Ref sig .tc := ⟨.hbm, 130, rfl⟩
abbrev main_v82 : Ref sig .tc := ⟨.hbm, 131, rfl⟩
abbrev main_v83 : Ref sig .tc := ⟨.hbm, 132, rfl⟩
abbrev main_c_7 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_call4_cst : Ref sig .tc := ⟨.hbm, 145, rfl⟩
abbrev main_call4_v0 : Ref sig .tc := ⟨.hbm, 146, rfl⟩
abbrev main_v95 : Ref sig .tc := ⟨.hbm, 147, rfl⟩
abbrev main_cst_8 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_cst_9 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_call5_cst : Ref sig .tc := ⟨.hbm, 174, rfl⟩
abbrev main_call5_v0 : Ref sig .tc := ⟨.hbm, 175, rfl⟩
abbrev main_v120 : Ref sig .tc := ⟨.hbm, 176, rfl⟩
abbrev main_cst_10 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_cst_11 : Ref sig .tc := ⟨.hbm, 181, rfl⟩
abbrev main_v124 : Ref sig .tc := ⟨.hbm, 182, rfl⟩
abbrev main_cst_12 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_cst_13 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_call6_cst : Ref sig .tc := ⟨.hbm, 198, rfl⟩
abbrev main_call6_v0 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_cst_14 : Ref sig .tc := ⟨.hbm, 208, rfl⟩
abbrev main_v146 : Ref sig .tc := ⟨.hbm, 209, rfl⟩
abbrev main_v147 : Ref sig .tc := ⟨.hbm, 210, rfl⟩
abbrev main_cst_15 : Ref sig .tc := ⟨.hbm, 211, rfl⟩
abbrev main_v148 : Ref sig .tc := ⟨.hbm, 212, rfl⟩
abbrev main_v149 : Ref sig .tc := ⟨.hbm, 213, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  transposes_S64x32_S32x64_1_0 : S64x32.Transposes [1, 0] S32x64
  bcast_S64_S1x64_1 : S64.BroadcastsInDim S1x64 (![1] : Fin 1 → Fin S1x64.rank)
  bcast_S1x64_S320000x64_0_1 : S1x64.BroadcastsInDim S320000x64 (![0, 1] : Fin 2 → Fin S320000x64.rank)
  bcast_S_S320000x64 : S_.BroadcastsInDim S320000x64 (![] : Fin 0 → Fin S320000x64.rank)
  bcast_S_S20000x64 : S_.BroadcastsInDim S20000x64 (![] : Fin 0 → Fin S20000x64.rank)
  transposes_S256x64_S64x256_1_0 : S256x64.Transposes [1, 0] S64x256
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S_S256 : S_.BroadcastsInDim S256 (![] : Fin 0 → Fin S256.rank)
  bcast_S_S20000x256 : S_.BroadcastsInDim S20000x256 (![] : Fin 0 → Fin S20000x256.rank)
  transposes_S256x32_S32x256_1_0 : S256x32.Transposes [1, 0] S32x256
  bcast_S1x256_S320000x256_0_1 : S1x256.BroadcastsInDim S320000x256 (![0, 1] : Fin 2 → Fin S320000x256.rank)
  bcast_S_S320000x256 : S_.BroadcastsInDim S320000x256 (![] : Fin 0 → Fin S320000x256.rank)
  transposes_S256x256_S256x256_1_0 : S256x256.Transposes [1, 0] S256x256
  bcast_S_S512x256 : S_.BroadcastsInDim S512x256 (![] : Fin 0 → Fin S512x256.rank)
  bcast_S20000_S20000x1_0 : S20000.BroadcastsInDim S20000x1 (![0] : Fin 1 → Fin S20000x1.rank)
  bcast_S_S20000 : S_.BroadcastsInDim S20000 (![] : Fin 0 → Fin S20000.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  transposes_S128x256_S256x128_1_0 : S128x256.Transposes [1, 0] S256x128
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  transposes_S1x128_S128x1_1_0 : S1x128.Transposes [1, 0] S128x1
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  bcast_S_S512x1 : S_.BroadcastsInDim S512x1 (![] : Fin 0 → Fin S512x1.rank)
  gather_S20000x64_S320000x1_S320000x64_1_0_n_n_0_1_164_wf : GatherDims.WF S20000x64 S320000x1 S320000x64 [1] [0] [] [0] [] 1 ![1, 64]
  dot_S320000x32_S32x64_S320000x64_1_0_0_1_n_n_wf : DotDims.WF S320000x32 S32x64 S320000x64 [1] [0] [0] [1] [] []
  scatter_S20000x64_S320000x1_S320000x64_1_0_0_1_wf : ScatterDims.WF S20000x64 S320000x1 S320000x64 [1] [0] [0] 1
  dot_S20000x64_S64x256_S20000x256_1_0_0_1_n_n_wf : DotDims.WF S20000x64 S64x256 S20000x256 [1] [0] [0] [1] [] []
  gather_S20000x256_S320000x1_S320000x256_1_0_n_n_0_1_1256_wf : GatherDims.WF S20000x256 S320000x1 S320000x256 [1] [0] [] [0] [] 1 ![1, 256]
  dot_S320000x32_S32x256_S320000x256_1_0_0_1_n_n_wf : DotDims.WF S320000x32 S32x256 S320000x256 [1] [0] [0] [1] [] []
  scatter_S20000x256_S320000x1_S320000x256_1_0_0_1_wf : ScatterDims.WF S20000x256 S320000x1 S320000x256 [1] [0] [0] 1
  dot_S20000x256_S256x256_S20000x256_1_0_0_1_n_n_wf : DotDims.WF S20000x256 S256x256 S20000x256 [1] [0] [0] [1] [] []
  scatter_S512x256_S20000x1_S20000x256_1_0_0_1_wf : ScatterDims.WF S512x256 S20000x1 S20000x256 [1] [0] [0] 1
  scatter_S512_S20000x1_S20000_n_0_0_1_wf : ScatterDims.WF S512 S20000x1 S20000 [] [0] [0] 1
  dot_S512x256_S256x128_S512x128_1_0_0_1_n_n_wf : DotDims.WF S512x256 S256x128 S512x128 [1] [0] [0] [1] [] []
  dot_S512x128_S128x1_S512x1_1_0_0_1_n_n_wf : DotDims.WF S512x128 S128x1 S512x1 [1] [0] [0] [1] [] []

variable [Facts₀]

def gather_S20000x64_S320000x1_S320000x64_1_0_n_n_0_1_164 : GatherDims S20000x64 S320000x1 S320000x64 where
  offsetDims := [1]
  collapsedSliceDims := [0]
  operandBatchingDims := []
  startIndicesBatchingDims := []
  startIndexMap := [0]
  indexVectorDim := 1
  sliceSizes := ![1, 64]
  wf := gather_S20000x64_S320000x1_S320000x64_1_0_n_n_0_1_164_wf
def dot_S320000x32_S32x64_S320000x64_1_0_0_1_n_n : DotDims S320000x32 S32x64 S320000x64 where
  lhsContracting := [1]
  rhsContracting := [0]
  lhsNonContracting := [0]
  rhsNonContracting := [1]
  lhsBatch := []
  rhsBatch := []
  wf := dot_S320000x32_S32x64_S320000x64_1_0_0_1_n_n_wf
def scatter_S20000x64_S320000x1_S320000x64_1_0_0_1 : ScatterDims S20000x64 S320000x1 S320000x64 where
  updateWindowDims := [1]
  insertedWindowDims := [0]
  scatterDimsToOperandDims := [0]
  indexVectorDim := 1
  wf := scatter_S20000x64_S320000x1_S320000x64_1_0_0_1_wf
def dot_S20000x64_S64x256_S20000x256_1_0_0_1_n_n : DotDims S20000x64 S64x256 S20000x256 where
  lhsContracting := [1]
  rhsContracting := [0]
  lhsNonContracting := [0]
  rhsNonContracting := [1]
  lhsBatch := []
  rhsBatch := []
  wf := dot_S20000x64_S64x256_S20000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def dot_S320000x32_S32x256_S320000x256_1_0_0_1_n_n : DotDims S320000x32 S32x256 S320000x256 where
  lhsContracting := [1]
  rhsContracting := [0]
  lhsNonContracting := [0]
  rhsNonContracting := [1]
  lhsBatch := []
  rhsBatch := []
  wf := dot_S320000x32_S32x256_S320000x256_1_0_0_1_n_n_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def scatter_S512x256_S20000x1_S20000x256_1_0_0_1 : ScatterDims S512x256 S20000x1 S20000x256 where
  updateWindowDims := [1]
  insertedWindowDims := [0]
  scatterDimsToOperandDims := [0]
  indexVectorDim := 1
  wf := scatter_S512x256_S20000x1_S20000x256_1_0_0_1_wf
def scatter_S512_S20000x1_S20000_n_0_0_1 : ScatterDims S512 S20000x1 S20000 where
  updateWindowDims := []
  insertedWindowDims := [0]
  scatterDimsToOperandDims := [0]
  indexVectorDim := 1
  wf := scatter_S512_S20000x1_S20000_n_0_0_1_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.KRun.lean ====
/-
  The idealized kernel's whole run, with the result named: every weakly fair execution of @main terminates, nothing
  faulting, with every unscoped buffer at the contents the fold through @main's segments leaves — so the result buffer
  holds the last region's output array, and each argument is as launched.
-/
import proofs.«180599_j70557722739068_1_alg».proof.Proof.Gen.KernelIdeal.Frame

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over @main's fourteen segments, its final state read at the result buffer and at every argument. -/
theorem run : θ_run defs (onTc (τ := τ) (main (F := F))) ⟨m, fun _ => 0, ρ⟩ (fun r => ∀ c : Dev nD,
      r.2.mem ((c.tc : Thread nD τ).loc main_v80) = W14 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v80 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c),
       (h c _ (mem_uc main_arg17 (by decide))).trans (W14_main_arg17 m ρ c),
       (h c _ (mem_uc main_arg18 (by decide))).trans (W14_main_arg18 m ρ c),
       (h c _ (mem_uc main_arg19 (by decide))).trans (W14_main_arg19 m ρ c),
       (h c _ (mem_uc main_arg20 (by decide))).trans (W14_main_arg20 m ρ c),
       (h c _ (mem_uc main_arg21 (by decide))).trans (W14_main_arg21 m ρ c),
       (h c _ (mem_uc main_arg22 (by decide))).trans (W14_main_arg22 m ρ c),
       (h c _ (mem_uc main_arg23 (by decide))).trans (W14_main_arg23 m ρ c),
       (h c _ (mem_uc main_arg24 (by decide))).trans (W14_main_arg24 m ρ c),
       (h c _ (mem_uc main_arg25 (by decide))).trans (W14_main_arg25 m ρ c),
       (h c _ (mem_uc main_arg26 (by decide))).trans (W14_main_arg26 m ρ c),
       (h c _ (mem_uc main_arg27 (by decide))).trans (W14_main_arg27 m ρ c),
       (h c _ (mem_uc main_arg28 (by decide))).trans (W14_main_arg28 m ρ c),
       (h c _ (mem_uc main_arg29 (by decide))).trans (W14_main_arg29 m ρ c),
       (h c _ (mem_uc main_arg30 (by decide))).trans (W14_main_arg30 m ρ c),
       (h c _ (mem_uc main_arg31 (by decide))).trans (W14_main_arg31 m ρ c)⟩)

end Cert.KernelIdeal.KRun

end
-- ==== Proof.Spec.lean ====
/-
  The layers of a three-layer edge-conditioned graph network, written as arrays over the extended reals, generic in
  the row count so that one formula reads a block of rows and the whole matrix alike.

  message:  m(r, q) = max((x_src(r, q) + Σ_j e(r, j) · we(j, q)) + be(0, q), 0)  — an edge's source features plus the
            edge attributes through a linear map plus a bias, rectified.
  update:   h(r, q) = max((((Σ_j (x(r, j) + aggr(r, j)) · wn(j, q) + bnb(0, q)) - rm(0, q)) · rsqrt(rv(0, q) + ε)) · g(0, q)
            + b(0, q), 0)  — a node's features plus its aggregated messages through a linear map, normalised with
            running statistics, scaled, shifted, rectified.
  head:     out(r, 0) = logistic(Σ_j max(Σ_k p(r, k) · w4(k, j) + b4(0, j), 0) · w5(j, 0) + b5(0, 0)).
  Every entry depends on row r of the row-indexed operands only (the congruence lemmas), which is what lets a block of
  rows be compared with the whole array.  Nothing is rearranged: no finiteness of the data is used.
-/
import Idealize.ShloMosaic.PureOps.Ideal
import Idealize.ShloMosaic.Lib.ValueIdx
import Idealize.ShloMosaic.Lib.ValueLayout

noncomputable section

namespace Cert.Gine

open Idealize.ShloMosaic Idealize.ShloMosaic.ValueIdx
open scoped BigOperators

/-- An [n, d] matrix over the extended reals. -/
abbrev Mat (n d : ℕ) := (⟨2, ![n, d]⟩ : Shape).Idx → EReal

/-- The f32 zero word and the normalisation's ε word, as extended reals. -/
abbrev z32 : EReal := Ideal.ofBits .f32 0x00000000#32
abbrev eps32 : EReal := Ideal.ofBits .f32 0x3727C5AC#32

/-- The transposed matrix. -/
def tr {a b : ℕ} (w : Mat a b) : Mat b a := fun i => w (ix2 (i 1) (i 0))

theorem tr_ix2 {a b : ℕ} (w : Mat a b) (p : Fin b) (q : Fin a) : tr w (ix2 p q) = w (ix2 q p) := rfl

/-- A length-d vector as a [1, d] row. -/
def row {d : ℕ} (v : (⟨1, ![d]⟩ : Shape).Idx → EReal) : Mat 1 d := fun i => v (ix1 (i 1))

theorem row_ix2 {d : ℕ} (v : (⟨1, ![d]⟩ : Shape).Idx → EReal) (p : Fin 1) (q : Fin d) : row v (ix2 p q) = v (ix1 q) := rfl

/-- The layout operation that transposes a matrix gives the transposed matrix. -/
theorem transpose_eq_tr {a b : ℕ} (x : Mat a b) (h : (⟨2, ![a, b]⟩ : Shape).Transposes [1, 0] ⟨2, ![b, a]⟩) :
    transpose ⟨2, ![b, a]⟩ [1, 0] x h = tr x := by
  funext i
  rw [eq_ix2 i]
  exact transpose_ix2_apply x h (i 0) (i 1)

/-- A length-d vector reshaped to [1, d] is the row. -/
theorem shapeCast_eq_row {d : ℕ} (x : (⟨1, ![d]⟩ : Shape).Idx → EReal) (h : (⟨1, ![d]⟩ : Shape).ShapeCasts ⟨2, ![1, d]⟩) :
    shapeCast ⟨2, ![1, d]⟩ x h = row x := by
  funext i
  rw [eq_ix2 i]
  exact shapeCast_a_1a_apply x h (i 0) (i 1)

/-- Entry (p, q) of the product x · w. -/
def dotAt {n k d : ℕ} (x : Mat n k) (w : Mat k d) (p : Fin n) (q : Fin d) : EReal :=
  ∑ j : Fin k, x (ix2 p j) * w (ix2 j q)

theorem dotAt_congr {n n' k d : ℕ} (x : Mat n k) (x' : Mat n' k) (w w' : Mat k d) (p : Fin n) (p' : Fin n') (q : Fin d)
    (hx : ∀ j : Fin k, x (ix2 p j) = x' (ix2 p' j)) (hw : ∀ j : Fin k, w (ix2 j q) = w' (ix2 j q)) :
    dotAt x w p q = dotAt x' w' p' q :=
  Finset.sum_congr rfl fun j _ => by rw [hx j, hw j]

/-- The message of an edge. -/
def msg {n k d : ℕ} (X : Mat n d) (E : Mat n k) (Wt : Mat k d) (B : Mat 1 d) : Mat n d :=
  fun i => max ((X i + dotAt E Wt (i 0) (i 1)) + B (ix2 (0 : Fin 1) (i 1))) z32

theorem msg_ix2 {n k d : ℕ} (X : Mat n d) (E : Mat n k) (Wt : Mat k d) (B : Mat 1 d) (p : Fin n) (q : Fin d) :
    msg X E Wt B (ix2 p q) = max ((X (ix2 p q) + dotAt E Wt p q) + B (ix2 (0 : Fin 1) q)) z32 := rfl

/-- A message read at two places that hold the same entries. -/
theorem msg_congr {n n' k d : ℕ} (X : Mat n d) (E : Mat n k) (Wt : Mat k d) (B : Mat 1 d)
    (X' : Mat n' d) (E' : Mat n' k) (Wt' : Mat k d) (B' : Mat 1 d) (p : Fin n) (p' : Fin n') (q : Fin d)
    (hX : X (ix2 p q) = X' (ix2 p' q)) (hE : ∀ j : Fin k, E (ix2 p j) = E' (ix2 p' j))
    (hW : ∀ j : Fin k, Wt (ix2 j q) = Wt' (ix2 j q)) (hB : B (ix2 (0 : Fin 1) q) = B' (ix2 (0 : Fin 1) q)) :
    msg X E Wt B (ix2 p q) = msg X' E' Wt' B' (ix2 p' q) := by
  rw [msg_ix2, msg_ix2, hX, hB, dotAt_congr E E' Wt Wt' p p' q hE hW]

/-- The update of a node. -/
def node {n d e : ℕ} (X A : Mat n d) (Wt : Mat d e) (bnb g b rm rv : Mat 1 e) : Mat n e :=
  fun i => max ((((dotAt (fun j => X j + A j) Wt (i 0) (i 1) + bnb (ix2 (0 : Fin 1) (i 1))) - rm (ix2 (0 : Fin 1) (i 1)))
      * Ideal.rsqrt (rv (ix2 (0 : Fin 1) (i 1)) + eps32)) * g (ix2 (0 : Fin 1) (i 1)) + b (ix2 (0 : Fin 1) (i 1))) z32

theorem node_ix2 {n d e : ℕ} (X A : Mat n d) (Wt : Mat d e) (bnb g b rm rv : Mat 1 e) (p : Fin n) (q : Fin e) :
    node X A Wt bnb g b rm rv (ix2 p q)
      = max ((((dotAt (fun j => X j + A j) Wt p q + bnb (ix2 (0 : Fin 1) q)) - rm (ix2 (0 : Fin 1) q))
          * Ideal.rsqrt (rv (ix2 (0 : Fin 1) q) + eps32)) * g (ix2 (0 : Fin 1) q) + b (ix2 (0 : Fin 1) q)) z32 := rfl

/-- A node's update read at two places that hold the same entries. -/
theorem node_congr {n n' d e : ℕ} (X A : Mat n d) (Wt : Mat d e) (bnb g b rm rv : Mat 1 e)
    (X' A' : Mat n' d) (Wt' : Mat d e) (bnb' g' b' rm' rv' : Mat 1 e) (p : Fin n) (p' : Fin n') (q : Fin e)
    (hX : ∀ j : Fin d, X (ix2 p j) = X' (ix2 p' j)) (hA : ∀ j : Fin d, A (ix2 p j) = A' (ix2 p' j))
    (hW : ∀ j : Fin d, Wt (ix2 j q) = Wt' (ix2 j q))
    (h1 : bnb (ix2 (0 : Fin 1) q) = bnb' (ix2 (0 : Fin 1) q)) (h2 : g (ix2 (0 : Fin 1) q) = g' (ix2 (0 : Fin 1) q))
    (h3 : b (ix2 (0 : Fin 1) q) = b' (ix2 (0 : Fin 1) q)) (h4 : rm (ix2 (0 : Fin 1) q) = rm' (ix2 (0 : Fin 1) q))
    (h5 : rv (ix2 (0 : Fin 1) q) = rv' (ix2 (0 : Fin 1) q)) :
    node X A Wt bnb g b rm rv (ix2 p q) = node X' A' Wt' bnb' g' b' rm' rv' (ix2 p' q) := by
  rw [node_ix2, node_ix2, h1, h2, h3, h4, h5,
    dotAt_congr (fun j => X j + A j) (fun j => X' j + A' j) Wt Wt' p p' q (fun j => by show X _ + A _ = X' _ + A' _; rw [hX j, hA j]) hW]

/-- The head's hidden layer. -/
def hidden {n d e : ℕ} (P : Mat n d) (W : Mat d e) (B : Mat 1 e) : Mat n e :=
  fun i => max (dotAt P W (i 0) (i 1) + B (ix2 (0 : Fin 1) (i 1))) z32

theorem hidden_ix2 {n d e : ℕ} (P : Mat n d) (W : Mat d e) (B : Mat 1 e) (p : Fin n) (q : Fin e) :
    hidden P W B (ix2 p q) = max (dotAt P W p q + B (ix2 (0 : Fin 1) q)) z32 := rfl

/-- The head: a hidden layer, a linear map to one column, the logistic function. -/
def head {n d e : ℕ} (P : Mat n d) (W4 : Mat d e) (B4 : Mat 1 e) (W5 : Mat e 1) (B5 : Mat 1 1) : Mat n 1 :=
  fun i => Ideal.logistic (dotAt (hidden P W4 B4) W5 (i 0) (i 1) + B5 (ix2 (0 : Fin 1) (i 1)))

theorem head_ix2 {n d e : ℕ} (P : Mat n d) (W4 : Mat d e) (B4 : Mat 1 e) (W5 : Mat e 1) (B5 : Mat 1 1) (p : Fin n) (q : Fin 1) :
    head P W4 B4 W5 B5 (ix2 p q) = Ideal.logistic (dotAt (hidden P W4 B4) W5 p q + B5 (ix2 (0 : Fin 1) q)) := rfl

end Cert.Gine

end
-- ==== Proof.Host.lean ====
/-
  The host operations between the kernel's regions, read from an arbitrary valuation of the buffers: each stretch's
  results as the reference's own stages (where both programs apply the same operations to the same operands) or as the
  transposed matrix / the row of a vector (where the kernel's program lays a parameter out for a region).
-/
import proofs.«180599_j70557722739068_1_alg».proof.Proof.Gen.KernelIdeal.Launch
import proofs.«180599_j70557722739068_1_alg».proof.Proof.Gen.ReferenceIdeal.Read
import proofs.«180599_j70557722739068_1_alg».proof.Proof.Spec
import Idealize.ShloMosaic.Lib.StableHlo.Run

noncomputable section

namespace Cert.KernelIdeal.HostRead

open Cert.KernelIdeal Cert.KernelIdeal.Gen Idealize.ShloMosaic Idealize.ShloMosaic.TcCoe Idealize.SL.Sem
open Idealize.ShloMosaic.StableHlo Cert.Gine Cert.ReferenceIdeal.Read

variable (W : Valuation τ sig (Elt Ideal))

/-! ## Before the first region: the index fix-up and the gather of the source rows, and the first layer's parameters -/

set_option maxHeartbeats 2000000 in
theorem rd0_v18 : StableHlo.after (hostOps0 (F := Ideal)) W (Proc.devRef .tc main_v18)
    = val_main_v10 (F := Ideal) (W (Proc.devRef .tc main_arg0)) (W (Proc.devRef .tc main_arg1)) := by
  dsimp only [hostOps0]; after_results_simp; rfl

theorem rd0_v1 : StableHlo.after (hostOps0 (F := Ideal)) W (Proc.devRef .tc main_v1) = val_main_v1 (F := Ideal) (W (Proc.devRef .tc main_arg1)) := by
  dsimp only [hostOps0]; after_results; rfl

theorem rd0_v3 : StableHlo.after (hostOps0 (F := Ideal)) W (Proc.devRef .tc main_v3) = val_main_v3 (F := Ideal) (W (Proc.devRef .tc main_arg1)) := by
  dsimp only [hostOps0]; after_results; rfl

theorem rd0_v4 : StableHlo.after (hostOps0 (F := Ideal)) W (Proc.devRef .tc main_v4) = tr (W (Proc.devRef .tc main_arg4)) := by
  dsimp only [hostOps0]; after_results; exact transpose_eq_tr _ _

theorem rd0_v5 : StableHlo.after (hostOps0 (F := Ideal)) W (Proc.devRef .tc main_v5) = tr (W (Proc.devRef .tc main_arg6)) := by
  dsimp only [hostOps0]; after_results; exact transpose_eq_tr _ _

theorem rd0_v6 : StableHlo.after (hostOps0 (F := Ideal)) W (Proc.devRef .tc main_v6) = row (W (Proc.devRef .tc main_arg5)) := by
  dsimp only [hostOps0]; after_results; exact shapeCast_eq_row _ _

theorem rd0_v7 : StableHlo.after (hostOps0 (F := Ideal)) W (Proc.devRef .tc main_v7) = row (W (Proc.devRef .tc main_arg7)) := by
  dsimp only [hostOps0]; after_results; exact shapeCast_eq_row _ _

theorem rd0_v8 : StableHlo.after (hostOps0 (F := Ideal)) W (Proc.devRef .tc main_v8) = row (W (Proc.devRef .tc main_arg16)) := by
  dsimp only [hostOps0]; after_results; exact shapeCast_eq_row _ _

theorem rd0_v9 : StableHlo.after (hostOps0 (F := Ideal)) W (Proc.devRef .tc main_v9) = row (W (Proc.devRef .tc main_arg17)) := by
  dsimp only [hostOps0]; after_results; exact shapeCast_eq_row _ _

theorem rd0_v10 : StableHlo.after (hostOps0 (F := Ideal)) W (Proc.devRef .tc main_v10) = row (W (Proc.devRef .tc main_arg18)) := by
  dsimp only [hostOps0]; after_results; exact shapeCast_eq_row _ _

theorem rd0_v11 : StableHlo.after (hostOps0 (F := Ideal)) W (Proc.devRef .tc main_v11) = row (W (Proc.devRef .tc main_arg19)) := by
  dsimp only [hostOps0]; after_results; exact shapeCast_eq_row _ _

/-! ## After a message region: the messages summed into their destination rows -/

theorem rd1_v22 (x1 : (⟨Cert.ReferenceIdeal.S2x320000, .i32⟩ : BufTy).Contents (Elt Ideal)) (U : (⟨Cert.ReferenceIdeal.S320000x64, .f32⟩ : BufTy).Contents (Elt Ideal))
    (hi : W (Proc.devRef .tc main_v3) = val_main_v3 (F := Ideal) x1) (hu : W (Proc.devRef .tc main_v19) = U) :
    StableHlo.after (hostOps1 (F := Ideal)) W (Proc.devRef .tc main_v22)
      = Host.scatterAdd (F := Ideal) (φ := .f32) Cert.ReferenceIdeal.scatter_S20000x64_S320000x1_S320000x64_1_0_0_1 (val_main_v18 (F := Ideal)) (val_main_v19 (F := Ideal) x1) U := by
  dsimp only [hostOps1]; after_results; rw [hi, hu]; rfl

theorem rd3_v42 (x1 : (⟨Cert.ReferenceIdeal.S2x320000, .i32⟩ : BufTy).Contents (Elt Ideal)) (U : (⟨Cert.ReferenceIdeal.S320000x256, .f32⟩ : BufTy).Contents (Elt Ideal))
    (hi : W (Proc.devRef .tc main_v3) = val_main_v3 (F := Ideal) x1) (hu : W (Proc.devRef .tc main_v39) = U) :
    StableHlo.after (hostOps3 (F := Ideal)) W (Proc.devRef .tc main_v42)
      = Host.scatterAdd (F := Ideal) (φ := .f32) Cert.ReferenceIdeal.scatter_S20000x256_S320000x1_S320000x256_1_0_0_1 (val_main_v57 (F := Ideal)) (val_main_v58 (F := Ideal) x1) U := by
  dsimp only [hostOps3]; after_results; rw [hi, hu]; rfl

theorem rd5_v62 (x1 : (⟨Cert.ReferenceIdeal.S2x320000, .i32⟩ : BufTy).Contents (Elt Ideal)) (U : (⟨Cert.ReferenceIdeal.S320000x256, .f32⟩ : BufTy).Contents (Elt Ideal))
    (hi : W (Proc.devRef .tc main_v3) = val_main_v3 (F := Ideal) x1) (hu : W (Proc.devRef .tc main_v59) = U) :
    StableHlo.after (hostOps5 (F := Ideal)) W (Proc.devRef .tc main_v62)
      = Host.scatterAdd (F := Ideal) (φ := .f32) Cert.ReferenceIdeal.scatter_S20000x256_S320000x1_S320000x256_1_0_0_1 (val_main_v96 (F := Ideal)) (val_main_v97 (F := Ideal) x1) U := by
  dsimp only [hostOps5]; after_results; rw [hi, hu]; rfl

/-! ## Before the next message region: the source rows of the new features gathered, and the layer's parameters -/

set_option maxHeartbeats 2000000 in
theorem rd2_v38 (x1 : (⟨Cert.ReferenceIdeal.S2x320000, .i32⟩ : BufTy).Contents (Elt Ideal)) (H : (⟨Cert.ReferenceIdeal.S20000x256, .f32⟩ : BufTy).Contents (Elt Ideal))
    (hh : W (Proc.devRef .tc main_v23) = H) (hi : W (Proc.devRef .tc main_v1) = val_main_v1 (F := Ideal) x1) :
    StableHlo.after (hostOps2 (F := Ideal)) W (Proc.devRef .tc main_v38)
      = Host.gather Cert.ReferenceIdeal.gather_S20000x256_S320000x1_S320000x256_1_0_n_n_0_1_1256 H (val_main_v48 (F := Ideal) x1) := by
  dsimp only [hostOps2]; after_results_simp; rw [hh, hi]; rfl

theorem rd2_v24 : StableHlo.after (hostOps2 (F := Ideal)) W (Proc.devRef .tc main_v24) = tr (W (Proc.devRef .tc main_arg8)) := by
  dsimp only [hostOps2]; after_results; exact transpose_eq_tr _ _

theorem rd2_v25 : StableHlo.after (hostOps2 (F := Ideal)) W (Proc.devRef .tc main_v25) = tr (W (Proc.devRef .tc main_arg10)) := by
  dsimp only [hostOps2]; after_results; exact transpose_eq_tr _ _

theorem rd2_v26 : StableHlo.after (hostOps2 (F := Ideal)) W (Proc.devRef .tc main_v26) = row (W (Proc.devRef .tc main_arg9)) := by
  dsimp only [hostOps2]; after_results; exact shapeCast_eq_row _ _

theorem rd2_v27 : StableHlo.after (hostOps2 (F := Ideal)) W (Proc.devRef .tc main_v27) = row (W (Proc.devRef .tc main_arg11)) := by
  dsimp only [hostOps2]; after_results; exact shapeCast_eq_row _ _

theorem rd2_v28 : StableHlo.after (hostOps2 (F := Ideal)) W (Proc.devRef .tc main_v28) = row (W (Proc.devRef .tc main_arg20)) := by
  dsimp only [hostOps2]; after_results; exact shapeCast_eq_row _ _

theorem rd2_v29 : StableHlo.after (hostOps2 (F := Ideal)) W (Proc.devRef .tc main_v29) = row (W (Proc.devRef .tc main_arg21)) := by
  dsimp only [hostOps2]; after_results; exact shapeCast_eq_row _ _

theorem rd2_v30 : StableHlo.after (hostOps2 (F := Ideal)) W (Proc.devRef .tc main_v30) = row (W (Proc.devRef .tc main_arg22)) := by
  dsimp only [hostOps2]; after_results; exact shapeCast_eq_row _ _

theorem rd2_v31 : StableHlo.after (hostOps2 (F := Ideal)) W (Proc.devRef .tc main_v31) = row (W (Proc.devRef .tc main_arg23)) := by
  dsimp only [hostOps2]; after_results; exact shapeCast_eq_row _ _

/-! ## Before the next message region: the source rows of the new features gathered, and the layer's parameters -/

set_option maxHeartbeats 2000000 in
theorem rd4_v58 (x1 : (⟨Cert.ReferenceIdeal.S2x320000, .i32⟩ : BufTy).Contents (Elt Ideal)) (H : (⟨Cert.ReferenceIdeal.S20000x256, .f32⟩ : BufTy).Contents (Elt Ideal))
    (hh : W (Proc.devRef .tc main_v43) = H) (hi : W (Proc.devRef .tc main_v1) = val_main_v1 (F := Ideal) x1) :
    StableHlo.after (hostOps4 (F := Ideal)) W (Proc.devRef .tc main_v58)
      = Host.gather Cert.ReferenceIdeal.gather_S20000x256_S320000x1_S320000x256_1_0_n_n_0_1_1256 H (val_main_v87 (F := Ideal) x1) := by
  dsimp only [hostOps4]; after_results_simp; rw [hh, hi]; rfl

theorem rd4_v44 : StableHlo.after (hostOps4 (F := Ideal)) W (Proc.devRef .tc main_v44) = tr (W (Proc.devRef .tc main_arg12)) := by
  dsimp only [hostOps4]; after_results; exact transpose_eq_tr _ _

theorem rd4_v45 : StableHlo.after (hostOps4 (F := Ideal)) W (Proc.devRef .tc main_v45) = tr (W (Proc.devRef .tc main_arg14)) := by
  dsimp only [hostOps4]; after_results; exact transpose_eq_tr _ _

theorem rd4_v46 : StableHlo.after (hostOps4 (F := Ideal)) W (Proc.devRef .tc main_v46) = row (W (Proc.devRef .tc main_arg13)) := by
  dsimp only [hostOps4]; after_results; exact shapeCast_eq_row _ _

theorem rd4_v47 : StableHlo.after (hostOps4 (F := Ideal)) W (Proc.devRef .tc main_v47) = row (W (Proc.devRef .tc main_arg15)) := by
  dsimp only [hostOps4]; after_results; exact shapeCast_eq_row _ _

theorem rd4_v48 : StableHlo.after (hostOps4 (F := Ideal)) W (Proc.devRef .tc main_v48) = row (W (Proc.devRef .tc main_arg24)) := by
  dsimp only [hostOps4]; after_results; exact shapeCast_eq_row _ _

theorem rd4_v49 : StableHlo.after (hostOps4 (F := Ideal)) W (Proc.devRef .tc main_v49) = row (W (Proc.devRef .tc main_arg25)) := by
  dsimp only [hostOps4]; after_results; exact shapeCast_eq_row _ _

theorem rd4_v50 : StableHlo.after (hostOps4 (F := Ideal)) W (Proc.devRef .tc main_v50) = row (W (Proc.devRef .tc main_arg26)) := by
  dsimp only [hostOps4]; after_results; exact shapeCast_eq_row _ _

theorem rd4_v51 : StableHlo.after (hostOps4 (F := Ideal)) W (Proc.devRef .tc main_v51) = row (W (Proc.devRef .tc main_arg27)) := by
  dsimp only [hostOps4]; after_results; exact shapeCast_eq_row _ _

/-! ## Before the head: the mean of the node features over each graph, and the head's parameters -/

set_option maxHeartbeats 2000000 in
theorem rd6_v75 (x3 : (⟨Cert.ReferenceIdeal.S20000, .i32⟩ : BufTy).Contents (Elt Ideal)) (U : (⟨Cert.ReferenceIdeal.S20000x256, .f32⟩ : BufTy).Contents (Elt Ideal))
    (hu : W (Proc.devRef .tc main_v63) = U) (hi : W (Proc.devRef .tc main_arg3) = x3) :
    StableHlo.after (hostOps6 (F := Ideal)) W (Proc.devRef .tc main_v75)
      = Host.divf (F := Ideal) (φ := .f32) (Host.scatterAdd (F := Ideal) (φ := .f32) Cert.ReferenceIdeal.scatter_S512x256_S20000x1_S20000x256_1_0_0_1 (val_main_v121 (F := Ideal)) (val_main_v122 (F := Ideal) x3) U)
          (val_main_v131 (F := Ideal) x3) := by
  dsimp only [hostOps6]; after_results_simp; rw [hu, hi]; rfl

theorem rd6_v76 : StableHlo.after (hostOps6 (F := Ideal)) W (Proc.devRef .tc main_v76) = tr (W (Proc.devRef .tc main_arg28)) := by
  dsimp only [hostOps6]; after_results; exact transpose_eq_tr _ _

theorem rd6_v78 : StableHlo.after (hostOps6 (F := Ideal)) W (Proc.devRef .tc main_v78) = tr (W (Proc.devRef .tc main_arg30)) := by
  dsimp only [hostOps6]; after_results; exact transpose_eq_tr _ _

theorem rd6_v77 : StableHlo.after (hostOps6 (F := Ideal)) W (Proc.devRef .tc main_v77) = row (W (Proc.devRef .tc main_arg29)) := by
  dsimp only [hostOps6]; after_results; exact shapeCast_eq_row _ _

theorem rd6_v79 : StableHlo.after (hostOps6 (F := Ideal)) W (Proc.devRef .tc main_v79) = row (W (Proc.devRef .tc main_arg31)) := by
  dsimp only [hostOps6]; after_results; exact shapeCast_eq_row _ _

end Cert.KernelIdeal.HostRead

end
-- ==== Proof.LibDot.lean ====
/-
  A plain matrix product read at an entry.  For dimension numbers that contract the left operand's axis 1 with the right
  operand's axis 0 and have no batch axis, both the matrix unit's product into a zero accumulator and the host's
  dot_general are, at the ideal reading, the textbook sum Σ_i lhs (p, i) · rhs (i, q): the contraction index is its one
  coordinate, and the operand indices at (p, q) and i are (p, i) and (i, q).
-/
import Idealize.ShloMosaic.PureOps.Ideal.Laws
import Idealize.ShloMosaic.Lib.ValueIdx

noncomputable section

namespace Cert.LibDot

open Idealize.ShloMosaic Idealize.ShloMosaic.ValueIdx
open scoped BigOperators

variable {a k b : ℕ} (D : DotDims ⟨2, ![a, k]⟩ ⟨2, ![k, b]⟩ ⟨2, ![a, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The sum over the contraction index is the sum over its one coordinate, the operands read at (p, i) and (i, q). -/
theorem sum_plain (lhs : (⟨2, ![a, k]⟩ : Shape).Idx → EReal) (rhs : (⟨2, ![k, b]⟩ : Shape).Idx → EReal) (p : Fin a) (q : Fin b) :
    (∑ c : D.contr.Idx, lhs (D.lhsIdx (ix2 p q) c) * rhs (D.rhsIdx (ix2 p q) c)) = ∑ i : Fin k, lhs (ix2 p i) * rhs (ix2 i q) := by
  rw [← Equiv.sum_comp (contrEquiv1 D k hr hs).symm]
  refine Finset.sum_congr rfl fun i _ => ?_
  have hk := contrEquiv1_symm_val D k hr hs i
  have el : D.lhsIdx (ix2 p q) ((contrEquiv1 D k hr hs).symm i) = ix2 p i := funext fun ax => Fin.ext (by
    match ax with
    | ⟨0, _⟩ => exact hl0 _ _
    | ⟨1, _⟩ => exact (hl1 _ _).trans hk)
  have er : D.rhsIdx (ix2 p q) ((contrEquiv1 D k hr hs).symm i) = ix2 i q := funext fun ax => Fin.ext (by
    match ax with
    | ⟨0, _⟩ => exact (hr0 _ _).trans hk
    | ⟨1, _⟩ => exact hr1 _ _)
  rw [el, er]

/-- The matrix unit's product into a zero accumulator, at entry (p, q). -/
theorem matmul_zero_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul D prec lhs rhs (constant ⟨2, ![a, b]⟩ .f32 0x00000000#32) (ix2 p q) = ∑ i : Fin k, lhs (ix2 p i) * rhs (ix2 i q) :=
  (Ideal.matmul_constant_zero_apply D prec lhs rhs (ix2 p q)).trans (sum_plain D hr hs hl0 hl1 hr0 hr1 lhs rhs p q)

/-- The host's dot_general, at entry (p, q). -/
theorem dotGeneral_apply {φ₁ φ₂ : FTy} (prec : Option ContractPrecision) (sched : HostSchedule) (lhs : FVec Ideal ⟨2, ![a, k]⟩ φ₁)
    (rhs : FVec Ideal ⟨2, ![k, b]⟩ φ₂) (p : Fin a) (q : Fin b) :
    FloatOps.dotGeneral D prec sched lhs rhs (ix2 p q) = ∑ i : Fin k, lhs (ix2 p i) * rhs (ix2 i q) :=
  (Ideal.dotGeneral_apply D prec sched lhs rhs (ix2 p q)).trans (sum_plain D hr hs hl0 hl1 hr0 hr1 lhs rhs p q)

end Cert.LibDot

end
-- ==== Proof.Msg0.lean ====
/-
  A message region: eighty grid points, point t reading rows 4000·t … 4000·t + 3999 of the source features and of the edge
  attributes, the whole linear map and bias row, and writing the same rows of the output.  Its payload — the edge
  attributes' product into a zero accumulator added to the source features, the bias row, the rectifier — is, entry by
  entry, the message of Spec applied to the loaded blocks; an entry of a message depends on its own row only, so a
  point's block of results is its block of the message of the region-entry arrays, and the eighty blocks tile the output.
-/
import proofs.«180599_j70557722739068_1_alg».proof.Proof.Gen.KernelIdeal.Frame
import proofs.«180599_j70557722739068_1_alg».proof.Proof.Spec
import proofs.«180599_j70557722739068_1_alg».proof.Proof.LibDot
import Idealize.ShloMosaic.Lib.Pipeline.Value
import Idealize.ShloMosaic.Lib.ValueIdx
import Idealize.ShloMosaic.Lib.ValueLayout
import Idealize.ShloMosaic.PureOps.Ideal

noncomputable section

namespace Cert.KernelIdeal.ValM0

open Cert.KernelIdeal Cert.KernelIdeal.Gen Idealize.ShloMosaic Idealize.ShloMosaic.ValueIdx Idealize.ShloMosaic.TcCoe Idealize.SL.Sem
open Idealize.ShloMosaic.Pipeline (Dat)
open scoped BigOperators

/-- The body's payload is the message of its loaded blocks. -/
theorem pay0_eq (v0 : Vec Ideal S4000x64 .f32) (v2 : Vec Ideal S4000x32 .f32) (v3 : Vec Ideal S32x64 .f32) (v5 : Vec Ideal S1x64 .f32) :
    k0_pay1 v0 v2 v3 v5 = Cert.Gine.msg (n := 4000) v0 v2 v3 v5 := by
  funext i
  obtain ⟨p, q, rfl⟩ : ∃ (p : Fin 4000) (q : Fin 64), i = ix2 p q := ⟨i 0, i 1, eq_ix2 i⟩
  rw [Cert.Gine.msg_ix2]
  unfold k0_pay1
  show max ((_ + _) + _) _ = _
  refine congrArg₂ max (congrArg₂ (· + ·) (congrArg₂ (· + ·) ?_ ?_) ?_) rfl
  · show shapeCast S4000x64 v0 shapeCasts_S4000x64_S4000x64 (ix2 p q) = v0 (ix2 p q)
    rw [shapeCast_self]
  · refine (Cert.LibDot.matmul_zero_apply dot_S4000x32_S32x64_S4000x64_1_0_0_1_n_n rfl rfl (fun _ _ => rfl) (fun _ _ => rfl) (fun _ _ => rfl) (fun _ _ => rfl) none _ _ p q).trans ?_
    refine Finset.sum_congr rfl fun j _ => ?_
    refine congrArg₂ (· * ·) rfl ?_
    show shapeCast S32x64 v3 shapeCasts_S32x64_S32x64 (ix2 j q) = v3 (ix2 j q)
    rw [shapeCast_self]
  · rw [shapeCast_self]
    exact broadcastTo_1b_ab_apply v5 broadcasts_S1x64_S4000x64 p q

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: the two row-blocked inputs move with the output on the row axis, every
    column block index is 0, the linear map and the bias row stay at block (0, 0), and the row block index is below 80. -/
theorem block_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 79 :=
  (by decide +kernel : ∀ t : Fin grid0.N, _)

/-- Every row block of the output is some point's. -/
theorem block_onto : ∀ (q0 : Fin 80), ∃ t : Fin cfg0.N, win0_4.index t = ![q0.val, 0] :=
  (by decide +kernel : ∀ (q0 : Fin 80), ∃ t : Fin grid0.N, win0_4.index t = ![q0.val, 0])

/-- The linear map's block is the whole array. -/
theorem iblk_map (c : Dev nD) (t : Fin cfg0.N) : (iblk0 V c 2 t : S32x64.Idx → EReal) = V c main_v4 := by
  obtain ⟨-, -, -, -, e0, e1, -⟩ := block_facts t
  funext y
  show V c main_v4 (((cfg0.win 2).blk t).view.emb y) = V c main_v4 y
  refine congrArg _ (funext fun a => Fin.ext ?_)
  match a with
  | ⟨0, _⟩ => show win0_2.index t (0 : Fin 2) * 32 + 1 * (y 0).val = (y 0).val; omega
  | ⟨1, _⟩ => show win0_2.index t (1 : Fin 2) * 64 + 1 * (y 1).val = (y 1).val; omega

/-- The bias row's block is the whole array. -/
theorem iblk_bias (c : Dev nD) (t : Fin cfg0.N) : (iblk0 V c 3 t : S1x64.Idx → EReal) = V c main_v6 := by
  obtain ⟨-, -, -, -, -, -, e0, e1, -⟩ := block_facts t
  funext y
  show V c main_v6 (((cfg0.win 3).blk t).view.emb y) = V c main_v6 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- What point t writes back is block t of the message of the arrays as the region finds them. -/
theorem flushed0_eq (c : Dev nD) (t : Fin cfg0.N) :
    (dat0 V c).flushed 4 t = ((cfg0.win 4).blk t).view.read (Elt Ideal)
      (Cert.Gine.msg (V c main_v18) (V c main_arg2) (V c main_v4) (V c main_v6)) := by
  show (cfg0.win 4).cut (grid0.coords t) ((dat0 V c).after 4 t) = _
  rw [after0_4]
  unfold out0_4
  rw [View.canon_unit_zero zero_offsets]
  simp only [View.ld_unit_zero (S := S4000x64) zero_offsets, View.ld_unit_zero (S := S4000x32) zero_offsets,
    View.ld_unit_zero (S := S32x64) zero_offsets, View.ld_unit_zero (S := S1x64) zero_offsets]
  rw [pay0_eq, iblk_map V c t, iblk_bias V c t]
  obtain ⟨e00, e01, e10, e11, -, -, -, -, e41, e40⟩ := block_facts t
  funext y
  obtain ⟨p, q, rfl⟩ : ∃ (p : Fin 4000) (q : Fin 64), y = ix2 p q := ⟨y 0, y 1, eq_ix2 y⟩
  have hp : win0_4.index t (0 : Fin 2) * 4000 + p.val < 320000 := by have := p.isLt; omega
  have hy : ((cfg0.win 4).blk t).view.emb (ix2 p q) = (ix2 (⟨win0_4.index t (0 : Fin 2) * 4000 + p.val, hp⟩ : Fin 320000) q : S320000x64.Idx) :=
    funext fun a => Fin.ext (by
      match a with
      | ⟨0, _⟩ => show win0_4.index t (0 : Fin 2) * 4000 + 1 * p.val = win0_4.index t (0 : Fin 2) * 4000 + p.val; omega
      | ⟨1, _⟩ => show win0_4.index t (1 : Fin 2) * 64 + 1 * q.val = q.val; omega)
  show Cert.Gine.msg (n := 4000) (iblk0 V c 0 t) (iblk0 V c 1 t) (V c main_v4) (V c main_v6) (ix2 p q)
    = Cert.Gine.msg (V c main_v18) (V c main_arg2) (V c main_v4) (V c main_v6) (((cfg0.win 4).blk t).view.emb (ix2 p q))
  rw [hy]
  refine Cert.Gine.msg_congr _ _ _ _ _ _ _ _ p _ q ?_ (fun j => ?_) (fun _ => rfl) rfl
  · show V c main_v18 (((cfg0.win 0).blk t).view.emb (ix2 p q)) = V c main_v18 _
    refine congrArg _ (funext fun a => Fin.ext ?_)
    match a with
    | ⟨0, _⟩ => show win0_0.index t (0 : Fin 2) * 4000 + 1 * p.val = win0_4.index t (0 : Fin 2) * 4000 + p.val; omega
    | ⟨1, _⟩ => show win0_0.index t (1 : Fin 2) * 64 + 1 * q.val = q.val; omega
  · show V c main_arg2 (((cfg0.win 1).blk t).view.emb (ix2 p j)) = V c main_arg2 _
    refine congrArg _ (funext fun a => Fin.ext ?_)
    match a with
    | ⟨0, _⟩ => show win0_1.index t (0 : Fin 2) * 4000 + 1 * p.val = win0_4.index t (0 : Fin 2) * 4000 + p.val; omega
    | ⟨1, _⟩ => show win0_1.index t (1 : Fin 2) * 32 + 1 * j.val = j.val; omega

/-- An index of the array is in point t's block iff each coordinate is in the block's range on its axis. -/
theorem mem_blk0 (t : Fin cfg0.N) (i : S320000x64.Idx) :
    i ∈ ((cfg0.win 4).blk t).view.set ↔ ∀ a : Fin 2, win0_4.index t a * S4000x64.size a ≤ (i a).val ∧ (i a).val < win0_4.index t a * S4000x64.size a + S4000x64.size a := by
  show i ∈ ((View.whole main_v19).slice (win0_4.rect t)).set ↔ _
  rw [View.set_slice_whole, Rect.mem_set_unit]
  exact Iff.rfl

/-- The eighty blocks tile the output: row r is in block r / 4000. -/
theorem cover0 (i : S320000x64.Idx) : ∃ t : Fin cfg0.N, (cfg0.win 4).flush t = true ∧ i ∈ ((cfg0.win 4).blk t).view.set := by
  have hi0 : (i 0).val < 320000 := (i 0).isLt
  have hi1 : (i 1).val < 64 := (i 1).isLt
  obtain ⟨t, ht⟩ := block_onto ⟨(i 0).val / 4000, by omega⟩
  have q0 : win0_4.index t (0 : Fin 2) = (i 0).val / 4000 := congrFun ht 0
  have q1 : win0_4.index t (1 : Fin 2) = 0 := congrFun ht 1
  refine ⟨t, flush0_4 t, ?_⟩
  rw [mem_blk0]
  intro a
  match a with
  | ⟨0, _⟩ => show win0_4.index t (0 : Fin 2) * 4000 ≤ (i 0).val ∧ (i 0).val < win0_4.index t (0 : Fin 2) * 4000 + 4000; omega
  | ⟨1, _⟩ => show win0_4.index t (1 : Fin 2) * 64 ≤ (i 1).val ∧ (i 1).val < win0_4.index t (1 : Fin 2) * 64 + 64; omega

/-- The output array after the region: the message of the region-entry arrays. -/
theorem final0 (c : Dev nD) : (dat0 V c).arrAt 4 cfg0.N
    = Cert.Gine.msg (V c main_v18) (V c main_arg2) (V c main_v4) (V c main_v6) :=
  (dat0 V c).arrAt_eq_of_cover 4 (Cert.Gine.msg (V c main_v18) (V c main_arg2) (V c main_v4) (V c main_v6))
    (fun t _ => flushed0_eq V c t) cover0

end Cert.KernelIdeal.ValM0

end
-- ==== Proof.Node1.lean ====
/-
  The node update of layer 1, kernel side: the array the region's output window ends holding is the node update
  (Cert.Gine.node) of the arrays the region finds.  Three steps: the block computation at an entry is the node update of
  the operand blocks (the matrix product into a zero accumulator is the plain sum; the row operands are broadcast along
  the rows; the format changes are the identity on extended reals); what grid point t writes back is block t of the
  node update of the whole arrays, since row p of block t is row t * 2000 + p and the weight and row vectors are read
  whole; the ten row blocks cover the array.
-/
import proofs.«180599_j70557722739068_1_alg».proof.Proof.Gen.KernelIdeal.Frame
import proofs.«180599_j70557722739068_1_alg».proof.Proof.Spec
import proofs.«180599_j70557722739068_1_alg».proof.Proof.LibDot
import Idealize.ShloMosaic.Lib.Pipeline.Value
import Idealize.ShloMosaic.Lib.ValueLayout
import Idealize.ShloMosaic.Lib.ValueIdx

noncomputable section

namespace Cert.KernelIdeal.ValN1

open Cert.KernelIdeal Cert.KernelIdeal.Gen Idealize.ShloMosaic Idealize.ShloMosaic.ValueIdx Idealize.ShloMosaic.TcCoe
open Idealize.ShloMosaic.Pipeline (Dat)

/-- The block computation is the node update of its operands: the matrix product into a zero accumulator is the plain
    sum, the row operands are broadcast along the rows, and the format changes are the identity on extended reals. -/
theorem pay1_eq (x a : Vec Ideal S2000x64 .f32) (w : Vec Ideal S64x256 .f32) (bnb rm rv g b : Vec Ideal S1x256 .f32) :
    k1_pay1 x a w bnb rm rv g b = Cert.Gine.node x a w bnb g b rm rv := by
  funext j
  obtain ⟨p, q, rfl⟩ : ∃ (p : Fin 2000) (q : Fin 256), j = ix2 p q := ⟨j 0, j 1, eq_ix2 j⟩
  rw [Cert.Gine.node_ix2]
  unfold k1_pay1
  simp only [maximumf_apply, addf_apply, mulf_apply, subf_apply, broadcast_apply, broadcastTo_1b_ab_apply, shapeCast_self]
  have hm : _ = Cert.Gine.dotAt (fun j => x j + a j) w p q :=
    Cert.LibDot.matmul_zero_apply dot_S2000x64_S64x256_S2000x256_1_0_0_1_n_n rfl rfl (fun _ _ => rfl) (fun _ _ => rfl)
      (fun _ _ => rfl) (fun _ _ => rfl) none (truncf FTy.bf16 (addf x a) bitsLt_bf16_f32 : FVec Ideal S2000x64 .bf16)
      (truncf FTy.bf16 w bitsLt_bf16_f32 : FVec Ideal S64x256 .bf16) p q
  rw [← hm]
  rfl

variable (V : (c : Dev nD) → (b : Ref sig .tc) → Buf (Elt Ideal) ((c : Thread nD τ).loc b))

theorem hz : (![0, 0] : Fin 2 → Nat) = fun _ => 0 := funext fun a => by fin_cases a <;> rfl

/-! The printed index maps over the grid: the two row-blocked inputs and the output are at row block t, column block 0;
    the weight and the five row vectors are whole arrays at block (0, 0). -/

theorem idx_facts1_0 : ∀ t : Fin cfg1.N, win1_0.index t (0 : Fin 2) = t.val ∧ win1_0.index t (1 : Fin 2) = 0 :=
  (by decide +kernel : ∀ t : Fin grid1.N, _)

theorem idx_facts1_1 : ∀ t : Fin cfg1.N, win1_1.index t (0 : Fin 2) = t.val ∧ win1_1.index t (1 : Fin 2) = 0 :=
  (by decide +kernel : ∀ t : Fin grid1.N, _)

theorem idx_facts1_2 : ∀ t : Fin cfg1.N, win1_2.index t (0 : Fin 2) = 0 ∧ win1_2.index t (1 : Fin 2) = 0 :=
  (by decide +kernel : ∀ t : Fin grid1.N, _)

theorem idx_facts1_3 : ∀ t : Fin cfg1.N, win1_3.index t (0 : Fin 2) = 0 ∧ win1_3.index t (1 : Fin 2) = 0 :=
  (by decide +kernel : ∀ t : Fin grid1.N, _)

theorem idx_facts1_4 : ∀ t : Fin cfg1.N, win1_4.index t (0 : Fin 2) = 0 ∧ win1_4.index t (1 : Fin 2) = 0 :=
  (by decide +kernel : ∀ t : Fin grid1.N, _)

theorem idx_facts1_5 : ∀ t : Fin cfg1.N, win1_5.index t (0 : Fin 2) = 0 ∧ win1_5.index t (1 : Fin 2) = 0 :=
  (by decide +kernel : ∀ t : Fin grid1.N, _)

theorem idx_facts1_6 : ∀ t : Fin cfg1.N, win1_6.index t (0 : Fin 2) = 0 ∧ win1_6.index t (1 : Fin 2) = 0 :=
  (by decide +kernel : ∀ t : Fin grid1.N, _)

theorem idx_facts1_7 : ∀ t : Fin cfg1.N, win1_7.index t (0 : Fin 2) = 0 ∧ win1_7.index t (1 : Fin 2) = 0 :=
  (by decide +kernel : ∀ t : Fin grid1.N, _)

theorem idx_facts1_8 : ∀ t : Fin cfg1.N, win1_8.index t (0 : Fin 2) = t.val ∧ win1_8.index t (1 : Fin 2) = 0 :=
  (by decide +kernel : ∀ t : Fin grid1.N, _)

/-! Each input block at an index is its array at the index the block's rectangle names: a block's coordinate is
    block index times block size plus the coordinate inside the block. -/

theorem blk1_0 (c : Dev nD) (t : Fin cfg1.N) (p : Fin 2000) (j : Fin 64) (h : t.val * 2000 + p.val < 20000) :
    iblk1 V c 0 t (ix2 p j) = (V c main_arg0 : S20000x64.Idx → EReal) (ix2 (⟨t.val * 2000 + p.val, h⟩ : Fin 20000) j) := by
  obtain ⟨e0, e1⟩ := idx_facts1_0 t
  show (V c main_arg0 : S20000x64.Idx → EReal) (((cfg1.win 0).blk t).view.emb (ix2 p j)) = _
  refine congrArg (V c main_arg0 : S20000x64.Idx → EReal) ?_; funext a; apply Fin.ext
  match a with
  | ⟨0, _⟩ => show win1_0.index t (0 : Fin 2) * 2000 + 1 * p.val = t.val * 2000 + p.val; rw [e0]; omega
  | ⟨1, _⟩ => show win1_0.index t (1 : Fin 2) * 64 + 1 * j.val = j.val; rw [e1]; omega

theorem blk1_1 (c : Dev nD) (t : Fin cfg1.N) (p : Fin 2000) (j : Fin 64) (h : t.val * 2000 + p.val < 20000) :
    iblk1 V c 1 t (ix2 p j) = (V c main_v22 : S20000x64.Idx → EReal) (ix2 (⟨t.val * 2000 + p.val, h⟩ : Fin 20000) j) := by
  obtain ⟨e0, e1⟩ := idx_facts1_1 t
  show (V c main_v22 : S20000x64.Idx → EReal) (((cfg1.win 1).blk t).view.emb (ix2 p j)) = _
  refine congrArg (V c main_v22 : S20000x64.Idx → EReal) ?_; funext a; apply Fin.ext
  match a with
  | ⟨0, _⟩ => show win1_1.index t (0 : Fin 2) * 2000 + 1 * p.val = t.val * 2000 + p.val; rw [e0]; omega
  | ⟨1, _⟩ => show win1_1.index t (1 : Fin 2) * 64 + 1 * j.val = j.val; rw [e1]; omega

theorem blk1_2 (c : Dev nD) (t : Fin cfg1.N) (j : Fin 64) (q : Fin 256) :
    iblk1 V c 2 t (ix2 j q) = (V c main_v5 : S64x256.Idx → EReal) (ix2 j q) := by
  obtain ⟨e0, e1⟩ := idx_facts1_2 t
  show (V c main_v5 : S64x256.Idx → EReal) (((cfg1.win 2).blk t).view.emb (ix2 j q)) = _
  refine congrArg (V c main_v5 : S64x256.Idx → EReal) ?_; funext a; apply Fin.ext
  match a with
  | ⟨0, _⟩ => show win1_2.index t (0 : Fin 2) * 64 + 1 * j.val = j.val; rw [e0]; omega
  | ⟨1, _⟩ => show win1_2.index t (1 : Fin 2) * 256 + 1 * q.val = q.val; rw [e1]; omega

theorem blk1_3 (c : Dev nD) (t : Fin cfg1.N) (j : Fin 1) (q : Fin 256) :
    iblk1 V c 3 t (ix2 j q) = (V c main_v7 : S1x256.Idx → EReal) (ix2 j q) := by
  obtain ⟨e0, e1⟩ := idx_facts1_3 t
  show (V c main_v7 : S1x256.Idx → EReal) (((cfg1.win 3).blk t).view.emb (ix2 j q)) = _
  refine congrArg (V c main_v7 : S1x256.Idx → EReal) ?_; funext a; apply Fin.ext
  match a with
  | ⟨0, _⟩ => show win1_3.index t (0 : Fin 2) * 1 + 1 * j.val = j.val; rw [e0]; omega
  | ⟨1, _⟩ => show win1_3.index t (1 : Fin 2) * 256 + 1 * q.val = q.val; rw [e1]; omega

theorem blk1_4 (c : Dev nD) (t : Fin cfg1.N) (j : Fin 1) (q : Fin 256) :
    iblk1 V c 4 t (ix2 j q) = (V c main_v8 : S1x256.Idx → EReal) (ix2 j q) := by
  obtain ⟨e0, e1⟩ := idx_facts1_4 t
  show (V c main_v8 : S1x256.Idx → EReal) (((cfg1.win 4).blk t).view.emb (ix2 j q)) = _
  refine congrArg (V c main_v8 : S1x256.Idx → EReal) ?_; funext a; apply Fin.ext
  match a with
  | ⟨0, _⟩ => show win1_4.index t (0 : Fin 2) * 1 + 1 * j.val = j.val; rw [e0]; omega
  | ⟨1, _⟩ => show win1_4.index t (1 : Fin 2) * 256 + 1 * q.val = q.val; rw [e1]; omega

theorem blk1_5 (c : Dev nD) (t : Fin cfg1.N) (j : Fin 1) (q : Fin 256) :
    iblk1 V c 5 t (ix2 j q) = (V c main_v9 : S1x256.Idx → EReal) (ix2 j q) := by
  obtain ⟨e0, e1⟩ := idx_facts1_5 t
  show (V c main_v9 : S1x256.Idx → EReal) (((cfg1.win 5).blk t).view.emb (ix2 j q)) = _
  refine congrArg (V c main_v9 : S1x256.Idx → EReal) ?_; funext a; apply Fin.ext
  match a with
  | ⟨0, _⟩ => show win1_5.index t (0 : Fin 2) * 1 + 1 * j.val = j.val; rw [e0]; omega
  | ⟨1, _⟩ => show win1_5.index t (1 : Fin 2) * 256 + 1 * q.val = q.val; rw [e1]; omega

theorem blk1_6 (c : Dev nD) (t : Fin cfg1.N) (j : Fin 1) (q : Fin 256) :
    iblk1 V c 6 t (ix2 j q) = (V c main_v10 : S1x256.Idx → EReal) (ix2 j q) := by
  obtain ⟨e0, e1⟩ := idx_facts1_6 t
  show (V c main_v10 : S1x256.Idx → EReal) (((cfg1.win 6).blk t).view.emb (ix2 j q)) = _
  refine congrArg (V c main_v10 : S1x256.Idx → EReal) ?_; funext a; apply Fin.ext
  match a with
  | ⟨0, _⟩ => show win1_6.index t (0 : Fin 2) * 1 + 1 * j.val = j.val; rw [e0]; omega
  | ⟨1, _⟩ => show win1_6.index t (1 : Fin 2) * 256 + 1 * q.val = q.val; rw [e1]; omega

theorem blk1_7 (c : Dev nD) (t : Fin cfg1.N) (j : Fin 1) (q : Fin 256) :
    iblk1 V c 7 t (ix2 j q) = (V c main_v11 : S1x256.Idx → EReal) (ix2 j q) := by
  obtain ⟨e0, e1⟩ := idx_facts1_7 t
  show (V c main_v11 : S1x256.Idx → EReal) (((cfg1.win 7).blk t).view.emb (ix2 j q)) = _
  refine congrArg (V c main_v11 : S1x256.Idx → EReal) ?_; funext a; apply Fin.ext
  match a with
  | ⟨0, _⟩ => show win1_7.index t (0 : Fin 2) * 1 + 1 * j.val = j.val; rw [e0]; omega
  | ⟨1, _⟩ => show win1_7.index t (1 : Fin 2) * 256 + 1 * q.val = q.val; rw [e1]; omega

/-- Row p of the output's block t is row t * 2000 + p of the array. -/
theorem row1_8 (t : Fin cfg1.N) (p : Fin 2000) (q : Fin 256) (h : t.val * 2000 + p.val < 20000) :
    ((cfg1.win 8).blk t).view.emb (ix2 p q) = (ix2 (⟨t.val * 2000 + p.val, h⟩ : Fin 20000) q : S20000x256.Idx) := by
  obtain ⟨e0, e1⟩ := idx_facts1_8 t
  funext a; apply Fin.ext
  match a with
  | ⟨0, _⟩ => show win1_8.index t (0 : Fin 2) * 2000 + 1 * p.val = t.val * 2000 + p.val; rw [e0]; omega
  | ⟨1, _⟩ => show win1_8.index t (1 : Fin 2) * 256 + 1 * q.val = q.val; rw [e1]; omega

set_option maxHeartbeats 1000000 in
/-- What grid point t writes back is block t of the node update of the arrays as the region finds them: row p of
    block t is row t * 2000 + p of the row-blocked arrays, and the weight and the row vectors are read whole. -/
theorem flushed1_eq (c : Dev nD) (t : Fin cfg1.N) :
    (dat1 V c).flushed 8 t = ((cfg1.win 8).blk t).view.read (Elt Ideal)
      (Cert.Gine.node (n := 20000) (d := 64) (e := 256) (V c main_arg0) (V c main_v22) (V c main_v5) (V c main_v7) (V c main_v8) (V c main_v9) (V c main_v10) (V c main_v11)) := by
  show (cfg1.win 8).cut (grid1.coords t) ((dat1 V c).after 8 t) = _
  rw [after1_8]
  unfold out1_8
  rw [View.canon_unit_zero hz]
  simp only [View.ld_unit_zero (S := S2000x64) hz, View.ld_unit_zero (S := S64x256) hz, View.ld_unit_zero (S := S1x256) hz]
  rw [pay1_eq]
  have hN : t.val < 10 := Nat.lt_of_lt_of_eq t.isLt N_1
  funext y
  obtain ⟨p, q, rfl⟩ : ∃ (p : Fin 2000) (q : Fin 256), y = ix2 p q := ⟨y 0, y 1, eq_ix2 y⟩
  have hp : t.val * 2000 + p.val < 20000 := by have := p.isLt; omega
  show Cert.Gine.node (iblk1 V c 0 t) (iblk1 V c 1 t) (iblk1 V c 2 t) (iblk1 V c 3 t) (iblk1 V c 4 t) (iblk1 V c 5 t) (iblk1 V c 6 t) (iblk1 V c 7 t) (ix2 p q)
    = Cert.Gine.node (n := 20000) (d := 64) (e := 256) (V c main_arg0) (V c main_v22) (V c main_v5) (V c main_v7) (V c main_v8) (V c main_v9) (V c main_v10) (V c main_v11) (((cfg1.win 8).blk t).view.emb (ix2 p q))
  rw [row1_8 t p q hp]
  exact Cert.Gine.node_congr _ _ _ _ _ _ _ _ _ _ _ _ _ _ _ _ p _ q (fun j => blk1_0 V c t p j hp) (fun j => blk1_1 V c t p j hp)
    (fun j => blk1_2 V c t j q) (blk1_3 V c t 0 q) (blk1_4 V c t 0 q) (blk1_5 V c t 0 q) (blk1_6 V c t 0 q) (blk1_7 V c t 0 q)

/-- An index of the array is in point t's block iff each coordinate is in the block's range on its axis. -/
theorem mem_blk1 (t : Fin cfg1.N) (i : S20000x256.Idx) :
    i ∈ ((cfg1.win 8).blk t).view.set ↔ ∀ a : Fin 2, win1_8.index t a * S2000x256.size a ≤ (i a).val ∧ (i a).val < win1_8.index t a * S2000x256.size a + S2000x256.size a := by
  show i ∈ ((View.whole main_v23).slice (win1_8.rect t)).set ↔ _
  rw [View.set_slice_whole, Rect.mem_set_unit]
  exact Iff.rfl

/-- Every row r of the array is in the block of point r / 2000, which writes back. -/
theorem cover1 (i : S20000x256.Idx) : ∃ t : Fin cfg1.N, (cfg1.win 8).flush t = true ∧ i ∈ ((cfg1.win 8).blk t).view.set := by
  have hi0 : (i 0).val < 20000 := (i 0).isLt
  have hi1 : (i 1).val < 256 := (i 1).isLt
  have hlt : (i 0).val / 2000 < cfg1.N := Nat.lt_of_lt_of_eq (by omega : (i 0).val / 2000 < 10) N_1.symm
  obtain ⟨e0, e1⟩ := idx_facts1_8 ⟨(i 0).val / 2000, hlt⟩
  refine ⟨⟨(i 0).val / 2000, hlt⟩, flush1_8 _, ?_⟩
  rw [mem_blk1]
  intro a
  match a with
  | ⟨0, _⟩ =>
    show win1_8.index ⟨(i 0).val / 2000, hlt⟩ (0 : Fin 2) * 2000 ≤ (i 0).val ∧ (i 0).val < win1_8.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win1_8.index ⟨(i 0).val / 2000, hlt⟩ (1 : Fin 2) * 256 ≤ (i 1).val ∧ (i 1).val < win1_8.index ⟨(i 0).val / 2000, hlt⟩ (1 : Fin 2) * 256 + 256
    rw [e1]; omega

/-- The output array after the region: the node update of the arrays as the region finds them. -/
theorem final1 (c : Dev nD) : (dat1 V c).arrAt 8 cfg1.N
    = Cert.Gine.node (V c main_arg0) (V c main_v22) (V c main_v5) (V c main_v7) (V c main_v8) (V c main_v9) (V c main_v10) (V c main_v11) :=
  (dat1 V c).arrAt_eq_of_cover 8 _ (fun t _ => flushed1_eq V c t) cover1

end Cert.KernelIdeal.ValN1

end
-- ==== Proof.Msg2.lean ====
/-
  A message region: eighty grid points, point t reading rows 4000·t … 4000·t + 3999 of the source features and of the edge
  attributes, the whole linear map and bias row, and writing the same rows of the output.  Its payload — the edge
  attributes' product into a zero accumulator added to the source features, the bias row, the rectifier — is, entry by
  entry, the message of Spec applied to the loaded blocks; an entry of a message depends on its own row only, so a
  point's block of results is its block of the message of the region-entry arrays, and the eighty blocks tile the output.
-/
import proofs.«180599_j70557722739068_1_alg».proof.Proof.Gen.KernelIdeal.Frame
import proofs.«180599_j70557722739068_1_alg».proof.Proof.Spec
import proofs.«180599_j70557722739068_1_alg».proof.Proof.LibDot
import Idealize.ShloMosaic.Lib.Pipeline.Value
import Idealize.ShloMosaic.Lib.ValueIdx
import Idealize.ShloMosaic.Lib.ValueLayout
import Idealize.ShloMosaic.PureOps.Ideal

noncomputable section

namespace Cert.KernelIdeal.ValM2

open Cert.KernelIdeal Cert.KernelIdeal.Gen Idealize.ShloMosaic Idealize.ShloMosaic.ValueIdx Idealize.ShloMosaic.TcCoe Idealize.SL.Sem
open Idealize.ShloMosaic.Pipeline (Dat)
open scoped BigOperators

/-- The body's payload is the message of its loaded blocks. -/
theorem pay2_eq (v0 : Vec Ideal S4000x256 .f32) (v2 : Vec Ideal S4000x32 .f32) (v3 : Vec Ideal S32x256 .f32) (v5 : Vec Ideal S1x256 .f32) :
    k2_pay1 v0 v2 v3 v5 = Cert.Gine.msg (n := 4000) v0 v2 v3 v5 := by
  funext i
  obtain ⟨p, q, rfl⟩ : ∃ (p : Fin 4000) (q : Fin 256), i = ix2 p q := ⟨i 0, i 1, eq_ix2 i⟩
  rw [Cert.Gine.msg_ix2]
  unfold k2_pay1
  show max ((_ + _) + _) _ = _
  refine congrArg₂ max (congrArg₂ (· + ·) (congrArg₂ (· + ·) ?_ ?_) ?_) rfl
  · show shapeCast S4000x256 v0 shapeCasts_S4000x256_S4000x256 (ix2 p q) = v0 (ix2 p q)
    rw [shapeCast_self]
  · refine (Cert.LibDot.matmul_zero_apply dot_S4000x32_S32x256_S4000x256_1_0_0_1_n_n rfl rfl (fun _ _ => rfl) (fun _ _ => rfl) (fun _ _ => rfl) (fun _ _ => rfl) none _ _ p q).trans ?_
    refine Finset.sum_congr rfl fun j _ => ?_
    refine congrArg₂ (· * ·) rfl ?_
    show shapeCast S32x256 v3 shapeCasts_S32x256_S32x256 (ix2 j q) = v3 (ix2 j q)
    rw [shapeCast_self]
  · rw [shapeCast_self]
    exact broadcastTo_1b_ab_apply v5 broadcasts_S1x256_S4000x256 p q

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: the two row-blocked inputs move with the output on the row axis, every
    column block index is 0, the linear map and the bias row stay at block (0, 0), and the row block index is below 80. -/
theorem block_facts : ∀ t : Fin cfg2.N,
    win2_0.index t (0 : Fin 2) = win2_4.index t (0 : Fin 2) ∧ win2_0.index t (1 : Fin 2) = 0
    ∧ win2_1.index t (0 : Fin 2) = win2_4.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (1 : Fin 2) = 0 ∧ win2_4.index t (0 : Fin 2) ≤ 79 :=
  (by decide +kernel : ∀ t : Fin grid2.N, _)

/-- Every row block of the output is some point's. -/
theorem block_onto : ∀ (q0 : Fin 80), ∃ t : Fin cfg2.N, win2_4.index t = ![q0.val, 0] :=
  (by decide +kernel : ∀ (q0 : Fin 80), ∃ t : Fin grid2.N, win2_4.index t = ![q0.val, 0])

/-- The linear map's block is the whole array. -/
theorem iblk_map (c : Dev nD) (t : Fin cfg2.N) : (iblk2 V c 2 t : S32x256.Idx → EReal) = V c main_v24 := by
  obtain ⟨-, -, -, -, e0, e1, -⟩ := block_facts t
  funext y
  show V c main_v24 (((cfg2.win 2).blk t).view.emb y) = V c main_v24 y
  refine congrArg _ (funext fun a => Fin.ext ?_)
  match a with
  | ⟨0, _⟩ => show win2_2.index t (0 : Fin 2) * 32 + 1 * (y 0).val = (y 0).val; omega
  | ⟨1, _⟩ => show win2_2.index t (1 : Fin 2) * 256 + 1 * (y 1).val = (y 1).val; omega

/-- The bias row's block is the whole array. -/
theorem iblk_bias (c : Dev nD) (t : Fin cfg2.N) : (iblk2 V c 3 t : S1x256.Idx → EReal) = V c main_v26 := by
  obtain ⟨-, -, -, -, -, -, e0, e1, -⟩ := block_facts t
  funext y
  show V c main_v26 (((cfg2.win 3).blk t).view.emb y) = V c main_v26 y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 256 + 1 * (y 1).val = (y 1).val; omega

/-- What point t writes back is block t of the message of the arrays as the region finds them. -/
theorem flushed2_eq (c : Dev nD) (t : Fin cfg2.N) :
    (dat2 V c).flushed 4 t = ((cfg2.win 4).blk t).view.read (Elt Ideal)
      (Cert.Gine.msg (V c main_v38) (V c main_arg2) (V c main_v24) (V c main_v26)) := by
  show (cfg2.win 4).cut (grid2.coords t) ((dat2 V c).after 4 t) = _
  rw [after2_4]
  unfold out2_4
  rw [View.canon_unit_zero zero_offsets]
  simp only [View.ld_unit_zero (S := S4000x256) zero_offsets, View.ld_unit_zero (S := S4000x32) zero_offsets,
    View.ld_unit_zero (S := S32x256) zero_offsets, View.ld_unit_zero (S := S1x256) zero_offsets]
  rw [pay2_eq, iblk_map V c t, iblk_bias V c t]
  obtain ⟨e00, e01, e10, e11, -, -, -, -, e41, e40⟩ := block_facts t
  funext y
  obtain ⟨p, q, rfl⟩ : ∃ (p : Fin 4000) (q : Fin 256), y = ix2 p q := ⟨y 0, y 1, eq_ix2 y⟩
  have hp : win2_4.index t (0 : Fin 2) * 4000 + p.val < 320000 := by have := p.isLt; omega
  have hy : ((cfg2.win 4).blk t).view.emb (ix2 p q) = (ix2 (⟨win2_4.index t (0 : Fin 2) * 4000 + p.val, hp⟩ : Fin 320000) q : S320000x256.Idx) :=
    funext fun a => Fin.ext (by
      match a with
      | ⟨0, _⟩ => show win2_4.index t (0 : Fin 2) * 4000 + 1 * p.val = win2_4.index t (0 : Fin 2) * 4000 + p.val; omega
      | ⟨1, _⟩ => show win2_4.index t (1 : Fin 2) * 256 + 1 * q.val = q.val; omega)
  show Cert.Gine.msg (n := 4000) (iblk2 V c 0 t) (iblk2 V c 1 t) (V c main_v24) (V c main_v26) (ix2 p q)
    = Cert.Gine.msg (V c main_v38) (V c main_arg2) (V c main_v24) (V c main_v26) (((cfg2.win 4).blk t).view.emb (ix2 p q))
  rw [hy]
  refine Cert.Gine.msg_congr _ _ _ _ _ _ _ _ p _ q ?_ (fun j => ?_) (fun _ => rfl) rfl
  · show V c main_v38 (((cfg2.win 0).blk t).view.emb (ix2 p q)) = V c main_v38 _
    refine congrArg _ (funext fun a => Fin.ext ?_)
    match a with
    | ⟨0, _⟩ => show win2_0.index t (0 : Fin 2) * 4000 + 1 * p.val = win2_4.index t (0 : Fin 2) * 4000 + p.val; omega
    | ⟨1, _⟩ => show win2_0.index t (1 : Fin 2) * 256 + 1 * q.val = q.val; omega
  · show V c main_arg2 (((cfg2.win 1).blk t).view.emb (ix2 p j)) = V c main_arg2 _
    refine congrArg _ (funext fun a => Fin.ext ?_)
    match a with
    | ⟨0, _⟩ => show win2_1.index t (0 : Fin 2) * 4000 + 1 * p.val = win2_4.index t (0 : Fin 2) * 4000 + p.val; omega
    | ⟨1, _⟩ => show win2_1.index t (1 : Fin 2) * 32 + 1 * j.val = j.val; omega

/-- An index of the array is in point t's block iff each coordinate is in the block's range on its axis. -/
theorem mem_blk2 (t : Fin cfg2.N) (i : S320000x256.Idx) :
    i ∈ ((cfg2.win 4).blk t).view.set ↔ ∀ a : Fin 2, win2_4.index t a * S4000x256.size a ≤ (i a).val ∧ (i a).val < win2_4.index t a * S4000x256.size a + S4000x256.size a := by
  show i ∈ ((View.whole main_v39).slice (win2_4.rect t)).set ↔ _
  rw [View.set_slice_whole, Rect.mem_set_unit]
  exact Iff.rfl

/-- The eighty blocks tile the output: row r is in block r / 4000. -/
theorem cover2 (i : S320000x256.Idx) : ∃ t : Fin cfg2.N, (cfg2.win 4).flush t = true ∧ i ∈ ((cfg2.win 4).blk t).view.set := by
  have hi0 : (i 0).val < 320000 := (i 0).isLt
  have hi1 : (i 1).val < 256 := (i 1).isLt
  obtain ⟨t, ht⟩ := block_onto ⟨(i 0).val / 4000, by omega⟩
  have q0 : win2_4.index t (0 : Fin 2) = (i 0).val / 4000 := congrFun ht 0
  have q1 : win2_4.index t (1 : Fin 2) = 0 := congrFun ht 1
  refine ⟨t, flush2_4 t, ?_⟩
  rw [mem_blk2]
  intro a
  match a with
  | ⟨0, _⟩ => show win2_4.index t (0 : Fin 2) * 4000 ≤ (i 0).val ∧ (i 0).val < win2_4.index t (0 : Fin 2) * 4000 + 4000; omega
  | ⟨1, _⟩ => show win2_4.index t (1 : Fin 2) * 256 ≤ (i 1).val ∧ (i 1).val < win2_4.index t (1 : Fin 2) * 256 + 256; omega

/-- The output array after the region: the message of the region-entry arrays. -/
theorem final2 (c : Dev nD) : (dat2 V c).arrAt 4 cfg2.N
    = Cert.Gine.msg (V c main_v38) (V c main_arg2) (V c main_v24) (V c main_v26) :=
  (dat2 V c).arrAt_eq_of_cover 4 (Cert.Gine.msg (V c main_v38) (V c main_arg2) (V c main_v24) (V c main_v26))
    (fun t _ => flushed2_eq V c t) cover2

end Cert.KernelIdeal.ValM2

end
-- ==== Proof.Node3.lean ====
/-
  The node update of layer 2, kernel side: the array the region's output window ends holding is the node update
  (Cert.Gine.node) of the arrays the region finds.  Three steps: the block computation at an entry is the node update of
  the operand blocks (the matrix product into a zero accumulator is the plain sum; the row operands are broadcast along
  the rows; the format changes are the identity on extended reals); what grid point t writes back is block t of the
  node update of the whole arrays, since row p of block t is row t * 2000 + p and the weight and row vectors are read
  whole; the ten row blocks cover the array.
-/
import proofs.«180599_j70557722739068_1_alg».proof.Proof.Gen.KernelIdeal.Frame
import proofs.«180599_j70557722739068_1_alg».proof.Proof.Spec
import proofs.«180599_j70557722739068_1_alg».proof.Proof.LibDot
import Idealize.ShloMosaic.Lib.Pipeline.Value
import Idealize.ShloMosaic.Lib.ValueLayout
import Idealize.ShloMosaic.Lib.ValueIdx

noncomputable section

namespace Cert.KernelIdeal.ValN3

open Cert.KernelIdeal Cert.KernelIdeal.Gen Idealize.ShloMosaic Idealize.ShloMosaic.ValueIdx Idealize.ShloMosaic.TcCoe
open Idealize.ShloMosaic.Pipeline (Dat)

/-- The block computation is the node update of its operands: the matrix product into a zero accumulator is the plain
    sum, the row operands are broadcast along the rows, and the format changes are the identity on extended reals. -/
theorem pay3_eq (x a : Vec Ideal S2000x256 .f32) (w : Vec Ideal S256x256 .f32) (bnb rm rv g b : Vec Ideal S1x256 .f32) :
    k3_pay1 x a w bnb rm rv g b = Cert.Gine.node x a w bnb g b rm rv := by
  funext j
  obtain ⟨p, q, rfl⟩ : ∃ (p : Fin 2000) (q : Fin 256), j = ix2 p q := ⟨j 0, j 1, eq_ix2 j⟩
  rw [Cert.Gine.node_ix2]
  unfold k3_pay1
  simp only [maximumf_apply, addf_apply, mulf_apply, subf_apply, broadcast_apply, broadcastTo_1b_ab_apply, shapeCast_self]
  have hm : _ = Cert.Gine.dotAt (fun j => x j + a j) w p q :=
    Cert.LibDot.matmul_zero_apply dot_S2000x256_S256x256_S2000x256_1_0_0_1_n_n rfl rfl (fun _ _ => rfl) (fun _ _ => rfl)
      (fun _ _ => rfl) (fun _ _ => rfl) none (truncf FTy.bf16 (addf x a) bitsLt_bf16_f32 : FVec Ideal S2000x256 .bf16)
      (truncf FTy.bf16 w bitsLt_bf16_f32 : FVec Ideal S256x256 .bf16) p q
  rw [← hm]
  rfl

variable (V : (c : Dev nD) → (b : Ref sig .tc) → Buf (Elt Ideal) ((c : Thread nD τ).loc b))

theorem hz : (![0, 0] : Fin 2 → Nat) = fun _ => 0 := funext fun a => by fin_cases a <;> rfl

/-! The printed index maps over the grid: the two row-blocked inputs and the output are at row block t, column block 0;
    the weight and the five row vectors are whole arrays at block (0, 0). -/

theorem idx_facts3_0 : ∀ t : Fin cfg3.N, win3_0.index t (0 : Fin 2) = t.val ∧ win3_0.index t (1 : Fin 2) = 0 :=
  (by decide +kernel : ∀ t : Fin grid3.N, _)

theorem idx_facts3_1 : ∀ t : Fin cfg3.N, win3_1.index t (0 : Fin 2) = t.val ∧ win3_1.index t (1 : Fin 2) = 0 :=
  (by decide +kernel : ∀ t : Fin grid3.N, _)

theorem idx_facts3_2 : ∀ t : Fin cfg3.N, win3_2.index t (0 : Fin 2) = 0 ∧ win3_2.index t (1 : Fin 2) = 0 :=
  (by decide +kernel : ∀ t : Fin grid3.N, _)

theorem idx_facts3_3 : ∀ t : Fin cfg3.N, win3_3.index t (0 : Fin 2) = 0 ∧ win3_3.index t (1 : Fin 2) = 0 :=
  (by decide +kernel : ∀ t : Fin grid3.N, _)

theorem idx_facts3_4 : ∀ t : Fin cfg3.N, win3_4.index t (0 : Fin 2) = 0 ∧ win3_4.index t (1 : Fin 2) = 0 :=
  (by decide +kernel : ∀ t : Fin grid3.N, _)

theorem idx_facts3_5 : ∀ t : Fin cfg3.N, win3_5.index t (0 : Fin 2) = 0 ∧ win3_5.index t (1 : Fin 2) = 0 :=
  (by decide +kernel : ∀ t : Fin grid3.N, _)

theorem idx_facts3_6 : ∀ t : Fin cfg3.N, win3_6.index t (0 : Fin 2) = 0 ∧ win3_6.index t (1 : Fin 2) = 0 :=
  (by decide +kernel : ∀ t : Fin grid3.N, _)

theorem idx_facts3_7 : ∀ t : Fin cfg3.N, win3_7.index t (0 : Fin 2) = 0 ∧ win3_7.index t (1 : Fin 2) = 0 :=
  (by decide +kernel : ∀ t : Fin grid3.N, _)

theorem idx_facts3_8 : ∀ t : Fin cfg3.N, win3_8.index t (0 : Fin 2) = t.val ∧ win3_8.index t (1 : Fin 2) = 0 :=
  (by decide +kernel : ∀ t : Fin grid3.N, _)

/-! Each input block at an index is its array at the index the block's rectangle names: a block's coordinate is
    block index times block size plus the coordinate inside the block. -/

theorem blk3_0 (c : Dev nD) (t : Fin cfg3.N) (p : Fin 2000) (j : Fin 256) (h : t.val * 2000 + p.val < 20000) :
    iblk3 V c 0 t (ix2 p j) = (V c main_v23 : S20000x256.Idx → EReal) (ix2 (⟨t.val * 2000 + p.val, h⟩ : Fin 20000) j) := by
  obtain ⟨e0, e1⟩ := idx_facts3_0 t
  show (V c main_v23 : S20000x256.Idx → EReal) (((cfg3.win 0).blk t).view.emb (ix2 p j)) = _
  refine congrArg (V c main_v23 : S20000x256.Idx → EReal) ?_; funext a; apply Fin.ext
  match a with
  | ⟨0, _⟩ => show win3_0.index t (0 : Fin 2) * 2000 + 1 * p.val = t.val * 2000 + p.val; rw [e0]; omega
  | ⟨1, _⟩ => show win3_0.index t (1 : Fin 2) * 256 + 1 * j.val = j.val; rw [e1]; omega

theorem blk3_1 (c : Dev nD) (t : Fin cfg3.N) (p : Fin 2000) (j : Fin 256) (h : t.val * 2000 + p.val < 20000) :
    iblk3 V c 1 t (ix2 p j) = (V c main_v42 : S20000x256.Idx → EReal) (ix2 (⟨t.val * 2000 + p.val, h⟩ : Fin 20000) j) := by
  obtain ⟨e0, e1⟩ := idx_facts3_1 t
  show (V c main_v42 : S20000x256.Idx → EReal) (((cfg3.win 1).blk t).view.emb (ix2 p j)) = _
  refine congrArg (V c main_v42 : S20000x256.Idx → EReal) ?_; funext a; apply Fin.ext
  match a with
  | ⟨0, _⟩ => show win3_1.index t (0 : Fin 2) * 2000 + 1 * p.val = t.val * 2000 + p.val; rw [e0]; omega
  | ⟨1, _⟩ => show win3_1.index t (1 : Fin 2) * 256 + 1 * j.val = j.val; rw [e1]; omega

theorem blk3_2 (c : Dev nD) (t : Fin cfg3.N) (j : Fin 256) (q : Fin 256) :
    iblk3 V c 2 t (ix2 j q) = (V c main_v25 : S256x256.Idx → EReal) (ix2 j q) := by
  obtain ⟨e0, e1⟩ := idx_facts3_2 t
  show (V c main_v25 : S256x256.Idx → EReal) (((cfg3.win 2).blk t).view.emb (ix2 j q)) = _
  refine congrArg (V c main_v25 : S256x256.Idx → EReal) ?_; funext a; apply Fin.ext
  match a with
  | ⟨0, _⟩ => show win3_2.index t (0 : Fin 2) * 256 + 1 * j.val = j.val; rw [e0]; omega
  | ⟨1, _⟩ => show win3_2.index t (1 : Fin 2) * 256 + 1 * q.val = q.val; rw [e1]; omega

theorem blk3_3 (c : Dev nD) (t : Fin cfg3.N) (j : Fin 1) (q : Fin 256) :
    iblk3 V c 3 t (ix2 j q) = (V c main_v27 : S1x256.Idx → EReal) (ix2 j q) := by
  obtain ⟨e0, e1⟩ := idx_facts3_3 t
  show (V c main_v27 : S1x256.Idx → EReal) (((cfg3.win 3).blk t).view.emb (ix2 j q)) = _
  refine congrArg (V c main_v27 : S1x256.Idx → EReal) ?_; funext a; apply Fin.ext
  match a with
  | ⟨0, _⟩ => show win3_3.index t (0 : Fin 2) * 1 + 1 * j.val = j.val; rw [e0]; omega
  | ⟨1, _⟩ => show win3_3.index t (1 : Fin 2) * 256 + 1 * q.val = q.val; rw [e1]; omega

theorem blk3_4 (c : Dev nD) (t : Fin cfg3.N) (j : Fin 1) (q : Fin 256) :
    iblk3 V c 4 t (ix2 j q) = (V c main_v28 : S1x256.Idx → EReal) (ix2 j q) := by
  obtain ⟨e0, e1⟩ := idx_facts3_4 t
  show (V c main_v28 : S1x256.Idx → EReal) (((cfg3.win 4).blk t).view.emb (ix2 j q)) = _
  refine congrArg (V c main_v28 : S1x256.Idx → EReal) ?_; funext a; apply Fin.ext
  match a with
  | ⟨0, _⟩ => show win3_4.index t (0 : Fin 2) * 1 + 1 * j.val = j.val; rw [e0]; omega
  | ⟨1, _⟩ => show win3_4.index t (1 : Fin 2) * 256 + 1 * q.val = q.val; rw [e1]; omega

theorem blk3_5 (c : Dev nD) (t : Fin cfg3.N) (j : Fin 1) (q : Fin 256) :
    iblk3 V c 5 t (ix2 j q) = (V c main_v29 : S1x256.Idx → EReal) (ix2 j q) := by
  obtain ⟨e0, e1⟩ := idx_facts3_5 t
  show (V c main_v29 : S1x256.Idx → EReal) (((cfg3.win 5).blk t).view.emb (ix2 j q)) = _
  refine congrArg (V c main_v29 : S1x256.Idx → EReal) ?_; funext a; apply Fin.ext
  match a with
  | ⟨0, _⟩ => show win3_5.index t (0 : Fin 2) * 1 + 1 * j.val = j.val; rw [e0]; omega
  | ⟨1, _⟩ => show win3_5.index t (1 : Fin 2) * 256 + 1 * q.val = q.val; rw [e1]; omega

theorem blk3_6 (c : Dev nD) (t : Fin cfg3.N) (j : Fin 1) (q : Fin 256) :
    iblk3 V c 6 t (ix2 j q) = (V c main_v30 : S1x256.Idx → EReal) (ix2 j q) := by
  obtain ⟨e0, e1⟩ := idx_facts3_6 t
  show (V c main_v30 : S1x256.Idx → EReal) (((cfg3.win 6).blk t).view.emb (ix2 j q)) = _
  refine congrArg (V c main_v30 : S1x256.Idx → EReal) ?_; funext a; apply Fin.ext
  match a with
  | ⟨0, _⟩ => show win3_6.index t (0 : Fin 2) * 1 + 1 * j.val = j.val; rw [e0]; omega
  | ⟨1, _⟩ => show win3_6.index t (1 : Fin 2) * 256 + 1 * q.val = q.val; rw [e1]; omega

theorem blk3_7 (c : Dev nD) (t : Fin cfg3.N) (j : Fin 1) (q : Fin 256) :
    iblk3 V c 7 t (ix2 j q) = (V c main_v31 : S1x256.Idx → EReal) (ix2 j q) := by
  obtain ⟨e0, e1⟩ := idx_facts3_7 t
  show (V c main_v31 : S1x256.Idx → EReal) (((cfg3.win 7).blk t).view.emb (ix2 j q)) = _
  refine congrArg (V c main_v31 : S1x256.Idx → EReal) ?_; funext a; apply Fin.ext
  match a with
  | ⟨0, _⟩ => show win3_7.index t (0 : Fin 2) * 1 + 1 * j.val = j.val; rw [e0]; omega
  | ⟨1, _⟩ => show win3_7.index t (1 : Fin 2) * 256 + 1 * q.val = q.val; rw [e1]; omega

/-- Row p of the output's block t is row t * 2000 + p of the array. -/
theorem row3_8 (t : Fin cfg3.N) (p : Fin 2000) (q : Fin 256) (h : t.val * 2000 + p.val < 20000) :
    ((cfg3.win 8).blk t).view.emb (ix2 p q) = (ix2 (⟨t.val * 2000 + p.val, h⟩ : Fin 20000) q : S20000x256.Idx) := by
  obtain ⟨e0, e1⟩ := idx_facts3_8 t
  funext a; apply Fin.ext
  match a with
  | ⟨0, _⟩ => show win3_8.index t (0 : Fin 2) * 2000 + 1 * p.val = t.val * 2000 + p.val; rw [e0]; omega
  | ⟨1, _⟩ => show win3_8.index t (1 : Fin 2) * 256 + 1 * q.val = q.val; rw [e1]; omega

set_option maxHeartbeats 1000000 in
/-- What grid point t writes back is block t of the node update of the arrays as the region finds them: row p of
    block t is row t * 2000 + p of the row-blocked arrays, and the weight and the row vectors are read whole. -/
theorem flushed3_eq (c : Dev nD) (t : Fin cfg3.N) :
    (dat3 V c).flushed 8 t = ((cfg3.win 8).blk t).view.read (Elt Ideal)
      (Cert.Gine.node (n := 20000) (d := 256) (e := 256) (V c main_v23) (V c main_v42) (V c main_v25) (V c main_v27) (V c main_v28) (V c main_v29) (V c main_v30) (V c main_v31)) := by
  show (cfg3.win 8).cut (grid3.coords t) ((dat3 V c).after 8 t) = _
  rw [after3_8]
  unfold out3_8
  rw [View.canon_unit_zero hz]
  simp only [View.ld_unit_zero (S := S2000x256) hz, View.ld_unit_zero (S := S256x256) hz, View.ld_unit_zero (S := S1x256) hz]
  rw [pay3_eq]
  have hN : t.val < 10 := Nat.lt_of_lt_of_eq t.isLt N_3
  funext y
  obtain ⟨p, q, rfl⟩ : ∃ (p : Fin 2000) (q : Fin 256), y = ix2 p q := ⟨y 0, y 1, eq_ix2 y⟩
  have hp : t.val * 2000 + p.val < 20000 := by have := p.isLt; omega
  show Cert.Gine.node (iblk3 V c 0 t) (iblk3 V c 1 t) (iblk3 V c 2 t) (iblk3 V c 3 t) (iblk3 V c 4 t) (iblk3 V c 5 t) (iblk3 V c 6 t) (iblk3 V c 7 t) (ix2 p q)
    = Cert.Gine.node (n := 20000) (d := 256) (e := 256) (V c main_v23) (V c main_v42) (V c main_v25) (V c main_v27) (V c main_v28) (V c main_v29) (V c main_v30) (V c main_v31) (((cfg3.win 8).blk t).view.emb (ix2 p q))
  rw [row3_8 t p q hp]
  exact Cert.Gine.node_congr _ _ _ _ _ _ _ _ _ _ _ _ _ _ _ _ p _ q (fun j => blk3_0 V c t p j hp) (fun j => blk3_1 V c t p j hp)
    (fun j => blk3_2 V c t j q) (blk3_3 V c t 0 q) (blk3_4 V c t 0 q) (blk3_5 V c t 0 q) (blk3_6 V c t 0 q) (blk3_7 V c t 0 q)

/-- An index of the array is in point t's block iff each coordinate is in the block's range on its axis. -/
theorem mem_blk3 (t : Fin cfg3.N) (i : S20000x256.Idx) :
    i ∈ ((cfg3.win 8).blk t).view.set ↔ ∀ a : Fin 2, win3_8.index t a * S2000x256.size a ≤ (i a).val ∧ (i a).val < win3_8.index t a * S2000x256.size a + S2000x256.size a := by
  show i ∈ ((View.whole main_v43).slice (win3_8.rect t)).set ↔ _
  rw [View.set_slice_whole, Rect.mem_set_unit]
  exact Iff.rfl

/-- Every row r of the array is in the block of point r / 2000, which writes back. -/
theorem cover3 (i : S20000x256.Idx) : ∃ t : Fin cfg3.N, (cfg3.win 8).flush t = true ∧ i ∈ ((cfg3.win 8).blk t).view.set := by
  have hi0 : (i 0).val < 20000 := (i 0).isLt
  have hi1 : (i 1).val < 256 := (i 1).isLt
  have hlt : (i 0).val / 2000 < cfg3.N := Nat.lt_of_lt_of_eq (by omega : (i 0).val / 2000 < 10) N_3.symm
  obtain ⟨e0, e1⟩ := idx_facts3_8 ⟨(i 0).val / 2000, hlt⟩
  refine ⟨⟨(i 0).val / 2000, hlt⟩, flush3_8 _, ?_⟩
  rw [mem_blk3]
  intro a
  match a with
  | ⟨0, _⟩ =>
    show win3_8.index ⟨(i 0).val / 2000, hlt⟩ (0 : Fin 2) * 2000 ≤ (i 0).val ∧ (i 0).val < win3_8.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win3_8.index ⟨(i 0).val / 2000, hlt⟩ (1 : Fin 2) * 256 ≤ (i 1).val ∧ (i 1).val < win3_8.index ⟨(i 0).val / 2000, hlt⟩ (1 : Fin 2) * 256 + 256
    rw [e1]; omega

/-- The output array after the region: the node update of the arrays as the region finds them. -/
theorem final3 (c : Dev nD) : (dat3 V c).arrAt 8 cfg3.N
    = Cert.Gine.node (V c main_v23) (V c main_v42) (V c main_v25) (V c main_v27) (V c main_v28) (V c main_v29) (V c main_v30) (V c main_v31) :=
  (dat3 V c).arrAt_eq_of_cover 8 _ (fun t _ => flushed3_eq V c t) cover3

end Cert.KernelIdeal.ValN3

end
-- ==== Proof.Msg4.lean ====
/-
  A message region: eighty grid points, point t reading rows 4000·t … 4000·t + 3999 of the source features and of the edge
  attributes, the whole linear map and bias row, and writing the same rows of the output.  Its payload — the edge
  attributes' product into a zero accumulator added to the source features, the bias row, the rectifier — is, entry by
  entry, the message of Spec applied to the loaded blocks; an entry of a message depends on its own row only, so a
  point's block of results is its block of the message of the region-entry arrays, and the eighty blocks tile the output.
-/
import proofs.«180599_j70557722739068_1_alg».proof.Proof.Gen.KernelIdeal.Frame
import proofs.«180599_j70557722739068_1_alg».proof.Proof.Spec
import proofs.«180599_j70557722739068_1_alg».proof.Proof.LibDot
import Idealize.ShloMosaic.Lib.Pipeline.Value
import Idealize.ShloMosaic.Lib.ValueIdx
import Idealize.ShloMosaic.Lib.ValueLayout
import Idealize.ShloMosaic.PureOps.Ideal

noncomputable section

namespace Cert.KernelIdeal.ValM4

open Cert.KernelIdeal Cert.KernelIdeal.Gen Idealize.ShloMosaic Idealize.ShloMosaic.ValueIdx Idealize.ShloMosaic.TcCoe Idealize.SL.Sem
open Idealize.ShloMosaic.Pipeline (Dat)
open scoped BigOperators

/-- The body's payload is the message of its loaded blocks. -/
theorem pay4_eq (v0 : Vec Ideal S4000x256 .f32) (v2 : Vec Ideal S4000x32 .f32) (v3 : Vec Ideal S32x256 .f32) (v5 : Vec Ideal S1x256 .f32) :
    k4_pay1 v0 v2 v3 v5 = Cert.Gine.msg (n := 4000) v0 v2 v3 v5 := by
  funext i
  obtain ⟨p, q, rfl⟩ : ∃ (p : Fin 4000) (q : Fin 256), i = ix2 p q := ⟨i 0, i 1, eq_ix2 i⟩
  rw [Cert.Gine.msg_ix2]
  unfold k4_pay1
  show max ((_ + _) + _) _ = _
  refine congrArg₂ max (congrArg₂ (· + ·) (congrArg₂ (· + ·) ?_ ?_) ?_) rfl
  · show shapeCast S4000x256 v0 shapeCasts_S4000x256_S4000x256 (ix2 p q) = v0 (ix2 p q)
    rw [shapeCast_self]
  · refine (Cert.LibDot.matmul_zero_apply dot_S4000x32_S32x256_S4000x256_1_0_0_1_n_n rfl rfl (fun _ _ => rfl) (fun _ _ => rfl) (fun _ _ => rfl) (fun _ _ => rfl) none _ _ p q).trans ?_
    refine Finset.sum_congr rfl fun j _ => ?_
    refine congrArg₂ (· * ·) rfl ?_
    show shapeCast S32x256 v3 shapeCasts_S32x256_S32x256 (ix2 j q) = v3 (ix2 j q)
    rw [shapeCast_self]
  · rw [shapeCast_self]
    exact broadcastTo_1b_ab_apply v5 broadcasts_S1x256_S4000x256 p q

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: the two row-blocked inputs move with the output on the row axis, every
    column block index is 0, the linear map and the bias row stay at block (0, 0), and the row block index is below 80. -/
theorem block_facts : ∀ t : Fin cfg4.N,
    win4_0.index t (0 : Fin 2) = win4_4.index t (0 : Fin 2) ∧ win4_0.index t (1 : Fin 2) = 0
    ∧ win4_1.index t (0 : Fin 2) = win4_4.index t (0 : Fin 2) ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (1 : Fin 2) = 0 ∧ win4_4.index t (0 : Fin 2) ≤ 79 :=
  (by decide +kernel : ∀ t : Fin grid4.N, _)

/-- Every row block of the output is some point's. -/
theorem block_onto : ∀ (q0 : Fin 80), ∃ t : Fin cfg4.N, win4_4.index t = ![q0.val, 0] :=
  (by decide +kernel : ∀ (q0 : Fin 80), ∃ t : Fin grid4.N, win4_4.index t = ![q0.val, 0])

/-- The linear map's block is the whole array. -/
theorem iblk_map (c : Dev nD) (t : Fin cfg4.N) : (iblk4 V c 2 t : S32x256.Idx → EReal) = V c main_v44 := by
  obtain ⟨-, -, -, -, e0, e1, -⟩ := block_facts t
  funext y
  show V c main_v44 (((cfg4.win 2).blk t).view.emb y) = V c main_v44 y
  refine congrArg _ (funext fun a => Fin.ext ?_)
  match a with
  | ⟨0, _⟩ => show win4_2.index t (0 : Fin 2) * 32 + 1 * (y 0).val = (y 0).val; omega
  | ⟨1, _⟩ => show win4_2.index t (1 : Fin 2) * 256 + 1 * (y 1).val = (y 1).val; omega

/-- The bias row's block is the whole array. -/
theorem iblk_bias (c : Dev nD) (t : Fin cfg4.N) : (iblk4 V c 3 t : S1x256.Idx → EReal) = V c main_v46 := by
  obtain ⟨-, -, -, -, -, -, e0, e1, -⟩ := block_facts t
  funext y
  show V c main_v46 (((cfg4.win 3).blk t).view.emb y) = V c main_v46 y
  refine congrArg _ (funext fun a => Fin.ext ?_)
  match a with
  | ⟨0, _⟩ => show win4_3.index t (0 : Fin 2) * 1 + 1 * (y 0).val = (y 0).val; omega
  | ⟨1, _⟩ => show win4_3.index t (1 : Fin 2) * 256 + 1 * (y 1).val = (y 1).val; omega

/-- What point t writes back is block t of the message of the arrays as the region finds them. -/
theorem flushed4_eq (c : Dev nD) (t : Fin cfg4.N) :
    (dat4 V c).flushed 4 t = ((cfg4.win 4).blk t).view.read (Elt Ideal)
      (Cert.Gine.msg (V c main_v58) (V c main_arg2) (V c main_v44) (V c main_v46)) := by
  show (cfg4.win 4).cut (grid4.coords t) ((dat4 V c).after 4 t) = _
  rw [after4_4]
  unfold out4_4
  rw [View.canon_unit_zero zero_offsets]
  simp only [View.ld_unit_zero (S := S4000x256) zero_offsets, View.ld_unit_zero (S := S4000x32) zero_offsets,
    View.ld_unit_zero (S := S32x256) zero_offsets, View.ld_unit_zero (S := S1x256) zero_offsets]
  rw [pay4_eq, iblk_map V c t, iblk_bias V c t]
  obtain ⟨e00, e01, e10, e11, -, -, -, -, e41, e40⟩ := block_facts t
  funext y
  obtain ⟨p, q, rfl⟩ : ∃ (p : Fin 4000) (q : Fin 256), y = ix2 p q := ⟨y 0, y 1, eq_ix2 y⟩
  have hp : win4_4.index t (0 : Fin 2) * 4000 + p.val < 320000 := by have := p.isLt; omega
  have hy : ((cfg4.win 4).blk t).view.emb (ix2 p q) = (ix2 (⟨win4_4.index t (0 : Fin 2) * 4000 + p.val, hp⟩ : Fin 320000) q : S320000x256.Idx) :=
    funext fun a => Fin.ext (by
      match a with
      | ⟨0, _⟩ => show win4_4.index t (0 : Fin 2) * 4000 + 1 * p.val = win4_4.index t (0 : Fin 2) * 4000 + p.val; omega
      | ⟨1, _⟩ => show win4_4.index t (1 : Fin 2) * 256 + 1 * q.val = q.val; omega)
  show Cert.Gine.msg (n := 4000) (iblk4 V c 0 t) (iblk4 V c 1 t) (V c main_v44) (V c main_v46) (ix2 p q)
    = Cert.Gine.msg (V c main_v58) (V c main_arg2) (V c main_v44) (V c main_v46) (((cfg4.win 4).blk t).view.emb (ix2 p q))
  rw [hy]
  refine Cert.Gine.msg_congr _ _ _ _ _ _ _ _ p _ q ?_ (fun j => ?_) (fun _ => rfl) rfl
  · show V c main_v58 (((cfg4.win 0).blk t).view.emb (ix2 p q)) = V c main_v58 _
    refine congrArg _ (funext fun a => Fin.ext ?_)
    match a with
    | ⟨0, _⟩ => show win4_0.index t (0 : Fin 2) * 4000 + 1 * p.val = win4_4.index t (0 : Fin 2) * 4000 + p.val; omega
    | ⟨1, _⟩ => show win4_0.index t (1 : Fin 2) * 256 + 1 * q.val = q.val; omega
  · show V c main_arg2 (((cfg4.win 1).blk t).view.emb (ix2 p j)) = V c main_arg2 _
    refine congrArg _ (funext fun a => Fin.ext ?_)
    match a with
    | ⟨0, _⟩ => show win4_1.index t (0 : Fin 2) * 4000 + 1 * p.val = win4_4.index t (0 : Fin 2) * 4000 + p.val; omega
    | ⟨1, _⟩ => show win4_1.index t (1 : Fin 2) * 32 + 1 * j.val = j.val; omega

/-- An index of the array is in point t's block iff each coordinate is in the block's range on its axis. -/
theorem mem_blk4 (t : Fin cfg4.N) (i : S320000x256.Idx) :
    i ∈ ((cfg4.win 4).blk t).view.set ↔ ∀ a : Fin 2, win4_4.index t a * S4000x256.size a ≤ (i a).val ∧ (i a).val < win4_4.index t a * S4000x256.size a + S4000x256.size a := by
  show i ∈ ((View.whole main_v59).slice (win4_4.rect t)).set ↔ _
  rw [View.set_slice_whole, Rect.mem_set_unit]
  exact Iff.rfl

/-- The eighty blocks tile the output: row r is in block r / 4000. -/
theorem cover4 (i : S320000x256.Idx) : ∃ t : Fin cfg4.N, (cfg4.win 4).flush t = true ∧ i ∈ ((cfg4.win 4).blk t).view.set := by
  have hi0 : (i 0).val < 320000 := (i 0).isLt
  have hi1 : (i 1).val < 256 := (i 1).isLt
  obtain ⟨t, ht⟩ := block_onto ⟨(i 0).val / 4000, by omega⟩
  have q0 : win4_4.index t (0 : Fin 2) = (i 0).val / 4000 := congrFun ht 0
  have q1 : win4_4.index t (1 : Fin 2) = 0 := congrFun ht 1
  refine ⟨t, flush4_4 t, ?_⟩
  rw [mem_blk4]
  intro a
  match a with
  | ⟨0, _⟩ => show win4_4.index t (0 : Fin 2) * 4000 ≤ (i 0).val ∧ (i 0).val < win4_4.index t (0 : Fin 2) * 4000 + 4000; omega
  | ⟨1, _⟩ => show win4_4.index t (1 : Fin 2) * 256 ≤ (i 1).val ∧ (i 1).val < win4_4.index t (1 : Fin 2) * 256 + 256; omega

/-- The output array after the region: the message of the region-entry arrays. -/
theorem final4 (c : Dev nD) : (dat4 V c).arrAt 4 cfg4.N
    = Cert.Gine.msg (V c main_v58) (V c main_arg2) (V c main_v44) (V c main_v46) :=
  (dat4 V c).arrAt_eq_of_cover 4 (Cert.Gine.msg (V c main_v58) (V c main_arg2) (V c main_v44) (V c main_v46))
    (fun t _ => flushed4_eq V c t) cover4

end Cert.KernelIdeal.ValM4

end
-- ==== Proof.Node5.lean ====
/-
  The node update of layer 3, kernel side: the array the region's output window ends holding is the node update
  (Cert.Gine.node) of the arrays the region finds.  Three steps: the block computation at an entry is the node update of
  the operand blocks (the matrix product into a zero accumulator is the plain sum; the row operands are broadcast along
  the rows; the format changes are the identity on extended reals); what grid point t writes back is block t of the
  node update of the whole arrays, since row p of block t is row t * 2000 + p and the weight and row vectors are read
  whole; the ten row blocks cover the array.
-/
import proofs.«180599_j70557722739068_1_alg».proof.Proof.Gen.KernelIdeal.Frame
import proofs.«180599_j70557722739068_1_alg».proof.Proof.Spec
import proofs.«180599_j70557722739068_1_alg».proof.Proof.LibDot
import Idealize.ShloMosaic.Lib.Pipeline.Value
import Idealize.ShloMosaic.Lib.ValueLayout
import Idealize.ShloMosaic.Lib.ValueIdx

noncomputable section

namespace Cert.KernelIdeal.ValN5

open Cert.KernelIdeal Cert.KernelIdeal.Gen Idealize.ShloMosaic Idealize.ShloMosaic.ValueIdx Idealize.ShloMosaic.TcCoe
open Idealize.ShloMosaic.Pipeline (Dat)

/-- The block computation is the node update of its operands: the matrix product into a zero accumulator is the plain
    sum, the row operands are broadcast along the rows, and the format changes are the identity on extended reals. -/
theorem pay5_eq (x a : Vec Ideal S2000x256 .f32) (w : Vec Ideal S256x256 .f32) (bnb rm rv g b : Vec Ideal S1x256 .f32) :
    k5_pay1 x a w bnb rm rv g b = Cert.Gine.node x a w bnb g b rm rv := by
  funext j
  obtain ⟨p, q, rfl⟩ : ∃ (p : Fin 2000) (q : Fin 256), j = ix2 p q := ⟨j 0, j 1, eq_ix2 j⟩
  rw [Cert.Gine.node_ix2]
  unfold k5_pay1
  simp only [maximumf_apply, addf_apply, mulf_apply, subf_apply, broadcast_apply, broadcastTo_1b_ab_apply, shapeCast_self]
  have hm : _ = Cert.Gine.dotAt (fun j => x j + a j) w p q :=
    Cert.LibDot.matmul_zero_apply dot_S2000x256_S256x256_S2000x256_1_0_0_1_n_n rfl rfl (fun _ _ => rfl) (fun _ _ => rfl)
      (fun _ _ => rfl) (fun _ _ => rfl) none (truncf FTy.bf16 (addf x a) bitsLt_bf16_f32 : FVec Ideal S2000x256 .bf16)
      (truncf FTy.bf16 w bitsLt_bf16_f32 : FVec Ideal S256x256 .bf16) p q
  rw [← hm]
  rfl

variable (V : (c : Dev nD) → (b : Ref sig .tc) → Buf (Elt Ideal) ((c : Thread nD τ).loc b))

theorem hz : (![0, 0] : Fin 2 → Nat) = fun _ => 0 := funext fun a => by fin_cases a <;> rfl

/-! The printed index maps over the grid: the two row-blocked inputs and the output are at row block t, column block 0;
    the weight and the five row vectors are whole arrays at block (0, 0). -/

theorem idx_facts5_0 : ∀ t : Fin cfg5.N, win5_0.index t (0 : Fin 2) = t.val ∧ win5_0.index t (1 : Fin 2) = 0 :=
  (by decide +kernel : ∀ t : Fin grid5.N, _)

theorem idx_facts5_1 : ∀ t : Fin cfg5.N, win5_1.index t (0 : Fin 2) = t.val ∧ win5_1.index t (1 : Fin 2) = 0 :=
  (by decide +kernel : ∀ t : Fin grid5.N, _)

theorem idx_facts5_2 : ∀ t : Fin cfg5.N, win5_2.index t (0 : Fin 2) = 0 ∧ win5_2.index t (1 : Fin 2) = 0 :=
  (by decide +kernel : ∀ t : Fin grid5.N, _)

theorem idx_facts5_3 : ∀ t : Fin cfg5.N, win5_3.index t (0 : Fin 2) = 0 ∧ win5_3.index t (1 : Fin 2) = 0 :=
  (by decide +kernel : ∀ t : Fin grid5.N, _)

theorem idx_facts5_4 : ∀ t : Fin cfg5.N, win5_4.index t (0 : Fin 2) = 0 ∧ win5_4.index t (1 : Fin 2) = 0 :=
  (by decide +kernel : ∀ t : Fin grid5.N, _)

theorem idx_facts5_5 : ∀ t : Fin cfg5.N, win5_5.index t (0 : Fin 2) = 0 ∧ win5_5.index t (1 : Fin 2) = 0 :=
  (by decide +kernel : ∀ t : Fin grid5.N, _)

theorem idx_facts5_6 : ∀ t : Fin cfg5.N, win5_6.index t (0 : Fin 2) = 0 ∧ win5_6.index t (1 : Fin 2) = 0 :=
  (by decide +kernel : ∀ t : Fin grid5.N, _)

theorem idx_facts5_7 : ∀ t : Fin cfg5.N, win5_7.index t (0 : Fin 2) = 0 ∧ win5_7.index t (1 : Fin 2) = 0 :=
  (by decide +kernel : ∀ t : Fin grid5.N, _)

theorem idx_facts5_8 : ∀ t : Fin cfg5.N, win5_8.index t (0 : Fin 2) = t.val ∧ win5_8.index t (1 : Fin 2) = 0 :=
  (by decide +kernel : ∀ t : Fin grid5.N, _)

/-! Each input block at an index is its array at the index the block's rectangle names: a block's coordinate is
    block index times block size plus the coordinate inside the block. -/

theorem blk5_0 (c : Dev nD) (t : Fin cfg5.N) (p : Fin 2000) (j : Fin 256) (h : t.val * 2000 + p.val < 20000) :
    iblk5 V c 0 t (ix2 p j) = (V c main_v43 : S20000x256.Idx → EReal) (ix2 (⟨t.val * 2000 + p.val, h⟩ : Fin 20000) j) := by
  obtain ⟨e0, e1⟩ := idx_facts5_0 t
  show (V c main_v43 : S20000x256.Idx → EReal) (((cfg5.win 0).blk t).view.emb (ix2 p j)) = _
  refine congrArg (V c main_v43 : S20000x256.Idx → EReal) ?_; funext a; apply Fin.ext
  match a with
  | ⟨0, _⟩ => show win5_0.index t (0 : Fin 2) * 2000 + 1 * p.val = t.val * 2000 + p.val; rw [e0]; omega
  | ⟨1, _⟩ => show win5_0.index t (1 : Fin 2) * 256 + 1 * j.val = j.val; rw [e1]; omega

theorem blk5_1 (c : Dev nD) (t : Fin cfg5.N) (p : Fin 2000) (j : Fin 256) (h : t.val * 2000 + p.val < 20000) :
    iblk5 V c 1 t (ix2 p j) = (V c main_v62 : S20000x256.Idx → EReal) (ix2 (⟨t.val * 2000 + p.val, h⟩ : Fin 20000) j) := by
  obtain ⟨e0, e1⟩ := idx_facts5_1 t
  show (V c main_v62 : S20000x256.Idx → EReal) (((cfg5.win 1).blk t).view.emb (ix2 p j)) = _
  refine congrArg (V c main_v62 : S20000x256.Idx → EReal) ?_; funext a; apply Fin.ext
  match a with
  | ⟨0, _⟩ => show win5_1.index t (0 : Fin 2) * 2000 + 1 * p.val = t.val * 2000 + p.val; rw [e0]; omega
  | ⟨1, _⟩ => show win5_1.index t (1 : Fin 2) * 256 + 1 * j.val = j.val; rw [e1]; omega

theorem blk5_2 (c : Dev nD) (t : Fin cfg5.N) (j : Fin 256) (q : Fin 256) :
    iblk5 V c 2 t (ix2 j q) = (V c main_v45 : S256x256.Idx → EReal) (ix2 j q) := by
  obtain ⟨e0, e1⟩ := idx_facts5_2 t
  show (V c main_v45 : S256x256.Idx → EReal) (((cfg5.win 2).blk t).view.emb (ix2 j q)) = _
  refine congrArg (V c main_v45 : S256x256.Idx → EReal) ?_; funext a; apply Fin.ext
  match a with
  | ⟨0, _⟩ => show win5_2.index t (0 : Fin 2) * 256 + 1 * j.val = j.val; rw [e0]; omega
  | ⟨1, _⟩ => show win5_2.index t (1 : Fin 2) * 256 + 1 * q.val = q.val; rw [e1]; omega

theorem blk5_3 (c : Dev nD) (t : Fin cfg5.N) (j : Fin 1) (q : Fin 256) :
    iblk5 V c 3 t (ix2 j q) = (V c main_v47 : S1x256.Idx → EReal) (ix2 j q) := by
  obtain ⟨e0, e1⟩ := idx_facts5_3 t
  show (V c main_v47 : S1x256.Idx → EReal) (((cfg5.win 3).blk t).view.emb (ix2 j q)) = _
  refine congrArg (V c main_v47 : S1x256.Idx → EReal) ?_; funext a; apply Fin.ext
  match a with
  | ⟨0, _⟩ => show win5_3.index t (0 : Fin 2) * 1 + 1 * j.val = j.val; rw [e0]; omega
  | ⟨1, _⟩ => show win5_3.index t (1 : Fin 2) * 256 + 1 * q.val = q.val; rw [e1]; omega

theorem blk5_4 (c : Dev nD) (t : Fin cfg5.N) (j : Fin 1) (q : Fin 256) :
    iblk5 V c 4 t (ix2 j q) = (V c main_v48 : S1x256.Idx → EReal) (ix2 j q) := by
  obtain ⟨e0, e1⟩ := idx_facts5_4 t
  show (V c main_v48 : S1x256.Idx → EReal) (((cfg5.win 4).blk t).view.emb (ix2 j q)) = _
  refine congrArg (V c main_v48 : S1x256.Idx → EReal) ?_; funext a; apply Fin.ext
  match a with
  | ⟨0, _⟩ => show win5_4.index t (0 : Fin 2) * 1 + 1 * j.val = j.val; rw [e0]; omega
  | ⟨1, _⟩ => show win5_4.index t (1 : Fin 2) * 256 + 1 * q.val = q.val; rw [e1]; omega

theorem blk5_5 (c : Dev nD) (t : Fin cfg5.N) (j : Fin 1) (q : Fin 256) :
    iblk5 V c 5 t (ix2 j q) = (V c main_v49 : S1x256.Idx → EReal) (ix2 j q) := by
  obtain ⟨e0, e1⟩ := idx_facts5_5 t
  show (V c main_v49 : S1x256.Idx → EReal) (((cfg5.win 5).blk t).view.emb (ix2 j q)) = _
  refine congrArg (V c main_v49 : S1x256.Idx → EReal) ?_; funext a; apply Fin.ext
  match a with
  | ⟨0, _⟩ => show win5_5.index t (0 : Fin 2) * 1 + 1 * j.val = j.val; rw [e0]; omega
  | ⟨1, _⟩ => show win5_5.index t (1 : Fin 2) * 256 + 1 * q.val = q.val; rw [e1]; omega

theorem blk5_6 (c : Dev nD) (t : Fin cfg5.N) (j : Fin 1) (q : Fin 256) :
    iblk5 V c 6 t (ix2 j q) = (V c main_v50 : S1x256.Idx → EReal) (ix2 j q) := by
  obtain ⟨e0, e1⟩ := idx_facts5_6 t
  show (V c main_v50 : S1x256.Idx → EReal) (((cfg5.win 6).blk t).view.emb (ix2 j q)) = _
  refine congrArg (V c main_v50 : S1x256.Idx → EReal) ?_; funext a; apply Fin.ext
  match a with
  | ⟨0, _⟩ => show win5_6.index t (0 : Fin 2) * 1 + 1 * j.val = j.val; rw [e0]; omega
  | ⟨1, _⟩ => show win5_6.index t (1 : Fin 2) * 256 + 1 * q.val = q.val; rw [e1]; omega

theorem blk5_7 (c : Dev nD) (t : Fin cfg5.N) (j : Fin 1) (q : Fin 256) :
    iblk5 V c 7 t (ix2 j q) = (V c main_v51 : S1x256.Idx → EReal) (ix2 j q) := by
  obtain ⟨e0, e1⟩ := idx_facts5_7 t
  show (V c main_v51 : S1x256.Idx → EReal) (((cfg5.win 7).blk t).view.emb (ix2 j q)) = _
  refine congrArg (V c main_v51 : S1x256.Idx → EReal) ?_; funext a; apply Fin.ext
  match a with
  | ⟨0, _⟩ => show win5_7.index t (0 : Fin 2) * 1 + 1 * j.val = j.val; rw [e0]; omega
  | ⟨1, _⟩ => show win5_7.index t (1 : Fin 2) * 256 + 1 * q.val = q.val; rw [e1]; omega

/-- Row p of the output's block t is row t * 2000 + p of the array. -/
theorem row5_8 (t : Fin cfg5.N) (p : Fin 2000) (q : Fin 256) (h : t.val * 2000 + p.val < 20000) :
    ((cfg5.win 8).blk t).view.emb (ix2 p q) = (ix2 (⟨t.val * 2000 + p.val, h⟩ : Fin 20000) q : S20000x256.Idx) := by
  obtain ⟨e0, e1⟩ := idx_facts5_8 t
  funext a; apply Fin.ext
  match a with
  | ⟨0, _⟩ => show win5_8.index t (0 : Fin 2) * 2000 + 1 * p.val = t.val * 2000 + p.val; rw [e0]; omega
  | ⟨1, _⟩ => show win5_8.index t (1 : Fin 2) * 256 + 1 * q.val = q.val; rw [e1]; omega

set_option maxHeartbeats 1000000 in
/-- What grid point t writes back is block t of the node update of the arrays as the region finds them: row p of
    block t is row t * 2000 + p of the row-blocked arrays, and the weight and the row vectors are read whole. -/
theorem flushed5_eq (c : Dev nD) (t : Fin cfg5.N) :
    (dat5 V c).flushed 8 t = ((cfg5.win 8).blk t).view.read (Elt Ideal)
      (Cert.Gine.node (n := 20000) (d := 256) (e := 256) (V c main_v43) (V c main_v62) (V c main_v45) (V c main_v47) (V c main_v48) (V c main_v49) (V c main_v50) (V c main_v51)) := by
  show (cfg5.win 8).cut (grid5.coords t) ((dat5 V c).after 8 t) = _
  rw [after5_8]
  unfold out5_8
  rw [View.canon_unit_zero hz]
  simp only [View.ld_unit_zero (S := S2000x256) hz, View.ld_unit_zero (S := S256x256) hz, View.ld_unit_zero (S := S1x256) hz]
  rw [pay5_eq]
  have hN : t.val < 10 := Nat.lt_of_lt_of_eq t.isLt N_5
  funext y
  obtain ⟨p, q, rfl⟩ : ∃ (p : Fin 2000) (q : Fin 256), y = ix2 p q := ⟨y 0, y 1, eq_ix2 y⟩
  have hp : t.val * 2000 + p.val < 20000 := by have := p.isLt; omega
  show Cert.Gine.node (iblk5 V c 0 t) (iblk5 V c 1 t) (iblk5 V c 2 t) (iblk5 V c 3 t) (iblk5 V c 4 t) (iblk5 V c 5 t) (iblk5 V c 6 t) (iblk5 V c 7 t) (ix2 p q)
    = Cert.Gine.node (n := 20000) (d := 256) (e := 256) (V c main_v43) (V c main_v62) (V c main_v45) (V c main_v47) (V c main_v48) (V c main_v49) (V c main_v50) (V c main_v51) (((cfg5.win 8).blk t).view.emb (ix2 p q))
  rw [row5_8 t p q hp]
  exact Cert.Gine.node_congr _ _ _ _ _ _ _ _ _ _ _ _ _ _ _ _ p _ q (fun j => blk5_0 V c t p j hp) (fun j => blk5_1 V c t p j hp)
    (fun j => blk5_2 V c t j q) (blk5_3 V c t 0 q) (blk5_4 V c t 0 q) (blk5_5 V c t 0 q) (blk5_6 V c t 0 q) (blk5_7 V c t 0 q)

/-- An index of the array is in point t's block iff each coordinate is in the block's range on its axis. -/
theorem mem_blk5 (t : Fin cfg5.N) (i : S20000x256.Idx) :
    i ∈ ((cfg5.win 8).blk t).view.set ↔ ∀ a : Fin 2, win5_8.index t a * S2000x256.size a ≤ (i a).val ∧ (i a).val < win5_8.index t a * S2000x256.size a + S2000x256.size a := by
  show i ∈ ((View.whole main_v63).slice (win5_8.rect t)).set ↔ _
  rw [View.set_slice_whole, Rect.mem_set_unit]
  exact Iff.rfl

/-- Every row r of the array is in the block of point r / 2000, which writes back. -/
theorem cover5 (i : S20000x256.Idx) : ∃ t : Fin cfg5.N, (cfg5.win 8).flush t = true ∧ i ∈ ((cfg5.win 8).blk t).view.set := by
  have hi0 : (i 0).val < 20000 := (i 0).isLt
  have hi1 : (i 1).val < 256 := (i 1).isLt
  have hlt : (i 0).val / 2000 < cfg5.N := Nat.lt_of_lt_of_eq (by omega : (i 0).val / 2000 < 10) N_5.symm
  obtain ⟨e0, e1⟩ := idx_facts5_8 ⟨(i 0).val / 2000, hlt⟩
  refine ⟨⟨(i 0).val / 2000, hlt⟩, flush5_8 _, ?_⟩
  rw [mem_blk5]
  intro a
  match a with
  | ⟨0, _⟩ =>
    show win5_8.index ⟨(i 0).val / 2000, hlt⟩ (0 : Fin 2) * 2000 ≤ (i 0).val ∧ (i 0).val < win5_8.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win5_8.index ⟨(i 0).val / 2000, hlt⟩ (1 : Fin 2) * 256 ≤ (i 1).val ∧ (i 1).val < win5_8.index ⟨(i 0).val / 2000, hlt⟩ (1 : Fin 2) * 256 + 256
    rw [e1]; omega

/-- The output array after the region: the node update of the arrays as the region finds them. -/
theorem final5 (c : Dev nD) : (dat5 V c).arrAt 8 cfg5.N
    = Cert.Gine.node (V c main_v43) (V c main_v62) (V c main_v45) (V c main_v47) (V c main_v48) (V c main_v49) (V c main_v50) (V c main_v51) :=
  (dat5 V c).arrAt_eq_of_cover 8 _ (fun t _ => flushed5_eq V c t) cover5

end Cert.KernelIdeal.ValN5

end
-- ==== Proof.Head6.lean ====
/-
  The head region: one grid point whose six windows are whole arrays.  Its payload — a product into a zero accumulator,
  a bias row, the rectifier, a second product to one column, a bias, the logistic function — is, entry by entry, the head
  of Spec applied to the loaded blocks; every block is its whole array (block index (0, 0) on both axes), the one point's
  output block covers the output array, so the array after the region is the head of the region-entry arrays.
-/
import proofs.«180599_j70557722739068_1_alg».proof.Proof.Gen.KernelIdeal.Frame
import proofs.«180599_j70557722739068_1_alg».proof.Proof.Spec
import proofs.«180599_j70557722739068_1_alg».proof.Proof.LibDot
import Idealize.ShloMosaic.Lib.Pipeline.Value
import Idealize.ShloMosaic.Lib.ValueIdx
import Idealize.ShloMosaic.Lib.ValueLayout
import Idealize.ShloMosaic.PureOps.Ideal

noncomputable section

namespace Cert.KernelIdeal.ValH6

open Cert.KernelIdeal Cert.KernelIdeal.Gen Idealize.ShloMosaic Idealize.ShloMosaic.ValueIdx Idealize.ShloMosaic.TcCoe Idealize.SL.Sem
open Idealize.ShloMosaic.Pipeline (Dat)
open scoped BigOperators

/-- The hidden layer inside the payload, at an entry: the first product into a zero accumulator, the bias row, the rectifier. -/
theorem hidden_eq (v0 : Vec Ideal S512x256 .f32) (v2 : Vec Ideal S256x128 .f32) (v7 : Vec Ideal S1x128 .f32) (p : Fin 512) (j : Fin 128) :
    (maximumf (addf (matmul dot_S512x256_S256x128_S512x128_1_0_0_1_n_n none
        (truncf .bf16 (shapeCast S512x256 v0 shapeCasts_S512x256_S512x256) bitsLt_bf16_f32)
        (truncf .bf16 (shapeCast S256x128 v2 shapeCasts_S256x128_S256x128) bitsLt_bf16_f32)
        (constant S512x128 .f32 0x00000000#32))
      (broadcastTo S512x128 (shapeCast S1x128 v7 shapeCasts_S1x128_S1x128) broadcasts_S1x128_S512x128))
      (broadcast S512x128 (Scalar.ofBits .f32 0x00000000#32)) : FVec Ideal S512x128 .f32) (ix2 p j)
    = Cert.Gine.hidden (n := 512) v0 v2 v7 (ix2 p j) := by
  rw [Cert.Gine.hidden_ix2]
  rw [maximumf_apply, addf_apply, broadcast_apply]
  rw [shapeCast_self, shapeCast_self, shapeCast_self]
  rw [broadcastTo_1b_ab_apply]
  refine congrArg₂ max (congrArg₂ (· + ·) ?_ rfl) rfl
  exact Cert.LibDot.matmul_zero_apply dot_S512x256_S256x128_S512x128_1_0_0_1_n_n rfl rfl (fun _ _ => rfl) (fun _ _ => rfl) (fun _ _ => rfl) (fun _ _ => rfl) none _ _ p j

/-- The body's payload is the head of its loaded blocks. -/
theorem pay6_eq (v0 : Vec Ideal S512x256 .f32) (v2 : Vec Ideal S256x128 .f32) (v7 : Vec Ideal S1x128 .f32) (v13 : Vec Ideal S128x1 .f32) (v18 : Vec Ideal S1x1 .f32) :
    k6_pay1 v0 v2 v7 v13 v18 = Cert.Gine.head (n := 512) v0 v2 v7 v13 v18 := by
  funext i
  obtain ⟨p, q, rfl⟩ : ∃ (p : Fin 512) (q : Fin 1), i = ix2 p q := ⟨i 0, i 1, eq_ix2 i⟩
  rw [Cert.Gine.head_ix2]
  unfold k6_pay1
  show Ideal.logistic (_ + _) = _
  refine congrArg Ideal.logistic ?_
  refine congrArg₂ (· + ·) ?_ ?_
  · refine (Cert.LibDot.matmul_zero_apply dot_S512x128_S128x1_S512x1_1_0_0_1_n_n rfl rfl (fun _ _ => rfl) (fun _ _ => rfl) (fun _ _ => rfl) (fun _ _ => rfl) none _ _ p q).trans ?_
    refine Finset.sum_congr rfl fun j _ => ?_
    refine congrArg₂ (· * ·) ?_ ?_
    · exact hidden_eq v0 v2 v7 p j
    · show shapeCast S128x1 v13 shapeCasts_S128x1_S128x1 (ix2 j q) = v13 (ix2 j q)
      rw [shapeCast_self]
  · rw [shapeCast_self]
    exact broadcastTo_1b_ab_apply v18 broadcasts_S1x1_S512x1 p q

variable (V : (c : Dev nD) → (b : Ref sig .tc) → Buf (Elt Ideal) ((c : Thread nD τ).loc b))

theorem zero_offsets : (![0, 0] : Fin 2 → Nat) = fun _ => 0 := funext fun a => by fin_cases a <;> rfl

/-- The one grid point reads and writes block (0, 0) of every window: each window is its whole array. -/
theorem block_zero : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

/-- Each input block is the whole array. -/
theorem iblk_pooled (c : Dev nD) (t : Fin cfg6.N) : (iblk6 V c 0 t : S512x256.Idx → EReal) = V c main_v75 := by
  obtain ⟨e0, e1, -⟩ := block_zero t
  funext y
  show V c main_v75 (((cfg6.win 0).blk t).view.emb y) = V c main_v75 y
  refine congrArg _ (funext fun a => Fin.ext ?_)
  match a with
  | ⟨0, _⟩ => show win6_0.index t (0 : Fin 2) * 512 + 1 * (y 0).val = (y 0).val; omega
  | ⟨1, _⟩ => show win6_0.index t (1 : Fin 2) * 256 + 1 * (y 1).val = (y 1).val; omega

theorem iblk_w4 (c : Dev nD) (t : Fin cfg6.N) : (iblk6 V c 1 t : S256x128.Idx → EReal) = V c main_v76 := by
  obtain ⟨-, -, e0, e1, -⟩ := block_zero t
  funext y
  show V c main_v76 (((cfg6.win 1).blk t).view.emb y) = V c main_v76 y
  refine congrArg _ (funext fun a => Fin.ext ?_)
  match a with
  | ⟨0, _⟩ => show win6_1.index t (0 : Fin 2) * 256 + 1 * (y 0).val = (y 0).val; omega
  | ⟨1, _⟩ => show win6_1.index t (1 : Fin 2) * 128 + 1 * (y 1).val = (y 1).val; omega

theorem iblk_b4 (c : Dev nD) (t : Fin cfg6.N) : (iblk6 V c 2 t : S1x128.Idx → EReal) = V c main_v77 := by
  obtain ⟨-, -, -, -, e0, e1, -⟩ := block_zero t
  funext y
  show V c main_v77 (((cfg6.win 2).blk t).view.emb y) = V c main_v77 y
  refine congrArg _ (funext fun a => Fin.ext ?_)
  match a with
  | ⟨0, _⟩ => show win6_2.index t (0 : Fin 2) * 1 + 1 * (y 0).val = (y 0).val; omega
  | ⟨1, _⟩ => show win6_2.index t (1 : Fin 2) * 128 + 1 * (y 1).val = (y 1).val; omega

theorem iblk_w5 (c : Dev nD) (t : Fin cfg6.N) : (iblk6 V c 3 t : S128x1.Idx → EReal) = V c main_v78 := by
  obtain ⟨-, -, -, -, -, -, e0, e1, -⟩ := block_zero t
  funext y
  show V c main_v78 (((cfg6.win 3).blk t).view.emb y) = V c main_v78 y
  refine congrArg _ (funext fun a => Fin.ext ?_)
  match a with
  | ⟨0, _⟩ => show win6_3.index t (0 : Fin 2) * 128 + 1 * (y 0).val = (y 0).val; omega
  | ⟨1, _⟩ => show win6_3.index t (1 : Fin 2) * 1 + 1 * (y 1).val = (y 1).val; omega

theorem iblk_b5 (c : Dev nD) (t : Fin cfg6.N) : (iblk6 V c 4 t : S1x1.Idx → EReal) = V c main_v79 := by
  obtain ⟨-, -, -, -, -, -, -, -, e0, e1, -⟩ := block_zero t
  funext y
  show V c main_v79 (((cfg6.win 4).blk t).view.emb y) = V c main_v79 y
  refine congrArg _ (funext fun a => Fin.ext ?_)
  match a with
  | ⟨0, _⟩ => show win6_4.index t (0 : Fin 2) * 1 + 1 * (y 0).val = (y 0).val; omega
  | ⟨1, _⟩ => show win6_4.index t (1 : Fin 2) * 1 + 1 * (y 1).val = (y 1).val; omega

/-- What the point writes back is its block of the head of the arrays as the region finds them. -/
theorem flushed6_eq (c : Dev nD) (t : Fin cfg6.N) :
    (dat6 V c).flushed 5 t = ((cfg6.win 5).blk t).view.read (Elt Ideal)
      (Cert.Gine.head (V c main_v75) (V c main_v76) (V c main_v77) (V c main_v78) (V c main_v79)) := by
  show (cfg6.win 5).cut (grid6.coords t) ((dat6 V c).after 5 t) = _
  rw [after6_5]
  unfold out6_5
  rw [View.canon_unit_zero zero_offsets]
  simp only [View.ld_unit_zero (S := S512x256) zero_offsets, View.ld_unit_zero (S := S256x128) zero_offsets,
    View.ld_unit_zero (S := S1x128) zero_offsets, View.ld_unit_zero (S := S128x1) zero_offsets, View.ld_unit_zero (S := S1x1) zero_offsets]
  rw [pay6_eq]
  obtain ⟨-, -, -, -, -, -, -, -, -, -, e0, e1⟩ := block_zero t
  funext y
  show Cert.Gine.head (n := 512) (iblk6 V c 0 t) (iblk6 V c 1 t) (iblk6 V c 2 t) (iblk6 V c 3 t) (iblk6 V c 4 t) y
    = Cert.Gine.head (V c main_v75) (V c main_v76) (V c main_v77) (V c main_v78) (V c main_v79) (((cfg6.win 5).blk t).view.emb y)
  have hy : ((cfg6.win 5).blk t).view.emb y = y := funext fun a => Fin.ext (by
    match a with
    | ⟨0, _⟩ => show win6_5.index t (0 : Fin 2) * 512 + 1 * (y 0).val = (y 0).val; omega
    | ⟨1, _⟩ => show win6_5.index t (1 : Fin 2) * 1 + 1 * (y 1).val = (y 1).val; omega)
  rw [hy, iblk_pooled V c t, iblk_w4 V c t, iblk_b4 V c t, iblk_w5 V c t, iblk_b5 V c t]

/-- An index of the array is in the point's block iff each coordinate is in the block's range on its axis. -/
theorem mem_blk6 (t : Fin cfg6.N) (i : S512x1.Idx) :
    i ∈ ((cfg6.win 5).blk t).view.set ↔ ∀ a : Fin 2, win6_5.index t a * S512x1.size a ≤ (i a).val ∧ (i a).val < win6_5.index t a * S512x1.size a + S512x1.size a := by
  show i ∈ ((View.whole main_v80).slice (win6_5.rect t)).set ↔ _
  rw [View.set_slice_whole, Rect.mem_set_unit]
  exact Iff.rfl

/-- The one point's block is the whole output array. -/
theorem cover6 (i : S512x1.Idx) : ∃ t : Fin cfg6.N, (cfg6.win 5).flush t = true ∧ i ∈ ((cfg6.win 5).blk t).view.set := by
  refine ⟨⟨0, by decide⟩, flush6_5 _, ?_⟩
  rw [mem_blk6]
  obtain ⟨-, -, -, -, -, -, -, -, -, -, e0, e1⟩ := block_zero ⟨0, by decide⟩
  intro a
  match a with
  | ⟨0, _⟩ =>
    show win6_5.index ⟨0, by decide⟩ (0 : Fin 2) * 512 ≤ (i 0).val ∧ (i 0).val < win6_5.index ⟨0, by decide⟩ (0 : Fin 2) * 512 + 512
    have h : (i 0).val < 512 := (i 0).isLt
    omega
  | ⟨1, _⟩ =>
    show win6_5.index ⟨0, by decide⟩ (1 : Fin 2) * 1 ≤ (i 1).val ∧ (i 1).val < win6_5.index ⟨0, by decide⟩ (1 : Fin 2) * 1 + 1
    have h : (i 1).val < 1 := (i 1).isLt
    omega

/-- The output array after the region: the head of the region-entry arrays. -/
theorem final6 (c : Dev nD) : (dat6 V c).arrAt 5 cfg6.N
    = Cert.Gine.head (V c main_v75) (V c main_v76) (V c main_v77) (V c main_v78) (V c main_v79) :=
  (dat6 V c).arrAt_eq_of_cover 5 (Cert.Gine.head (V c main_v75) (V c main_v76) (V c main_v77) (V c main_v78) (V c main_v79))
    (fun t _ => flushed6_eq V c t) cover6

end Cert.KernelIdeal.ValH6

end
-- ==== Proof.RefMsg.lean ====
/-
  The reference's three message stages, each as the message formula of the specification: the stage's entry (p, q) is
  max((x_src(p, q) + Σ_j e(p, j) · we(q, j)) + be(q), 0), read off the stage's operations one at a time; the gathered
  source rows stay the reference's own stage on both sides.
-/
import proofs.«180599_j70557722739068_1_alg».proof.Proof.Gen.ReferenceIdeal.Read
import proofs.«180599_j70557722739068_1_alg».proof.Proof.Spec

noncomputable section

namespace Cert.ReferenceIdeal.RefSpec

open Cert.ReferenceIdeal Cert.ReferenceIdeal.Read Idealize.ShloMosaic Idealize.ShloMosaic.ValueIdx Cert.Gine
open scoped BigOperators

/-- Layer message: the reference's stage is the message formula of its gathered rows. -/
theorem msg1 (x0 : (⟨S20000x64, .f32⟩ : BufTy).Contents (Elt Ideal)) (x1 : (⟨S2x320000, .i32⟩ : BufTy).Contents (Elt Ideal)) (x2 : (⟨S320000x32, .f32⟩ : BufTy).Contents (Elt Ideal)) (x4 : (⟨S64x32, .f32⟩ : BufTy).Contents (Elt Ideal)) (x5 : (⟨S64, .f32⟩ : BufTy).Contents (Elt Ideal)) :
    val_main_v17 (F := Ideal) x0 x1 x2 x4 x5 = msg (val_main_v10 (F := Ideal) x0 x1) x2 (tr x4) (row x5) := by
  funext i
  obtain ⟨p, q, rfl⟩ : ∃ p q, i = ix2 p q := ⟨i 0, i 1, eq_ix2 i⟩
  have hl : ∀ k : Fin 32, lidx_main_v12 (ix2 p q) k = ix2 p k := fun k =>
    funext fun a => by match a with | ⟨0, _⟩ => rfl | ⟨1, _⟩ => rfl
  have hr : ∀ k : Fin 32, idx_main_v11 (ridx_main_v12 (ix2 p q) k) = ix2 q k := fun k =>
    funext fun a => by match a with | ⟨0, _⟩ => rfl | ⟨1, _⟩ => rfl
  have hb : idx_main_v14 (idx_main_v15 (ix2 p q)) = ix1 q :=
    funext fun a => by match a with | ⟨0, _⟩ => rfl
  have hdot : (∑ k : Fin 32, x2 (lidx_main_v12 (ix2 p q) k) * (val_main_v11 (F := Ideal) x4) (ridx_main_v12 (ix2 p q) k))
      = dotAt x2 (tr x4) p q :=
    Finset.sum_congr rfl fun k _ => by rw [val_main_v11_apply, hl k, hr k]; rfl
  rw [val_main_v17_apply, val_main_v16_apply, val_main_v13_apply, val_main_v12_apply, hdot,
    val_main_v15_apply, val_main_v14_apply, hb,
    val_main_call0_v0_apply, val_main_call0_cst_apply, msg_ix2]
  rfl

/-- Layer message: the reference's stage is the message formula of its gathered rows. -/
theorem msg2 (x0 : (⟨S20000x64, .f32⟩ : BufTy).Contents (Elt Ideal)) (x1 : (⟨S2x320000, .i32⟩ : BufTy).Contents (Elt Ideal)) (x2 : (⟨S320000x32, .f32⟩ : BufTy).Contents (Elt Ideal)) (x4 : (⟨S64x32, .f32⟩ : BufTy).Contents (Elt Ideal)) (x5 : (⟨S64, .f32⟩ : BufTy).Contents (Elt Ideal)) (x6 : (⟨S256x64, .f32⟩ : BufTy).Contents (Elt Ideal)) (x7 : (⟨S256, .f32⟩ : BufTy).Contents (Elt Ideal)) (x8 : (⟨S256x32, .f32⟩ : BufTy).Contents (Elt Ideal)) (x9 x16 x17 x18 x19 : (⟨S256, .f32⟩ : BufTy).Contents (Elt Ideal)) :
    val_main_v56 (F := Ideal) x0 x1 x2 x4 x5 x6 x7 x8 x9 x16 x17 x18 x19 = msg (val_main_v49 (F := Ideal) x0 x1 x2 x4 x5 x6 x7 x16 x17 x18 x19) x2 (tr x8) (row x9) := by
  funext i
  obtain ⟨p, q, rfl⟩ : ∃ p q, i = ix2 p q := ⟨i 0, i 1, eq_ix2 i⟩
  have hl : ∀ k : Fin 32, lidx_main_v51 (ix2 p q) k = ix2 p k := fun k =>
    funext fun a => by match a with | ⟨0, _⟩ => rfl | ⟨1, _⟩ => rfl
  have hr : ∀ k : Fin 32, idx_main_v50 (ridx_main_v51 (ix2 p q) k) = ix2 q k := fun k =>
    funext fun a => by match a with | ⟨0, _⟩ => rfl | ⟨1, _⟩ => rfl
  have hb : idx_main_v53 (idx_main_v54 (ix2 p q)) = ix1 q :=
    funext fun a => by match a with | ⟨0, _⟩ => rfl
  have hdot : (∑ k : Fin 32, x2 (lidx_main_v51 (ix2 p q) k) * (val_main_v50 (F := Ideal) x8) (ridx_main_v51 (ix2 p q) k))
      = dotAt x2 (tr x8) p q :=
    Finset.sum_congr rfl fun k _ => by rw [val_main_v50_apply, hl k, hr k]; rfl
  rw [val_main_v56_apply, val_main_v55_apply, val_main_v52_apply, val_main_v51_apply, hdot,
    val_main_v54_apply, val_main_v53_apply, hb,
    val_main_call2_v0_apply, val_main_call2_cst_apply, msg_ix2]
  rfl

/-- Layer message: the reference's stage is the message formula of its gathered rows. -/
theorem msg3 (x0 : (⟨S20000x64, .f32⟩ : BufTy).Contents (Elt Ideal)) (x1 : (⟨S2x320000, .i32⟩ : BufTy).Contents (Elt Ideal)) (x2 : (⟨S320000x32, .f32⟩ : BufTy).Contents (Elt Ideal)) (x4 : (⟨S64x32, .f32⟩ : BufTy).Contents (Elt Ideal)) (x5 : (⟨S64, .f32⟩ : BufTy).Contents (Elt Ideal)) (x6 : (⟨S256x64, .f32⟩ : BufTy).Contents (Elt Ideal)) (x7 : (⟨S256, .f32⟩ : BufTy).Contents (Elt Ideal)) (x8 : (⟨S256x32, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S256x32, .f32⟩ : BufTy).Contents (Elt Ideal)) (x13 x16 x17 x18 x19 x20 x21 x22 x23 : (⟨S256, .f32⟩ : BufTy).Contents (Elt Ideal)) :
    val_main_v95 (F := Ideal) x0 x1 x2 x4 x5 x6 x7 x8 x9 x10 x11 x12 x13 x16 x17 x18 x19 x20 x21 x22 x23 = msg (val_main_v88 (F := Ideal) x0 x1 x2 x4 x5 x6 x7 x8 x9 x10 x11 x16 x17 x18 x19 x20 x21 x22 x23) x2 (tr x12) (row x13) := by
  funext i
  obtain ⟨p, q, rfl⟩ : ∃ p q, i = ix2 p q := ⟨i 0, i 1, eq_ix2 i⟩
  have hl : ∀ k : Fin 32, lidx_main_v90 (ix2 p q) k = ix2 p k := fun k =>
    funext fun a => by match a with | ⟨0, _⟩ => rfl | ⟨1, _⟩ => rfl
  have hr : ∀ k : Fin 32, idx_main_v89 (ridx_main_v90 (ix2 p q) k) = ix2 q k := fun k =>
    funext fun a => by match a with | ⟨0, _⟩ => rfl | ⟨1, _⟩ => rfl
  have hb : idx_main_v92 (idx_main_v93 (ix2 p q)) = ix1 q :=
    funext fun a => by match a with | ⟨0, _⟩ => rfl
  have hdot : (∑ k : Fin 32, x2 (lidx_main_v90 (ix2 p q) k) * (val_main_v89 (F := Ideal) x12) (ridx_main_v90 (ix2 p q) k))
      = dotAt x2 (tr x12) p q :=
    Finset.sum_congr rfl fun k _ => by rw [val_main_v89_apply, hl k, hr k]; rfl
  rw [val_main_v95_apply, val_main_v94_apply, val_main_v91_apply, val_main_v90_apply, hdot,
    val_main_v93_apply, val_main_v92_apply, hb,
    val_main_call4_v0_apply, val_main_call4_cst_apply, msg_ix2]
  rfl

end Cert.ReferenceIdeal.RefSpec

end
-- ==== Proof.RefNode.lean ====
/-
  The reference's three node-update stages, each as the update formula of the specification: the stage's entry (p, q) is
  max(((Σ_j (x(p, j) + aggr(p, j)) · wn(q, j) + bnb(q) - rm(q)) · rsqrt(rv(q) + ε)) · g(q) + b(q), 0), read off the stage's
  operations one at a time; the layer's input and the scatter-added messages stay the reference's own stages on both sides.
-/
import proofs.«180599_j70557722739068_1_alg».proof.Proof.Gen.ReferenceIdeal.Read
import proofs.«180599_j70557722739068_1_alg».proof.Proof.Spec

noncomputable section

namespace Cert.ReferenceIdeal.RefSpec

open Cert.ReferenceIdeal Cert.ReferenceIdeal.Read Idealize.ShloMosaic Idealize.ShloMosaic.ValueIdx Cert.Gine
open scoped BigOperators

/-- Layer update: the reference's stage is the update formula of the layer's input rows and their aggregated messages. -/
theorem node1 (x0 : (⟨S20000x64, .f32⟩ : BufTy).Contents (Elt Ideal)) (x1 : (⟨S2x320000, .i32⟩ : BufTy).Contents (Elt Ideal)) (x2 : (⟨S320000x32, .f32⟩ : BufTy).Contents (Elt Ideal)) (x4 : (⟨S64x32, .f32⟩ : BufTy).Contents (Elt Ideal)) (x5 : (⟨S64, .f32⟩ : BufTy).Contents (Elt Ideal)) (x6 : (⟨S256x64, .f32⟩ : BufTy).Contents (Elt Ideal)) (x7 x16 x17 x18 x19 : (⟨S256, .f32⟩ : BufTy).Contents (Elt Ideal)) :
    val_main_v42 (F := Ideal) x0 x1 x2 x4 x5 x6 x7 x16 x17 x18 x19 = node x0 (val_main_v20 (F := Ideal) x0 x1 x2 x4 x5) (tr x6) (row x7) (row x16) (row x17) (row x18) (row x19) := by
  funext i
  obtain ⟨p, q, rfl⟩ : ∃ p q, i = ix2 p q := ⟨i 0, i 1, eq_ix2 i⟩
  have hl : ∀ k : Fin 64, lidx_main_v23 (ix2 p q) k = ix2 p k := fun k =>
    funext fun a => by match a with | ⟨0, _⟩ => rfl | ⟨1, _⟩ => rfl
  have hr : ∀ k : Fin 64, idx_main_v22 (ridx_main_v23 (ix2 p q) k) = ix2 q k := fun k =>
    funext fun a => by match a with | ⟨0, _⟩ => rfl | ⟨1, _⟩ => rfl
  have h25 : idx_main_v24 (idx_main_v25 (ix2 p q)) = ix1 q :=
    funext fun a => by match a with | ⟨0, _⟩ => rfl
  have h28 : idx_main_v27 (idx_main_v28 (ix2 p q)) = ix1 q :=
    funext fun a => by match a with | ⟨0, _⟩ => rfl
  have h34 : idx_main_v33 (idx_main_v34 (ix2 p q)) = ix1 q :=
    funext fun a => by match a with | ⟨0, _⟩ => rfl
  have h37 : idx_main_v36 (idx_main_v37 (ix2 p q)) = ix1 q :=
    funext fun a => by match a with | ⟨0, _⟩ => rfl
  have h40 : idx_main_v39 (idx_main_v40 (ix2 p q)) = ix1 q :=
    funext fun a => by match a with | ⟨0, _⟩ => rfl
  have hdot : (∑ k : Fin 64, (val_main_v21 (F := Ideal) x0 x1 x2 x4 x5) (lidx_main_v23 (ix2 p q) k) * (val_main_v22 (F := Ideal) x6) (ridx_main_v23 (ix2 p q) k))
      = dotAt (fun j => x0 j + val_main_v20 (F := Ideal) x0 x1 x2 x4 x5 j) (tr x6) p q :=
    Finset.sum_congr rfl fun k _ => by rw [val_main_v21_apply, val_main_v22_apply, hl k, hr k]; rfl
  rw [val_main_v42_apply, val_main_v41_apply, val_main_v38_apply, val_main_v35_apply, val_main_v29_apply,
    val_main_v26_apply, val_main_v23_apply, hdot,
    val_main_v25_apply, val_main_v24_apply, h25,
    val_main_v28_apply, val_main_v27_apply, h28,
    val_main_v34_apply, val_main_v33_apply, h34, val_main_v32_apply, val_main_v31_apply, val_main_v30_apply,
    val_main_cst_1_apply,
    val_main_v37_apply, val_main_v36_apply, h37,
    val_main_v40_apply, val_main_v39_apply, h40,
    val_main_call1_v0_apply, val_main_call1_cst_apply, node_ix2]
  rfl

/-- Layer update: the reference's stage is the update formula of the layer's input rows and their aggregated messages. -/
theorem node2 (x0 : (⟨S20000x64, .f32⟩ : BufTy).Contents (Elt Ideal)) (x1 : (⟨S2x320000, .i32⟩ : BufTy).Contents (Elt Ideal)) (x2 : (⟨S320000x32, .f32⟩ : BufTy).Contents (Elt Ideal)) (x4 : (⟨S64x32, .f32⟩ : BufTy).Contents (Elt Ideal)) (x5 : (⟨S64, .f32⟩ : BufTy).Contents (Elt Ideal)) (x6 : (⟨S256x64, .f32⟩ : BufTy).Contents (Elt Ideal)) (x7 : (⟨S256, .f32⟩ : BufTy).Contents (Elt Ideal)) (x8 : (⟨S256x32, .f32⟩ : BufTy).Contents (Elt Ideal)) (x9 : (⟨S256, .f32⟩ : BufTy).Contents (Elt Ideal)) (x10 : (⟨S256x256, .f32⟩ : BufTy).Contents (Elt Ideal)) (x11 x16 x17 x18 x19 x20 x21 x22 x23 : (⟨S256, .f32⟩ : BufTy).Contents (Elt Ideal)) :
    val_main_v81 (F := Ideal) x0 x1 x2 x4 x5 x6 x7 x8 x9 x10 x11 x16 x17 x18 x19 x20 x21 x22 x23 = node (val_main_v42 (F := Ideal) x0 x1 x2 x4 x5 x6 x7 x16 x17 x18 x19) (val_main_v59 (F := Ideal) x0 x1 x2 x4 x5 x6 x7 x8 x9 x16 x17 x18 x19) (tr x10) (row x11) (row x20) (row x21) (row x22) (row x23) := by
  funext i
  obtain ⟨p, q, rfl⟩ : ∃ p q, i = ix2 p q := ⟨i 0, i 1, eq_ix2 i⟩
  have hl : ∀ k : Fin 256, lidx_main_v62 (ix2 p q) k = ix2 p k := fun k =>
    funext fun a => by match a with | ⟨0, _⟩ => rfl | ⟨1, _⟩ => rfl
  have hr : ∀ k : Fin 256, idx_main_v61 (ridx_main_v62 (ix2 p q) k) = ix2 q k := fun k =>
    funext fun a => by match a with | ⟨0, _⟩ => rfl | ⟨1, _⟩ => rfl
  have h25 : idx_main_v63 (idx_main_v64 (ix2 p q)) = ix1 q :=
    funext fun a => by match a with | ⟨0, _⟩ => rfl
  have h28 : idx_main_v66 (idx_main_v67 (ix2 p q)) = ix1 q :=
    funext fun a => by match a with | ⟨0, _⟩ => rfl
  have h34 : idx_main_v72 (idx_main_v73 (ix2 p q)) = ix1 q :=
    funext fun a => by match a with | ⟨0, _⟩ => rfl
  have h37 : idx_main_v75 (idx_main_v76 (ix2 p q)) = ix1 q :=
    funext fun a => by match a with | ⟨0, _⟩ => rfl
  have h40 : idx_main_v78 (idx_main_v79 (ix2 p q)) = ix1 q :=
    funext fun a => by match a with | ⟨0, _⟩ => rfl
  have hdot : (∑ k : Fin 256, (val_main_v60 (F := Ideal) x0 x1 x2 x4 x5 x6 x7 x8 x9 x16 x17 x18 x19) (lidx_main_v62 (ix2 p q) k) * (val_main_v61 (F := Ideal) x10) (ridx_main_v62 (ix2 p q) k))
      = dotAt (fun j => val_main_v42 (F := Ideal) x0 x1 x2 x4 x5 x6 x7 x16 x17 x18 x19 j + val_main_v59 (F := Ideal) x0 x1 x2 x4 x5 x6 x7 x8 x9 x16 x17 x18 x19 j) (tr x10) p q :=
    Finset.sum_congr rfl fun k _ => by rw [val_main_v60_apply, val_main_v61_apply, hl k, hr k]; rfl
  rw [val_main_v81_apply, val_main_v80_apply, val_main_v77_apply, val_main_v74_apply, val_main_v68_apply,
    val_main_v65_apply, val_main_v62_apply, hdot,
    val_main_v64_apply, val_main_v63_apply, h25,
    val_main_v67_apply, val_main_v66_apply, h28,
    val_main_v73_apply, val_main_v72_apply, h34, val_main_v71_apply, val_main_v70_apply, val_main_v69_apply,
    val_main_cst_5_apply,
    val_main_v76_apply, val_main_v75_apply, h37,
    val_main_v79_apply, val_main_v78_apply, h40,
    val_main_call3_v0_apply, val_main_call3_cst_apply, node_ix2]
  rfl

/-- Layer update: the reference's stage is the update formula of the layer's input rows and their aggregated messages. -/
theorem node3 (x0 : (⟨S20000x64, .f32⟩ : BufTy).Contents (Elt Ideal)) (x1 : (⟨S2x320000, .i32⟩ : BufTy).Contents (Elt Ideal)) (x2 : (⟨S320000x32, .f32⟩ : BufTy).Contents (Elt Ideal)) (x4 : (⟨S64x32, .f32⟩ : BufTy).Contents (Elt Ideal)) (x5 : (⟨S64, .f32⟩ : BufTy).Contents (Elt Ideal)) (x6 : (⟨S256x64, .f32⟩ : BufTy).Contents (Elt Ideal)) (x7 : (⟨S256, .f32⟩ : BufTy).Contents (Elt Ideal)) (x8 : (⟨S256x32, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S256x32, .f32⟩ : BufTy).Contents (Elt Ideal)) (x13 : (⟨S256, .f32⟩ : BufTy).Contents (Elt Ideal)) (x14 : (⟨S256x256, .f32⟩ : BufTy).Contents (Elt Ideal)) (x15 x16 x17 x18 x19 x20 x21 x22 x23 x24 x25 x26 x27 : (⟨S256, .f32⟩ : BufTy).Contents (Elt Ideal)) :
    val_main_v120 (F := Ideal) x0 x1 x2 x4 x5 x6 x7 x8 x9 x10 x11 x12 x13 x14 x15 x16 x17 x18 x19 x20 x21 x22 x23 x24 x25 x26 x27 = node (val_main_v81 (F := Ideal) x0 x1 x2 x4 x5 x6 x7 x8 x9 x10 x11 x16 x17 x18 x19 x20 x21 x22 x23) (val_main_v98 (F := Ideal) x0 x1 x2 x4 x5 x6 x7 x8 x9 x10 x11 x12 x13 x16 x17 x18 x19 x20 x21 x22 x23) (tr x14) (row x15) (row x24) (row x25) (row x26) (row x27) := by
  funext i
  obtain ⟨p, q, rfl⟩ : ∃ p q, i = ix2 p q := ⟨i 0, i 1, eq_ix2 i⟩
  have hl : ∀ k : Fin 256, lidx_main_v101 (ix2 p q) k = ix2 p k := fun k =>
    funext fun a => by match a with | ⟨0, _⟩ => rfl | ⟨1, _⟩ => rfl
  have hr : ∀ k : Fin 256, idx_main_v100 (ridx_main_v101 (ix2 p q) k) = ix2 q k := fun k =>
    funext fun a => by match a with | ⟨0, _⟩ => rfl | ⟨1, _⟩ => rfl
  have h25 : idx_main_v102 (idx_main_v103 (ix2 p q)) = ix1 q :=
    funext fun a => by match a with | ⟨0, _⟩ => rfl
  have h28 : idx_main_v105 (idx_main_v106 (ix2 p q)) = ix1 q :=
    funext fun a => by match a with | ⟨0, _⟩ => rfl
  have h34 : idx_main_v111 (idx_main_v112 (ix2 p q)) = ix1 q :=
    funext fun a => by match a with | ⟨0, _⟩ => rfl
  have h37 : idx_main_v114 (idx_main_v115 (ix2 p q)) = ix1 q :=
    funext fun a => by match a with | ⟨0, _⟩ => rfl
  have h40 : idx_main_v117 (idx_main_v118 (ix2 p q)) = ix1 q :=
    funext fun a => by match a with | ⟨0, _⟩ => rfl
  have hdot : (∑ k : Fin 256, (val_main_v99 (F := Ideal) x0 x1 x2 x4 x5 x6 x7 x8 x9 x10 x11 x12 x13 x16 x17 x18 x19 x20 x21 x22 x23) (lidx_main_v101 (ix2 p q) k) * (val_main_v100 (F := Ideal) x14) (ridx_main_v101 (ix2 p q) k))
      = dotAt (fun j => val_main_v81 (F := Ideal) x0 x1 x2 x4 x5 x6 x7 x8 x9 x10 x11 x16 x17 x18 x19 x20 x21 x22 x23 j + val_main_v98 (F := Ideal) x0 x1 x2 x4 x5 x6 x7 x8 x9 x10 x11 x12 x13 x16 x17 x18 x19 x20 x21 x22 x23 j) (tr x14) p q :=
    Finset.sum_congr rfl fun k _ => by rw [val_main_v99_apply, val_main_v100_apply, hl k, hr k]; rfl
  rw [val_main_v120_apply, val_main_v119_apply, val_main_v116_apply, val_main_v113_apply, val_main_v107_apply,
    val_main_v104_apply, val_main_v101_apply, hdot,
    val_main_v103_apply, val_main_v102_apply, h25,
    val_main_v106_apply, val_main_v105_apply, h28,
    val_main_v112_apply, val_main_v111_apply, h34, val_main_v110_apply, val_main_v109_apply, val_main_v108_apply,
    val_main_cst_9_apply,
    val_main_v115_apply, val_main_v114_apply, h37,
    val_main_v118_apply, val_main_v117_apply, h40,
    val_main_call5_v0_apply, val_main_call5_cst_apply, node_ix2]
  rfl

end Cert.ReferenceIdeal.RefSpec

end
-- ==== Proof.LibSigmoid.lean ====
/-
  The logistic function on the extended reals, in the three spellings a program may use.

  * `half_tanh`: for EVERY extended real d, (1/2) · tanh((1/2) · d) + 1/2 = 1 / (1 + e^(-d)).
    On a real d this is the identity tanh(d/2) = (e^(d/2) - e^(-d/2)) / (e^(d/2) + e^(-d/2)) cleared of
    denominators; at -∞ both sides are 0 (tanh -∞ = -1, 1 / (1 + ∞) = 0) and at +∞ both are 1.
  * `logistic_nonneg_real`: 1 / (1 + e^(-x)) is a real number >= 0 for every extended real x
    (0 at -∞, 1 at +∞, a positive real in between).
  * `pow_half_mul_self`: for a real s >= 0, s^(1/2) · s^(1/2) = s.
  * the f32 words 0x3F000000 and 0x3F800000 denote the reals 1/2 and 1.
  Library imports only.
-/
import Idealize.ShloMosaic.PureOps.Ideal

noncomputable section

namespace Cert.LibSigmoid

open Idealize.ShloMosaic

/-- The f32 word of 0.5 denotes the real 1/2. -/
theorem ofBits_half : Ideal.ofBits .f32 0x3F000000#32 = ((1 / 2 : ℝ) : EReal) := by
  simp [Ideal.ofBits, Ideal.ieee, -EReal.coe_mul]; norm_num

/-- The f32 word of 1.0 denotes 1. -/
theorem ofBits_one : Ideal.ofBits .f32 0x3F800000#32 = (1 : EReal) := by
  simp [Ideal.ofBits, Ideal.ieee, -EReal.coe_mul]; norm_num

/-- On the reals: (1/2) tanh(r/2) + 1/2 = 1 / (1 + e^(-r)). With a = e^(r/2) > 0: tanh(r/2) = (a - 1/a)/(a + 1/a) and
    e^(-r) = (1/a)^2, so both sides are a^2 / (a^2 + 1). -/
theorem real_half_tanh (r : ℝ) : (1 / 2 : ℝ) * Real.tanh ((1 / 2 : ℝ) * r) + 1 / 2 = (1 + Real.exp (-r))⁻¹ := by
  have ha : 0 < Real.exp ((1 / 2 : ℝ) * r) := Real.exp_pos _
  have hneg : Real.exp (-((1 / 2 : ℝ) * r)) = (Real.exp ((1 / 2 : ℝ) * r))⁻¹ := Real.exp_neg _
  have hr : Real.exp (-r) = (Real.exp ((1 / 2 : ℝ) * r))⁻¹ * (Real.exp ((1 / 2 : ℝ) * r))⁻¹ := by
    rw [← hneg, ← Real.exp_add]; congr 1; ring
  rw [Real.tanh_eq_sinh_div_cosh, Real.sinh_eq, Real.cosh_eq, hneg, hr]
  generalize Real.exp ((1 / 2 : ℝ) * r) = a at ha
  have ha' : a ≠ 0 := ne_of_gt ha
  field_simp
  ring

/-- (1/2) · tanh((1/2) · d) + 1/2 = 1 / (1 + e^(-d)) at every extended real d. -/
theorem half_tanh (d : EReal) :
    ((1 / 2 : ℝ) : EReal) * Ideal.tanh (((1 / 2 : ℝ) : EReal) * d) + ((1 / 2 : ℝ) : EReal) = Ideal.logistic d := by
  induction d using EReal.rec with
  | bot =>
    rw [EReal.coe_mul_bot_of_pos (by norm_num : (0 : ℝ) < 1 / 2), Ideal.tanh_bot, Ideal.logistic_bot]
    rw [show (-1 : EReal) = ((-1 : ℝ) : EReal) by norm_num, ← EReal.coe_mul, ← EReal.coe_add]
    norm_num
  | top =>
    rw [EReal.coe_mul_top_of_pos (by norm_num : (0 : ℝ) < 1 / 2), Ideal.tanh_top, Ideal.logistic_top, mul_one,
      ← EReal.coe_add]
    norm_num
  | coe r =>
    rw [← EReal.coe_mul, Ideal.tanh_coe, ← EReal.coe_mul, ← EReal.coe_add, Ideal.logistic_coe, real_half_tanh]

/-- 1 / (1 + e^(-x)) is a real number >= 0, whatever the extended real x. -/
theorem logistic_nonneg_real (x : EReal) : ∃ s : ℝ, 0 ≤ s ∧ Ideal.logistic x = (s : EReal) := by
  induction x using EReal.rec with
  | bot => exact ⟨0, le_refl _, by rw [Ideal.logistic_bot]; rfl⟩
  | top => exact ⟨1, zero_le_one, by rw [Ideal.logistic_top]; rfl⟩
  | coe r =>
    refine ⟨(1 + Real.exp (-r))⁻¹, inv_nonneg.mpr ?_, Ideal.logistic_coe r⟩
    have := Real.exp_pos (-r); linarith

/-- The square of the square root: s^(1/2) · s^(1/2) = s for a real s >= 0, as extended reals. -/
theorem pow_half_mul_self {s : ℝ} (hs : 0 ≤ s) :
    Ideal.pow (s : EReal) ((1 / 2 : ℝ) : EReal) * Ideal.pow (s : EReal) ((1 / 2 : ℝ) : EReal) = (s : EReal) := by
  rw [Ideal.pow_coe_coe, ← EReal.coe_mul]
  congr 1
  show s ^ (1 / 2 : ℝ) * s ^ (1 / 2 : ℝ) = s
  rw [← Real.rpow_add_of_nonneg hs (by norm_num) (by norm_num)]
  norm_num

end Cert.LibSigmoid

end
-- ==== Proof.RefHead.lean ====
/-
  The reference's head as the head formula of the specification: the hidden layer max(Σ_k p(r, k) · w4(j, k) + b4(j), 0) of the
  pooled means, the last linear map to one column, and 1 / (1 + e^(-z)), which is the logistic function by definition; the
  f32 word 0x3F800000 denotes 1. The pooled means stay the reference's own stage on both sides.
-/
import proofs.«180599_j70557722739068_1_alg».proof.Proof.Gen.ReferenceIdeal.Read
import proofs.«180599_j70557722739068_1_alg».proof.Proof.Spec
import proofs.«180599_j70557722739068_1_alg».proof.Proof.LibSigmoid

noncomputable section

namespace Cert.ReferenceIdeal.RefSpec

open Cert.ReferenceIdeal Cert.ReferenceIdeal.Read Idealize.ShloMosaic Idealize.ShloMosaic.ValueIdx Cert.Gine
open scoped BigOperators

/-- The head's hidden layer: the reference's stage is the hidden-layer formula of the pooled means. -/
theorem hidden1 (x0 : (⟨S20000x64, .f32⟩ : BufTy).Contents (Elt Ideal)) (x1 : (⟨S2x320000, .i32⟩ : BufTy).Contents (Elt Ideal)) (x2 : (⟨S320000x32, .f32⟩ : BufTy).Contents (Elt Ideal)) (x3 : (⟨S20000, .i32⟩ : BufTy).Contents (Elt Ideal)) (x4 : (⟨S64x32, .f32⟩ : BufTy).Contents (Elt Ideal)) (x5 : (⟨S64, .f32⟩ : BufTy).Contents (Elt Ideal)) (x6 : (⟨S256x64, .f32⟩ : BufTy).Contents (Elt Ideal)) (x7 : (⟨S256, .f32⟩ : BufTy).Contents (Elt Ideal)) (x8 : (⟨S256x32, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S256x32, .f32⟩ : BufTy).Contents (Elt Ideal)) (x13 : (⟨S256, .f32⟩ : BufTy).Contents (Elt Ideal)) (x14 : (⟨S256x256, .f32⟩ : BufTy).Contents (Elt Ideal)) (x15 x16 x17 x18 x19 x20 x21 x22 x23 x24 x25 x26 x27 : (⟨S256, .f32⟩ : BufTy).Contents (Elt Ideal)) (x28 : (⟨S128x256, .f32⟩ : BufTy).Contents (Elt Ideal)) (x29 : (⟨S128, .f32⟩ : BufTy).Contents (Elt Ideal)) :
    val_main_v138 (F := Ideal) x0 x1 x2 x3 x4 x5 x6 x7 x8 x9 x10 x11 x12 x13 x14 x15 x16 x17 x18 x19 x20 x21 x22 x23 x24 x25 x26 x27 x28 x29 = hidden (val_main_v132 (F := Ideal) x0 x1 x2 x3 x4 x5 x6 x7 x8 x9 x10 x11 x12 x13 x14 x15 x16 x17 x18 x19 x20 x21 x22 x23 x24 x25 x26 x27) (tr x28) (row x29) := by
  funext i
  obtain ⟨p, q, rfl⟩ : ∃ p q, i = ix2 p q := ⟨i 0, i 1, eq_ix2 i⟩
  have hl : ∀ k : Fin 256, lidx_main_v134 (ix2 p q) k = ix2 p k := fun k =>
    funext fun a => by match a with | ⟨0, _⟩ => rfl | ⟨1, _⟩ => rfl
  have hr : ∀ k : Fin 256, idx_main_v133 (ridx_main_v134 (ix2 p q) k) = ix2 q k := fun k =>
    funext fun a => by match a with | ⟨0, _⟩ => rfl | ⟨1, _⟩ => rfl
  have hb : idx_main_v135 (idx_main_v136 (ix2 p q)) = ix1 q :=
    funext fun a => by match a with | ⟨0, _⟩ => rfl
  have hdot : (∑ k : Fin 256, (val_main_v132 (F := Ideal) x0 x1 x2 x3 x4 x5 x6 x7 x8 x9 x10 x11 x12 x13 x14 x15 x16 x17 x18 x19 x20 x21 x22 x23 x24 x25 x26 x27) (lidx_main_v134 (ix2 p q) k) * (val_main_v133 (F := Ideal) x28) (ridx_main_v134 (ix2 p q) k))
      = dotAt (val_main_v132 (F := Ideal) x0 x1 x2 x3 x4 x5 x6 x7 x8 x9 x10 x11 x12 x13 x14 x15 x16 x17 x18 x19 x20 x21 x22 x23 x24 x25 x26 x27) (tr x28) p q :=
    Finset.sum_congr rfl fun k _ => by rw [val_main_v133_apply, hl k, hr k]; rfl
  rw [val_main_v138_apply, val_main_v137_apply, val_main_v134_apply, hdot, val_main_v136_apply, val_main_v135_apply, hb,
    val_main_call6_v0_apply, val_main_call6_cst_apply, hidden_ix2]
  rfl

/-- The head: the reference's last stage is the logistic function of the hidden layer through the last linear map,
    1 / (1 + e^(-z)) being the logistic function by definition. -/
theorem head (x0 : (⟨S20000x64, .f32⟩ : BufTy).Contents (Elt Ideal)) (x1 : (⟨S2x320000, .i32⟩ : BufTy).Contents (Elt Ideal)) (x2 : (⟨S320000x32, .f32⟩ : BufTy).Contents (Elt Ideal)) (x3 : (⟨S20000, .i32⟩ : BufTy).Contents (Elt Ideal)) (x4 : (⟨S64x32, .f32⟩ : BufTy).Contents (Elt Ideal)) (x5 : (⟨S64, .f32⟩ : BufTy).Contents (Elt Ideal)) (x6 : (⟨S256x64, .f32⟩ : BufTy).Contents (Elt Ideal)) (x7 : (⟨S256, .f32⟩ : BufTy).Contents (Elt Ideal)) (x8 : (⟨S256x32, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S256x32, .f32⟩ : BufTy).Contents (Elt Ideal)) (x13 : (⟨S256, .f32⟩ : BufTy).Contents (Elt Ideal)) (x14 : (⟨S256x256, .f32⟩ : BufTy).Contents (Elt Ideal)) (x15 x16 x17 x18 x19 x20 x21 x22 x23 x24 x25 x26 x27 : (⟨S256, .f32⟩ : BufTy).Contents (Elt Ideal)) (x28 : (⟨S128x256, .f32⟩ : BufTy).Contents (Elt Ideal)) (x29 : (⟨S128, .f32⟩ : BufTy).Contents (Elt Ideal)) (x30 : (⟨S1x128, .f32⟩ : BufTy).Contents (Elt Ideal)) (x31 : (⟨S1, .f32⟩ : BufTy).Contents (Elt Ideal)) :
    val_main_v149 (F := Ideal) x0 x1 x2 x3 x4 x5 x6 x7 x8 x9 x10 x11 x12 x13 x14 x15 x16 x17 x18 x19 x20 x21 x22 x23 x24 x25 x26 x27 x28 x29 x30 x31 = Cert.Gine.head (val_main_v132 (F := Ideal) x0 x1 x2 x3 x4 x5 x6 x7 x8 x9 x10 x11 x12 x13 x14 x15 x16 x17 x18 x19 x20 x21 x22 x23 x24 x25 x26 x27) (tr x28) (row x29) (tr x30) (row x31) := by
  funext i
  obtain ⟨p, q, rfl⟩ : ∃ p q, i = ix2 p q := ⟨i 0, i 1, eq_ix2 i⟩
  have hl : ∀ k : Fin 128, lidx_main_v140 (ix2 p q) k = ix2 p k := fun k =>
    funext fun a => by match a with | ⟨0, _⟩ => rfl | ⟨1, _⟩ => rfl
  have hr : ∀ k : Fin 128, idx_main_v139 (ridx_main_v140 (ix2 p q) k) = ix2 q k := fun k =>
    funext fun a => by match a with | ⟨0, _⟩ => rfl | ⟨1, _⟩ => rfl
  have hq : q = (0 : Fin 1) := Subsingleton.elim _ _
  have hb : idx_main_v141 (idx_main_v142 (ix2 p q)) = ix1 q :=
    funext fun a => by match a with | ⟨0, _⟩ => exact hq.symm
  have hdot : (∑ k : Fin 128, (val_main_v138 (F := Ideal) x0 x1 x2 x3 x4 x5 x6 x7 x8 x9 x10 x11 x12 x13 x14 x15 x16 x17 x18 x19 x20 x21 x22 x23 x24 x25 x26 x27 x28 x29) (lidx_main_v140 (ix2 p q) k) * (val_main_v139 (F := Ideal) x30) (ridx_main_v140 (ix2 p q) k))
      = dotAt (hidden (val_main_v132 (F := Ideal) x0 x1 x2 x3 x4 x5 x6 x7 x8 x9 x10 x11 x12 x13 x14 x15 x16 x17 x18 x19 x20 x21 x22 x23 x24 x25 x26 x27) (tr x28) (row x29)) (tr x30) p q :=
    Finset.sum_congr rfl fun k _ => by rw [hidden1, val_main_v139_apply, hl k, hr k]; rfl
  rw [val_main_v149_apply, val_main_v148_apply, val_main_cst_15_apply, val_main_v147_apply, val_main_v146_apply, val_main_cst_14_apply,
    val_main_v145_apply, val_main_v144_apply, val_main_v143_apply, val_main_v140_apply, hdot, val_main_v142_apply, val_main_v141_apply, hb,
    head_ix2, Ideal.hostDivf_def, Ideal.hostUnary_exp_def, Ideal.hostNegf_def, Ideal.negf_def, Ideal.addf_def, Ideal.addf_def, Ideal.ofBits_def,
    Cert.LibSigmoid.ofBits_one]
  rfl

end Cert.ReferenceIdeal.RefSpec

end
-- ==== Proof.Chain.lean ====
/-
  The idealized kernel's buffers followed through @main: at every region's entry each array the region reads is named
  as a stage of the reference (or as a transposed / row-shaped argument), so each region's output array IS the
  reference's stage of the same name in the mathematics — the message, the node update, the head — and the result
  buffer ends at the reference's result term of the same arguments.
  A buffer no host operation writes and no region outputs keeps its contents from one boundary to the next; a region's
  input array is left as the region found it.
-/
import proofs.«180599_j70557722739068_1_alg».proof.Proof.Gen.KernelIdeal.Frame
import proofs.«180599_j70557722739068_1_alg».proof.Proof.Gen.ReferenceIdeal.Read
import proofs.«180599_j70557722739068_1_alg».proof.Proof.Spec
import proofs.«180599_j70557722739068_1_alg».proof.Proof.Host
import proofs.«180599_j70557722739068_1_alg».proof.Proof.Msg0
import proofs.«180599_j70557722739068_1_alg».proof.Proof.Node1
import proofs.«180599_j70557722739068_1_alg».proof.Proof.Msg2
import proofs.«180599_j70557722739068_1_alg».proof.Proof.Node3
import proofs.«180599_j70557722739068_1_alg».proof.Proof.Msg4
import proofs.«180599_j70557722739068_1_alg».proof.Proof.Node5
import proofs.«180599_j70557722739068_1_alg».proof.Proof.Head6
import proofs.«180599_j70557722739068_1_alg».proof.Proof.RefMsg
import proofs.«180599_j70557722739068_1_alg».proof.Proof.RefNode
import proofs.«180599_j70557722739068_1_alg».proof.Proof.RefHead

noncomputable section

namespace Cert.KernelIdeal.Chain

open Cert.KernelIdeal Cert.KernelIdeal.Gen Idealize.ShloMosaic Idealize.ShloMosaic.TcCoe Idealize.SL.Sem
open Idealize.ShloMosaic.Pipeline (Dat)
open Cert.Gine Cert.ReferenceIdeal.Read Cert.KernelIdeal.HostRead

variable (m : (ℓ : Loc nD τ sig) → Buf (Elt Ideal) ℓ) (ρ : Dev nD → PrngReg)

/-- A stretch of host operations leaves a buffer none of them writes as it was. -/
macro "host_skip" : tactic => `(tactic|
  (refine StableHlo.after_of_forall_not_mem _ _ (List.forall_iff_forall_mem.mp ?_)
   simp only [hostOps0, hostOps1, hostOps2, hostOps3, hostOps4, hostOps5, hostOps6, List.flatten_cons, List.flatten_nil, List.append_nil, List.cons_append,
     List.nil_append, List.Forall, StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

/-- The layers read at equal operands. -/
theorem msg_eq {n k d : ℕ} {X X' : Mat n d} {E E' : Mat n k} {Wt Wt' : Mat k d} {B B' : Mat 1 d}
    (h1 : X = X') (h2 : E = E') (h3 : Wt = Wt') (h4 : B = B') : msg X E Wt B = msg X' E' Wt' B' := by
  subst h1 h2 h3 h4; rfl

theorem node_eq {n d e : ℕ} {X X' A A' : Mat n d} {Wt Wt' : Mat d e} {b1 b1' b2 b2' b3 b3' b4 b4' b5 b5' : Mat 1 e}
    (h1 : X = X') (h2 : A = A') (h3 : Wt = Wt') (h4 : b1 = b1') (h5 : b2 = b2') (h6 : b3 = b3') (h7 : b4 = b4') (h8 : b5 = b5') :
    node X A Wt b1 b2 b3 b4 b5 = node X' A' Wt' b1' b2' b3' b4' b5' := by
  subst h1 h2 h3 h4 h5 h6 h7 h8; rfl

theorem head_eq {n d e : ℕ} {P P' : Mat n d} {W4 W4' : Mat d e} {B4 B4' : Mat 1 e} {W5 W5' : Mat e 1} {B5 B5' : Mat 1 1}
    (h1 : P = P') (h2 : W4 = W4') (h3 : B4 = B4') (h4 : W5 = W5') (h5 : B5 = B5') :
    head P W4 B4 W5 B5 = head P' W4' B4' W5' B5' := by
  subst h1 h2 h3 h4 h5; rfl

/-! ## The arguments as launched -/
abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)
abbrev A6 (c : Dev nD) := m ((c : Thread nD τ).loc main_arg6)
abbrev A7 (c : Dev nD) := m ((c : Thread nD τ).loc main_arg7)
abbrev A8 (c : Dev nD) := m ((c : Thread nD τ).loc main_arg8)
abbrev A9 (c : Dev nD) := m ((c : Thread nD τ).loc main_arg9)
abbrev A10 (c : Dev nD) := m ((c : Thread nD τ).loc main_arg10)
abbrev A11 (c : Dev nD) := m ((c : Thread nD τ).loc main_arg11)
abbrev A12 (c : Dev nD) := m ((c : Thread nD τ).loc main_arg12)
abbrev A13 (c : Dev nD) := m ((c : Thread nD τ).loc main_arg13)
abbrev A14 (c : Dev nD) := m ((c : Thread nD τ).loc main_arg14)
abbrev A15 (c : Dev nD) := m ((c : Thread nD τ).loc main_arg15)
abbrev A16 (c : Dev nD) := m ((c : Thread nD τ).loc main_arg16)
abbrev A17 (c : Dev nD) := m ((c : Thread nD τ).loc main_arg17)
abbrev A18 (c : Dev nD) := m ((c : Thread nD τ).loc main_arg18)
abbrev A19 (c : Dev nD) := m ((c : Thread nD τ).loc main_arg19)
abbrev A20 (c : Dev nD) := m ((c : Thread nD τ).loc main_arg20)
abbrev A21 (c : Dev nD) := m ((c : Thread nD τ).loc main_arg21)
abbrev A22 (c : Dev nD) := m ((c : Thread nD τ).loc main_arg22)
abbrev A23 (c : Dev nD) := m ((c : Thread nD τ).loc main_arg23)
abbrev A24 (c : Dev nD) := m ((c : Thread nD τ).loc main_arg24)
abbrev A25 (c : Dev nD) := m ((c : Thread nD τ).loc main_arg25)
abbrev A26 (c : Dev nD) := m ((c : Thread nD τ).loc main_arg26)
abbrev A27 (c : Dev nD) := m ((c : Thread nD τ).loc main_arg27)
abbrev A28 (c : Dev nD) := m ((c : Thread nD τ).loc main_arg28)
abbrev A29 (c : Dev nD) := m ((c : Thread nD τ).loc main_arg29)
abbrev A30 (c : Dev nD) := m ((c : Thread nD τ).loc main_arg30)
abbrev A31 (c : Dev nD) := m ((c : Thread nD τ).loc main_arg31)

/-! ## Layer 1: the messages -/
theorem at1_v18 (c : Dev nD) : V1 m ρ c main_v18 = val_main_v10 (F := Ideal) (A0 m c) (A1 m c) :=
  rd0_v18 (W0 m ρ c)

theorem at1_arg2 (c : Dev nD) : V1 m ρ c main_arg2 = (A2 m c) :=
  ((by host_skip : W1 m ρ c (Proc.devRef .tc main_arg2) = W0 m ρ c (Proc.devRef .tc main_arg2)).trans rfl)

theorem at1_v4 (c : Dev nD) : V1 m ρ c main_v4 = tr (A4 m c) :=
  rd0_v4 (W0 m ρ c)

theorem at1_v6 (c : Dev nD) : V1 m ρ c main_v6 = row (A5 m c) :=
  rd0_v6 (W0 m ρ c)

theorem e2_v19 (c : Dev nD) : W2 m ρ c (Proc.devRef .tc main_v19) = val_main_v17 (F := Ideal) (A0 m c) (A1 m c) (A2 m c) (A4 m c) (A5 m c) :=
  (W2_arr m ρ c 4).trans ((Cert.KernelIdeal.ValM0.final0 (V1 m ρ) c).trans ((msg_eq (at1_v18 m ρ c) (at1_arg2 m ρ c) (at1_v4 m ρ c) (at1_v6 m ρ c)).trans (Cert.ReferenceIdeal.RefSpec.msg1 _ _ _ _ _).symm))

/-! ## Layer 1: the node update -/
theorem at2_v3 (c : Dev nD) : W2 m ρ c (Proc.devRef .tc main_v3) = val_main_v3 (F := Ideal) (A1 m c) :=
  ((W2_of_ne m ρ c main_v3 (by decide)).trans (rd0_v3 (W0 m ρ c)))

theorem e3_v22 (c : Dev nD) : W3 m ρ c (Proc.devRef .tc main_v22) = val_main_v20 (F := Ideal) (A0 m c) (A1 m c) (A2 m c) (A4 m c) (A5 m c) :=
  (rd1_v22 (W2 m ρ c) (A1 m c) _ (at2_v3 m ρ c) (e2_v19 m ρ c)).trans rfl
theorem at3_v22 (c : Dev nD) : V3 m ρ c main_v22 = val_main_v20 (F := Ideal) (A0 m c) (A1 m c) (A2 m c) (A4 m c) (A5 m c) :=
  e3_v22 m ρ c

theorem at3_arg0 (c : Dev nD) : V3 m ρ c main_arg0 = (A0 m c) :=
  ((by host_skip : W3 m ρ c (Proc.devRef .tc main_arg0) = W2 m ρ c (Proc.devRef .tc main_arg0)).trans ((W2_of_ne m ρ c main_arg0 (by decide)).trans ((by host_skip : W1 m ρ c (Proc.devRef .tc main_arg0) = W0 m ρ c (Proc.devRef .tc main_arg0)).trans rfl)))

theorem at3_v5 (c : Dev nD) : V3 m ρ c main_v5 = tr (A6 m c) :=
  ((by host_skip : W3 m ρ c (Proc.devRef .tc main_v5) = W2 m ρ c (Proc.devRef .tc main_v5)).trans ((W2_of_ne m ρ c main_v5 (by decide)).trans (rd0_v5 (W0 m ρ c))))

theorem at3_v7 (c : Dev nD) : V3 m ρ c main_v7 = row (A7 m c) :=
  ((by host_skip : W3 m ρ c (Proc.devRef .tc main_v7) = W2 m ρ c (Proc.devRef .tc main_v7)).trans ((W2_of_ne m ρ c main_v7 (by decide)).trans (rd0_v7 (W0 m ρ c))))

theorem at3_v8 (c : Dev nD) : V3 m ρ c main_v8 = row (A16 m c) :=
  ((by host_skip : W3 m ρ c (Proc.devRef .tc main_v8) = W2 m ρ c (Proc.devRef .tc main_v8)).trans ((W2_of_ne m ρ c main_v8 (by decide)).trans (rd0_v8 (W0 m ρ c))))

theorem at3_v9 (c : Dev nD) : V3 m ρ c main_v9 = row (A17 m c) :=
  ((by host_skip : W3 m ρ c (Proc.devRef .tc main_v9) = W2 m ρ c (Proc.devRef .tc main_v9)).trans ((W2_of_ne m ρ c main_v9 (by decide)).trans (rd0_v9 (W0 m ρ c))))

theorem at3_v10 (c : Dev nD) : V3 m ρ c main_v10 = row (A18 m c) :=
  ((by host_skip : W3 m ρ c (Proc.devRef .tc main_v10) = W2 m ρ c (Proc.devRef .tc main_v10)).trans ((W2_of_ne m ρ c main_v10 (by decide)).trans (rd0_v10 (W0 m ρ c))))

theorem at3_v11 (c : Dev nD) : V3 m ρ c main_v11 = row (A19 m c) :=
  ((by host_skip : W3 m ρ c (Proc.devRef .tc main_v11) = W2 m ρ c (Proc.devRef .tc main_v11)).trans ((W2_of_ne m ρ c main_v11 (by decide)).trans (rd0_v11 (W0 m ρ c))))

theorem e4_v23 (c : Dev nD) : W4 m ρ c (Proc.devRef .tc main_v23) = val_main_v42 (F := Ideal) (A0 m c) (A1 m c) (A2 m c) (A4 m c) (A5 m c) (A6 m c) (A7 m c) (A16 m c) (A17 m c) (A18 m c) (A19 m c) :=
  (W4_arr m ρ c 8).trans ((Cert.KernelIdeal.ValN1.final1 (V3 m ρ) c).trans ((node_eq (at3_arg0 m ρ c) (at3_v22 m ρ c) (at3_v5 m ρ c) (at3_v7 m ρ c) (at3_v8 m ρ c) (at3_v9 m ρ c) (at3_v10 m ρ c) (at3_v11 m ρ c)).trans (Cert.ReferenceIdeal.RefSpec.node1 _ _ _ _ _ _ _ _ _ _ _).symm))

/-! ## Layer 2: the messages -/
theorem at4_v1 (c : Dev nD) : W4 m ρ c (Proc.devRef .tc main_v1) = val_main_v1 (F := Ideal) (A1 m c) :=
  ((W4_of_ne m ρ c main_v1 (by decide)).trans ((by host_skip : W3 m ρ c (Proc.devRef .tc main_v1) = W2 m ρ c (Proc.devRef .tc main_v1)).trans ((W2_of_ne m ρ c main_v1 (by decide)).trans (rd0_v1 (W0 m ρ c)))))

theorem e5_v38 (c : Dev nD) : W5 m ρ c (Proc.devRef .tc main_v38) = val_main_v49 (F := Ideal) (A0 m c) (A1 m c) (A2 m c) (A4 m c) (A5 m c) (A6 m c) (A7 m c) (A16 m c) (A17 m c) (A18 m c) (A19 m c) :=
  (rd2_v38 (W4 m ρ c) (A1 m c) _ (e4_v23 m ρ c) (at4_v1 m ρ c)).trans rfl
theorem at5_v38 (c : Dev nD) : V5 m ρ c main_v38 = val_main_v49 (F := Ideal) (A0 m c) (A1 m c) (A2 m c) (A4 m c) (A5 m c) (A6 m c) (A7 m c) (A16 m c) (A17 m c) (A18 m c) (A19 m c) :=
  e5_v38 m ρ c

theorem at5_arg2 (c : Dev nD) : V5 m ρ c main_arg2 = (A2 m c) :=
  ((by host_skip : W5 m ρ c (Proc.devRef .tc main_arg2) = W4 m ρ c (Proc.devRef .tc main_arg2)).trans ((W4_of_ne m ρ c main_arg2 (by decide)).trans ((by host_skip : W3 m ρ c (Proc.devRef .tc main_arg2) = W2 m ρ c (Proc.devRef .tc main_arg2)).trans (((W2_arr m ρ c 1).trans (((dat0 (V1 m ρ) c).arrAt_in 1 rfl _).trans (A_eq0 (V1 m ρ) c 1))).trans ((by host_skip : W1 m ρ c (Proc.devRef .tc main_arg2) = W0 m ρ c (Proc.devRef .tc main_arg2)).trans rfl)))))

theorem at4_arg8 (c : Dev nD) : W4 m ρ c (Proc.devRef .tc main_arg8) = (A8 m c) :=
  ((W4_of_ne m ρ c main_arg8 (by decide)).trans ((by host_skip : W3 m ρ c (Proc.devRef .tc main_arg8) = W2 m ρ c (Proc.devRef .tc main_arg8)).trans ((W2_of_ne m ρ c main_arg8 (by decide)).trans ((by host_skip : W1 m ρ c (Proc.devRef .tc main_arg8) = W0 m ρ c (Proc.devRef .tc main_arg8)).trans rfl))))

theorem at4_arg9 (c : Dev nD) : W4 m ρ c (Proc.devRef .tc main_arg9) = (A9 m c) :=
  ((W4_of_ne m ρ c main_arg9 (by decide)).trans ((by host_skip : W3 m ρ c (Proc.devRef .tc main_arg9) = W2 m ρ c (Proc.devRef .tc main_arg9)).trans ((W2_of_ne m ρ c main_arg9 (by decide)).trans ((by host_skip : W1 m ρ c (Proc.devRef .tc main_arg9) = W0 m ρ c (Proc.devRef .tc main_arg9)).trans rfl))))

theorem at4_arg10 (c : Dev nD) : W4 m ρ c (Proc.devRef .tc main_arg10) = (A10 m c) :=
  ((W4_of_ne m ρ c main_arg10 (by decide)).trans ((by host_skip : W3 m ρ c (Proc.devRef .tc main_arg10) = W2 m ρ c (Proc.devRef .tc main_arg10)).trans ((W2_of_ne m ρ c main_arg10 (by decide)).trans ((by host_skip : W1 m ρ c (Proc.devRef .tc main_arg10) = W0 m ρ c (Proc.devRef .tc main_arg10)).trans rfl))))

theorem at4_arg11 (c : Dev nD) : W4 m ρ c (Proc.devRef .tc main_arg11) = (A11 m c) :=
  ((W4_of_ne m ρ c main_arg11 (by decide)).trans ((by host_skip : W3 m ρ c (Proc.devRef .tc main_arg11) = W2 m ρ c (Proc.devRef .tc main_arg11)).trans ((W2_of_ne m ρ c main_arg11 (by decide)).trans ((by host_skip : W1 m ρ c (Proc.devRef .tc main_arg11) = W0 m ρ c (Proc.devRef .tc main_arg11)).trans rfl))))

theorem at4_arg20 (c : Dev nD) : W4 m ρ c (Proc.devRef .tc main_arg20) = (A20 m c) :=
  ((W4_of_ne m ρ c main_arg20 (by decide)).trans ((by host_skip : W3 m ρ c (Proc.devRef .tc main_arg20) = W2 m ρ c (Proc.devRef .tc main_arg20)).trans ((W2_of_ne m ρ c main_arg20 (by decide)).trans ((by host_skip : W1 m ρ c (Proc.devRef .tc main_arg20) = W0 m ρ c (Proc.devRef .tc main_arg20)).trans rfl))))

theorem at4_arg21 (c : Dev nD) : W4 m ρ c (Proc.devRef .tc main_arg21) = (A21 m c) :=
  ((W4_of_ne m ρ c main_arg21 (by decide)).trans ((by host_skip : W3 m ρ c (Proc.devRef .tc main_arg21) = W2 m ρ c (Proc.devRef .tc main_arg21)).trans ((W2_of_ne m ρ c main_arg21 (by decide)).trans ((by host_skip : W1 m ρ c (Proc.devRef .tc main_arg21) = W0 m ρ c (Proc.devRef .tc main_arg21)).trans rfl))))

theorem at4_arg22 (c : Dev nD) : W4 m ρ c (Proc.devRef .tc main_arg22) = (A22 m c) :=
  ((W4_of_ne m ρ c main_arg22 (by decide)).trans ((by host_skip : W3 m ρ c (Proc.devRef .tc main_arg22) = W2 m ρ c (Proc.devRef .tc main_arg22)).trans ((W2_of_ne m ρ c main_arg22 (by decide)).trans ((by host_skip : W1 m ρ c (Proc.devRef .tc main_arg22) = W0 m ρ c (Proc.devRef .tc main_arg22)).trans rfl))))

theorem at4_arg23 (c : Dev nD) : W4 m ρ c (Proc.devRef .tc main_arg23) = (A23 m c) :=
  ((W4_of_ne m ρ c main_arg23 (by decide)).trans ((by host_skip : W3 m ρ c (Proc.devRef .tc main_arg23) = W2 m ρ c (Proc.devRef .tc main_arg23)).trans ((W2_of_ne m ρ c main_arg23 (by decide)).trans ((by host_skip : W1 m ρ c (Proc.devRef .tc main_arg23) = W0 m ρ c (Proc.devRef .tc main_arg23)).trans rfl))))

theorem w5_v24 (c : Dev nD) : W5 m ρ c (Proc.devRef .tc main_v24) = tr (A8 m c) :=
  (rd2_v24 (W4 m ρ c)).trans (congrArg tr (at4_arg8 m ρ c))

theorem w5_v26 (c : Dev nD) : W5 m ρ c (Proc.devRef .tc main_v26) = row (A9 m c) :=
  (rd2_v26 (W4 m ρ c)).trans (congrArg row (at4_arg9 m ρ c))

theorem w5_v25 (c : Dev nD) : W5 m ρ c (Proc.devRef .tc main_v25) = tr (A10 m c) :=
  (rd2_v25 (W4 m ρ c)).trans (congrArg tr (at4_arg10 m ρ c))

theorem w5_v27 (c : Dev nD) : W5 m ρ c (Proc.devRef .tc main_v27) = row (A11 m c) :=
  (rd2_v27 (W4 m ρ c)).trans (congrArg row (at4_arg11 m ρ c))

theorem w5_v28 (c : Dev nD) : W5 m ρ c (Proc.devRef .tc main_v28) = row (A20 m c) :=
  (rd2_v28 (W4 m ρ c)).trans (congrArg row (at4_arg20 m ρ c))

theorem w5_v29 (c : Dev nD) : W5 m ρ c (Proc.devRef .tc main_v29) = row (A21 m c) :=
  (rd2_v29 (W4 m ρ c)).trans (congrArg row (at4_arg21 m ρ c))

theorem w5_v30 (c : Dev nD) : W5 m ρ c (Proc.devRef .tc main_v30) = row (A22 m c) :=
  (rd2_v30 (W4 m ρ c)).trans (congrArg row (at4_arg22 m ρ c))

theorem w5_v31 (c : Dev nD) : W5 m ρ c (Proc.devRef .tc main_v31) = row (A23 m c) :=
  (rd2_v31 (W4 m ρ c)).trans (congrArg row (at4_arg23 m ρ c))

theorem at5_v24 (c : Dev nD) : V5 m ρ c main_v24 = tr (A8 m c) :=
  w5_v24 m ρ c

theorem at5_v26 (c : Dev nD) : V5 m ρ c main_v26 = row (A9 m c) :=
  w5_v26 m ρ c

theorem e6_v39 (c : Dev nD) : W6 m ρ c (Proc.devRef .tc main_v39) = val_main_v56 (F := Ideal) (A0 m c) (A1 m c) (A2 m c) (A4 m c) (A5 m c) (A6 m c) (A7 m c) (A8 m c) (A9 m c) (A16 m c) (A17 m c) (A18 m c) (A19 m c) :=
  (W6_arr m ρ c 4).trans ((Cert.KernelIdeal.ValM2.final2 (V5 m ρ) c).trans ((msg_eq (at5_v38 m ρ c) (at5_arg2 m ρ c) (at5_v24 m ρ c) (at5_v26 m ρ c)).trans (Cert.ReferenceIdeal.RefSpec.msg2 _ _ _ _ _ _ _ _ _ _ _ _ _).symm))

/-! ## Layer 2: the node update -/
theorem at6_v3 (c : Dev nD) : W6 m ρ c (Proc.devRef .tc main_v3) = val_main_v3 (F := Ideal) (A1 m c) :=
  ((W6_of_ne m ρ c main_v3 (by decide)).trans ((by host_skip : W5 m ρ c (Proc.devRef .tc main_v3) = W4 m ρ c (Proc.devRef .tc main_v3)).trans ((W4_of_ne m ρ c main_v3 (by decide)).trans ((by host_skip : W3 m ρ c (Proc.devRef .tc main_v3) = W2 m ρ c (Proc.devRef .tc main_v3)).trans ((W2_of_ne m ρ c main_v3 (by decide)).trans (rd0_v3 (W0 m ρ c)))))))

theorem e7_v42 (c : Dev nD) : W7 m ρ c (Proc.devRef .tc main_v42) = val_main_v59 (F := Ideal) (A0 m c) (A1 m c) (A2 m c) (A4 m c) (A5 m c) (A6 m c) (A7 m c) (A8 m c) (A9 m c) (A16 m c) (A17 m c) (A18 m c) (A19 m c) :=
  (rd3_v42 (W6 m ρ c) (A1 m c) _ (at6_v3 m ρ c) (e6_v39 m ρ c)).trans rfl
theorem at7_v42 (c : Dev nD) : V7 m ρ c main_v42 = val_main_v59 (F := Ideal) (A0 m c) (A1 m c) (A2 m c) (A4 m c) (A5 m c) (A6 m c) (A7 m c) (A8 m c) (A9 m c) (A16 m c) (A17 m c) (A18 m c) (A19 m c) :=
  e7_v42 m ρ c

theorem at7_v23 (c : Dev nD) : V7 m ρ c main_v23 = val_main_v42 (F := Ideal) (A0 m c) (A1 m c) (A2 m c) (A4 m c) (A5 m c) (A6 m c) (A7 m c) (A16 m c) (A17 m c) (A18 m c) (A19 m c) :=
  ((by host_skip : W7 m ρ c (Proc.devRef .tc main_v23) = W6 m ρ c (Proc.devRef .tc main_v23)).trans ((W6_of_ne m ρ c main_v23 (by decide)).trans ((by host_skip : W5 m ρ c (Proc.devRef .tc main_v23) = W4 m ρ c (Proc.devRef .tc main_v23)).trans (e4_v23 m ρ c))))

theorem at7_v25 (c : Dev nD) : V7 m ρ c main_v25 = tr (A10 m c) :=
  ((by host_skip : W7 m ρ c (Proc.devRef .tc main_v25) = W6 m ρ c (Proc.devRef .tc main_v25)).trans ((W6_of_ne m ρ c main_v25 (by decide)).trans (w5_v25 m ρ c)))

theorem at7_v27 (c : Dev nD) : V7 m ρ c main_v27 = row (A11 m c) :=
  ((by host_skip : W7 m ρ c (Proc.devRef .tc main_v27) = W6 m ρ c (Proc.devRef .tc main_v27)).trans ((W6_of_ne m ρ c main_v27 (by decide)).trans (w5_v27 m ρ c)))

theorem at7_v28 (c : Dev nD) : V7 m ρ c main_v28 = row (A20 m c) :=
  ((by host_skip : W7 m ρ c (Proc.devRef .tc main_v28) = W6 m ρ c (Proc.devRef .tc main_v28)).trans ((W6_of_ne m ρ c main_v28 (by decide)).trans (w5_v28 m ρ c)))

theorem at7_v29 (c : Dev nD) : V7 m ρ c main_v29 = row (A21 m c) :=
  ((by host_skip : W7 m ρ c (Proc.devRef .tc main_v29) = W6 m ρ c (Proc.devRef .tc main_v29)).trans ((W6_of_ne m ρ c main_v29 (by decide)).trans (w5_v29 m ρ c)))

theorem at7_v30 (c : Dev nD) : V7 m ρ c main_v30 = row (A22 m c) :=
  ((by host_skip : W7 m ρ c (Proc.devRef .tc main_v30) = W6 m ρ c (Proc.devRef .tc main_v30)).trans ((W6_of_ne m ρ c main_v30 (by decide)).trans (w5_v30 m ρ c)))

theorem at7_v31 (c : Dev nD) : V7 m ρ c main_v31 = row (A23 m c) :=
  ((by host_skip : W7 m ρ c (Proc.devRef .tc main_v31) = W6 m ρ c (Proc.devRef .tc main_v31)).trans ((W6_of_ne m ρ c main_v31 (by decide)).trans (w5_v31 m ρ c)))

theorem e8_v43 (c : Dev nD) : W8 m ρ c (Proc.devRef .tc main_v43) = val_main_v81 (F := Ideal) (A0 m c) (A1 m c) (A2 m c) (A4 m c) (A5 m c) (A6 m c) (A7 m c) (A8 m c) (A9 m c) (A10 m c) (A11 m c) (A16 m c) (A17 m c) (A18 m c) (A19 m c) (A20 m c) (A21 m c) (A22 m c) (A23 m c) :=
  (W8_arr m ρ c 8).trans ((Cert.KernelIdeal.ValN3.final3 (V7 m ρ) c).trans ((node_eq (at7_v23 m ρ c) (at7_v42 m ρ c) (at7_v25 m ρ c) (at7_v27 m ρ c) (at7_v28 m ρ c) (at7_v29 m ρ c) (at7_v30 m ρ c) (at7_v31 m ρ c)).trans (Cert.ReferenceIdeal.RefSpec.node2 _ _ _ _ _ _ _ _ _ _ _ _ _ _ _ _ _ _ _).symm))

/-! ## Layer 3: the messages -/
theorem at8_v1 (c : Dev nD) : W8 m ρ c (Proc.devRef .tc main_v1) = val_main_v1 (F := Ideal) (A1 m c) :=
  ((W8_of_ne m ρ c main_v1 (by decide)).trans ((by host_skip : W7 m ρ c (Proc.devRef .tc main_v1) = W6 m ρ c (Proc.devRef .tc main_v1)).trans ((W6_of_ne m ρ c main_v1 (by decide)).trans ((by host_skip : W5 m ρ c (Proc.devRef .tc main_v1) = W4 m ρ c (Proc.devRef .tc main_v1)).trans ((W4_of_ne m ρ c main_v1 (by decide)).trans ((by host_skip : W3 m ρ c (Proc.devRef .tc main_v1) = W2 m ρ c (Proc.devRef .tc main_v1)).trans ((W2_of_ne m ρ c main_v1 (by decide)).trans (rd0_v1 (W0 m ρ c)))))))))

theorem e9_v58 (c : Dev nD) : W9 m ρ c (Proc.devRef .tc main_v58) = val_main_v88 (F := Ideal) (A0 m c) (A1 m c) (A2 m c) (A4 m c) (A5 m c) (A6 m c) (A7 m c) (A8 m c) (A9 m c) (A10 m c) (A11 m c) (A16 m c) (A17 m c) (A18 m c) (A19 m c) (A20 m c) (A21 m c) (A22 m c) (A23 m c) :=
  (rd4_v58 (W8 m ρ c) (A1 m c) _ (e8_v43 m ρ c) (at8_v1 m ρ c)).trans rfl
theorem at9_v58 (c : Dev nD) : V9 m ρ c main_v58 = val_main_v88 (F := Ideal) (A0 m c) (A1 m c) (A2 m c) (A4 m c) (A5 m c) (A6 m c) (A7 m c) (A8 m c) (A9 m c) (A10 m c) (A11 m c) (A16 m c) (A17 m c) (A18 m c) (A19 m c) (A20 m c) (A21 m c) (A22 m c) (A23 m c) :=
  e9_v58 m ρ c

theorem at9_arg2 (c : Dev nD) : V9 m ρ c main_arg2 = (A2 m c) :=
  ((by host_skip : W9 m ρ c (Proc.devRef .tc main_arg2) = W8 m ρ c (Proc.devRef .tc main_arg2)).trans ((W8_of_ne m ρ c main_arg2 (by decide)).trans ((by host_skip : W7 m ρ c (Proc.devRef .tc main_arg2) = W6 m ρ c (Proc.devRef .tc main_arg2)).trans (((W6_arr m ρ c 1).trans (((dat2 (V5 m ρ) c).arrAt_in 1 rfl _).trans (A_eq2 (V5 m ρ) c 1))).trans ((by host_skip : W5 m ρ c (Proc.devRef .tc main_arg2) = W4 m ρ c (Proc.devRef .tc main_arg2)).trans ((W4_of_ne m ρ c main_arg2 (by decide)).trans ((by host_skip : W3 m ρ c (Proc.devRef .tc main_arg2) = W2 m ρ c (Proc.devRef .tc main_arg2)).trans (((W2_arr m ρ c 1).trans (((dat0 (V1 m ρ) c).arrAt_in 1 rfl _).trans (A_eq0 (V1 m ρ) c 1))).trans ((by host_skip : W1 m ρ c (Proc.devRef .tc main_arg2) = W0 m ρ c (Proc.devRef .tc main_arg2)).trans rfl)))))))))

theorem at8_arg12 (c : Dev nD) : W8 m ρ c (Proc.devRef .tc main_arg12) = (A12 m c) :=
  ((W8_of_ne m ρ c main_arg12 (by decide)).trans ((by host_skip : W7 m ρ c (Proc.devRef .tc main_arg12) = W6 m ρ c (Proc.devRef .tc main_arg12)).trans ((W6_of_ne m ρ c main_arg12 (by decide)).trans ((by host_skip : W5 m ρ c (Proc.devRef .tc main_arg12) = W4 m ρ c (Proc.devRef .tc main_arg12)).trans ((W4_of_ne m ρ c main_arg12 (by decide)).trans ((by host_skip : W3 m ρ c (Proc.devRef .tc main_arg12) = W2 m ρ c (Proc.devRef .tc main_arg12)).trans ((W2_of_ne m ρ c main_arg12 (by decide)).trans ((by host_skip : W1 m ρ c (Proc.devRef .tc main_arg12) = W0 m ρ c (Proc.devRef .tc main_arg12)).trans rfl))))))))

theorem at8_arg13 (c : Dev nD) : W8 m ρ c (Proc.devRef .tc main_arg13) = (A13 m c) :=
  ((W8_of_ne m ρ c main_arg13 (by decide)).trans ((by host_skip : W7 m ρ c (Proc.devRef .tc main_arg13) = W6 m ρ c (Proc.devRef .tc main_arg13)).trans ((W6_of_ne m ρ c main_arg13 (by decide)).trans ((by host_skip : W5 m ρ c (Proc.devRef .tc main_arg13) = W4 m ρ c (Proc.devRef .tc main_arg13)).trans ((W4_of_ne m ρ c main_arg13 (by decide)).trans ((by host_skip : W3 m ρ c (Proc.devRef .tc main_arg13) = W2 m ρ c (Proc.devRef .tc main_arg13)).trans ((W2_of_ne m ρ c main_arg13 (by decide)).trans ((by host_skip : W1 m ρ c (Proc.devRef .tc main_arg13) = W0 m ρ c (Proc.devRef .tc main_arg13)).trans rfl))))))))

theorem at8_arg14 (c : Dev nD) : W8 m ρ c (Proc.devRef .tc main_arg14) = (A14 m c) :=
  ((W8_of_ne m ρ c main_arg14 (by decide)).trans ((by host_skip : W7 m ρ c (Proc.devRef .tc main_arg14) = W6 m ρ c (Proc.devRef .tc main_arg14)).trans ((W6_of_ne m ρ c main_arg14 (by decide)).trans ((by host_skip : W5 m ρ c (Proc.devRef .tc main_arg14) = W4 m ρ c (Proc.devRef .tc main_arg14)).trans ((W4_of_ne m ρ c main_arg14 (by decide)).trans ((by host_skip : W3 m ρ c (Proc.devRef .tc main_arg14) = W2 m ρ c (Proc.devRef .tc main_arg14)).trans ((W2_of_ne m ρ c main_arg14 (by decide)).trans ((by host_skip : W1 m ρ c (Proc.devRef .tc main_arg14) = W0 m ρ c (Proc.devRef .tc main_arg14)).trans rfl))))))))

theorem at8_arg15 (c : Dev nD) : W8 m ρ c (Proc.devRef .tc main_arg15) = (A15 m c) :=
  ((W8_of_ne m ρ c main_arg15 (by decide)).trans ((by host_skip : W7 m ρ c (Proc.devRef .tc main_arg15) = W6 m ρ c (Proc.devRef .tc main_arg15)).trans ((W6_of_ne m ρ c main_arg15 (by decide)).trans ((by host_skip : W5 m ρ c (Proc.devRef .tc main_arg15) = W4 m ρ c (Proc.devRef .tc main_arg15)).trans ((W4_of_ne m ρ c main_arg15 (by decide)).trans ((by host_skip : W3 m ρ c (Proc.devRef .tc main_arg15) = W2 m ρ c (Proc.devRef .tc main_arg15)).trans ((W2_of_ne m ρ c main_arg15 (by decide)).trans ((by host_skip : W1 m ρ c (Proc.devRef .tc main_arg15) = W0 m ρ c (Proc.devRef .tc main_arg15)).trans rfl))))))))

theorem at8_arg24 (c : Dev nD) : W8 m ρ c (Proc.devRef .tc main_arg24) = (A24 m c) :=
  ((W8_of_ne m ρ c main_arg24 (by decide)).trans ((by host_skip : W7 m ρ c (Proc.devRef .tc main_arg24) = W6 m ρ c (Proc.devRef .tc main_arg24)).trans ((W6_of_ne m ρ c main_arg24 (by decide)).trans ((by host_skip : W5 m ρ c (Proc.devRef .tc main_arg24) = W4 m ρ c (Proc.devRef .tc main_arg24)).trans ((W4_of_ne m ρ c main_arg24 (by decide)).trans ((by host_skip : W3 m ρ c (Proc.devRef .tc main_arg24) = W2 m ρ c (Proc.devRef .tc main_arg24)).trans ((W2_of_ne m ρ c main_arg24 (by decide)).trans ((by host_skip : W1 m ρ c (Proc.devRef .tc main_arg24) = W0 m ρ c (Proc.devRef .tc main_arg24)).trans rfl))))))))

theorem at8_arg25 (c : Dev nD) : W8 m ρ c (Proc.devRef .tc main_arg25) = (A25 m c) :=
  ((W8_of_ne m ρ c main_arg25 (by decide)).trans ((by host_skip : W7 m ρ c (Proc.devRef .tc main_arg25) = W6 m ρ c (Proc.devRef .tc main_arg25)).trans ((W6_of_ne m ρ c main_arg25 (by decide)).trans ((by host_skip : W5 m ρ c (Proc.devRef .tc main_arg25) = W4 m ρ c (Proc.devRef .tc main_arg25)).trans ((W4_of_ne m ρ c main_arg25 (by decide)).trans ((by host_skip : W3 m ρ c (Proc.devRef .tc main_arg25) = W2 m ρ c (Proc.devRef .tc main_arg25)).trans ((W2_of_ne m ρ c main_arg25 (by decide)).trans ((by host_skip : W1 m ρ c (Proc.devRef .tc main_arg25) = W0 m ρ c (Proc.devRef .tc main_arg25)).trans rfl))))))))

theorem at8_arg26 (c : Dev nD) : W8 m ρ c (Proc.devRef .tc main_arg26) = (A26 m c) :=
  ((W8_of_ne m ρ c main_arg26 (by decide)).trans ((by host_skip : W7 m ρ c (Proc.devRef .tc main_arg26) = W6 m ρ c (Proc.devRef .tc main_arg26)).trans ((W6_of_ne m ρ c main_arg26 (by decide)).trans ((by host_skip : W5 m ρ c (Proc.devRef .tc main_arg26) = W4 m ρ c (Proc.devRef .tc main_arg26)).trans ((W4_of_ne m ρ c main_arg26 (by decide)).trans ((by host_skip : W3 m ρ c (Proc.devRef .tc main_arg26) = W2 m ρ c (Proc.devRef .tc main_arg26)).trans ((W2_of_ne m ρ c main_arg26 (by decide)).trans ((by host_skip : W1 m ρ c (Proc.devRef .tc main_arg26) = W0 m ρ c (Proc.devRef .tc main_arg26)).trans rfl))))))))

theorem at8_arg27 (c : Dev nD) : W8 m ρ c (Proc.devRef .tc main_arg27) = (A27 m c) :=
  ((W8_of_ne m ρ c main_arg27 (by decide)).trans ((by host_skip : W7 m ρ c (Proc.devRef .tc main_arg27) = W6 m ρ c (Proc.devRef .tc main_arg27)).trans ((W6_of_ne m ρ c main_arg27 (by decide)).trans ((by host_skip : W5 m ρ c (Proc.devRef .tc main_arg27) = W4 m ρ c (Proc.devRef .tc main_arg27)).trans ((W4_of_ne m ρ c main_arg27 (by decide)).trans ((by host_skip : W3 m ρ c (Proc.devRef .tc main_arg27) = W2 m ρ c (Proc.devRef .tc main_arg27)).trans ((W2_of_ne m ρ c main_arg27 (by decide)).trans ((by host_skip : W1 m ρ c (Proc.devRef .tc main_arg27) = W0 m ρ c (Proc.devRef .tc main_arg27)).trans rfl))))))))

theorem w9_v44 (c : Dev nD) : W9 m ρ c (Proc.devRef .tc main_v44) = tr (A12 m c) :=
  (rd4_v44 (W8 m ρ c)).trans (congrArg tr (at8_arg12 m ρ c))

theorem w9_v46 (c : Dev nD) : W9 m ρ c (Proc.devRef .tc main_v46) = row (A13 m c) :=
  (rd4_v46 (W8 m ρ c)).trans (congrArg row (at8_arg13 m ρ c))

theorem w9_v45 (c : Dev nD) : W9 m ρ c (Proc.devRef .tc main_v45) = tr (A14 m c) :=
  (rd4_v45 (W8 m ρ c)).trans (congrArg tr (at8_arg14 m ρ c))

theorem w9_v47 (c : Dev nD) : W9 m ρ c (Proc.devRef .tc main_v47) = row (A15 m c) :=
  (rd4_v47 (W8 m ρ c)).trans (congrArg row (at8_arg15 m ρ c))

theorem w9_v48 (c : Dev nD) : W9 m ρ c (Proc.devRef .tc main_v48) = row (A24 m c) :=
  (rd4_v48 (W8 m ρ c)).trans (congrArg row (at8_arg24 m ρ c))

theorem w9_v49 (c : Dev nD) : W9 m ρ c (Proc.devRef .tc main_v49) = row (A25 m c) :=
  (rd4_v49 (W8 m ρ c)).trans (congrArg row (at8_arg25 m ρ c))

theorem w9_v50 (c : Dev nD) : W9 m ρ c (Proc.devRef .tc main_v50) = row (A26 m c) :=
  (rd4_v50 (W8 m ρ c)).trans (congrArg row (at8_arg26 m ρ c))

theorem w9_v51 (c : Dev nD) : W9 m ρ c (Proc.devRef .tc main_v51) = row (A27 m c) :=
  (rd4_v51 (W8 m ρ c)).trans (congrArg row (at8_arg27 m ρ c))

theorem at9_v44 (c : Dev nD) : V9 m ρ c main_v44 = tr (A12 m c) :=
  w9_v44 m ρ c

theorem at9_v46 (c : Dev nD) : V9 m ρ c main_v46 = row (A13 m c) :=
  w9_v46 m ρ c

theorem e10_v59 (c : Dev nD) : W10 m ρ c (Proc.devRef .tc main_v59) = val_main_v95 (F := Ideal) (A0 m c) (A1 m c) (A2 m c) (A4 m c) (A5 m c) (A6 m c) (A7 m c) (A8 m c) (A9 m c) (A10 m c) (A11 m c) (A12 m c) (A13 m c) (A16 m c) (A17 m c) (A18 m c) (A19 m c) (A20 m c) (A21 m c) (A22 m c) (A23 m c) :=
  (W10_arr m ρ c 4).trans ((Cert.KernelIdeal.ValM4.final4 (V9 m ρ) c).trans ((msg_eq (at9_v58 m ρ c) (at9_arg2 m ρ c) (at9_v44 m ρ c) (at9_v46 m ρ c)).trans (Cert.ReferenceIdeal.RefSpec.msg3 _ _ _ _ _ _ _ _ _ _ _ _ _ _ _ _ _ _ _ _ _).symm))

/-! ## Layer 3: the node update -/
theorem at10_v3 (c : Dev nD) : W10 m ρ c (Proc.devRef .tc main_v3) = val_main_v3 (F := Ideal) (A1 m c) :=
  ((W10_of_ne m ρ c main_v3 (by decide)).trans ((by host_skip : W9 m ρ c (Proc.devRef .tc main_v3) = W8 m ρ c (Proc.devRef .tc main_v3)).trans ((W8_of_ne m ρ c main_v3 (by decide)).trans ((by host_skip : W7 m ρ c (Proc.devRef .tc main_v3) = W6 m ρ c (Proc.devRef .tc main_v3)).trans ((W6_of_ne m ρ c main_v3 (by decide)).trans ((by host_skip : W5 m ρ c (Proc.devRef .tc main_v3) = W4 m ρ c (Proc.devRef .tc main_v3)).trans ((W4_of_ne m ρ c main_v3 (by decide)).trans ((by host_skip : W3 m ρ c (Proc.devRef .tc main_v3) = W2 m ρ c (Proc.devRef .tc main_v3)).trans ((W2_of_ne m ρ c main_v3 (by decide)).trans (rd0_v3 (W0 m ρ c)))))))))))

theorem e11_v62 (c : Dev nD) : W11 m ρ c (Proc.devRef .tc main_v62) = val_main_v98 (F := Ideal) (A0 m c) (A1 m c) (A2 m c) (A4 m c) (A5 m c) (A6 m c) (A7 m c) (A8 m c) (A9 m c) (A10 m c) (A11 m c) (A12 m c) (A13 m c) (A16 m c) (A17 m c) (A18 m c) (A19 m c) (A20 m c) (A21 m c) (A22 m c) (A23 m c) :=
  (rd5_v62 (W10 m ρ c) (A1 m c) _ (at10_v3 m ρ c) (e10_v59 m ρ c)).trans rfl
theorem at11_v62 (c : Dev nD) : V11 m ρ c main_v62 = val_main_v98 (F := Ideal) (A0 m c) (A1 m c) (A2 m c) (A4 m c) (A5 m c) (A6 m c) (A7 m c) (A8 m c) (A9 m c) (A10 m c) (A11 m c) (A12 m c) (A13 m c) (A16 m c) (A17 m c) (A18 m c) (A19 m c) (A20 m c) (A21 m c) (A22 m c) (A23 m c) :=
  e11_v62 m ρ c

theorem at11_v43 (c : Dev nD) : V11 m ρ c main_v43 = val_main_v81 (F := Ideal) (A0 m c) (A1 m c) (A2 m c) (A4 m c) (A5 m c) (A6 m c) (A7 m c) (A8 m c) (A9 m c) (A10 m c) (A11 m c) (A16 m c) (A17 m c) (A18 m c) (A19 m c) (A20 m c) (A21 m c) (A22 m c) (A23 m c) :=
  ((by host_skip : W11 m ρ c (Proc.devRef .tc main_v43) = W10 m ρ c (Proc.devRef .tc main_v43)).trans ((W10_of_ne m ρ c main_v43 (by decide)).trans ((by host_skip : W9 m ρ c (Proc.devRef .tc main_v43) = W8 m ρ c (Proc.devRef .tc main_v43)).trans (e8_v43 m ρ c))))

theorem at11_v45 (c : Dev nD) : V11 m ρ c main_v45 = tr (A14 m c) :=
  ((by host_skip : W11 m ρ c (Proc.devRef .tc main_v45) = W10 m ρ c (Proc.devRef .tc main_v45)).trans ((W10_of_ne m ρ c main_v45 (by decide)).trans (w9_v45 m ρ c)))

theorem at11_v47 (c : Dev nD) : V11 m ρ c main_v47 = row (A15 m c) :=
  ((by host_skip : W11 m ρ c (Proc.devRef .tc main_v47) = W10 m ρ c (Proc.devRef .tc main_v47)).trans ((W10_of_ne m ρ c main_v47 (by decide)).trans (w9_v47 m ρ c)))

theorem at11_v48 (c : Dev nD) : V11 m ρ c main_v48 = row (A24 m c) :=
  ((by host_skip : W11 m ρ c (Proc.devRef .tc main_v48) = W10 m ρ c (Proc.devRef .tc main_v48)).trans ((W10_of_ne m ρ c main_v48 (by decide)).trans (w9_v48 m ρ c)))

theorem at11_v49 (c : Dev nD) : V11 m ρ c main_v49 = row (A25 m c) :=
  ((by host_skip : W11 m ρ c (Proc.devRef .tc main_v49) = W10 m ρ c (Proc.devRef .tc main_v49)).trans ((W10_of_ne m ρ c main_v49 (by decide)).trans (w9_v49 m ρ c)))

theorem at11_v50 (c : Dev nD) : V11 m ρ c main_v50 = row (A26 m c) :=
  ((by host_skip : W11 m ρ c (Proc.devRef .tc main_v50) = W10 m ρ c (Proc.devRef .tc main_v50)).trans ((W10_of_ne m ρ c main_v50 (by decide)).trans (w9_v50 m ρ c)))

theorem at11_v51 (c : Dev nD) : V11 m ρ c main_v51 = row (A27 m c) :=
  ((by host_skip : W11 m ρ c (Proc.devRef .tc main_v51) = W10 m ρ c (Proc.devRef .tc main_v51)).trans ((W10_of_ne m ρ c main_v51 (by decide)).trans (w9_v51 m ρ c)))

theorem e12_v63 (c : Dev nD) : W12 m ρ c (Proc.devRef .tc main_v63) = val_main_v120 (F := Ideal) (A0 m c) (A1 m c) (A2 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c) (A24 m c) (A25 m c) (A26 m c) (A27 m c) :=
  (W12_arr m ρ c 8).trans ((Cert.KernelIdeal.ValN5.final5 (V11 m ρ) c).trans ((node_eq (at11_v43 m ρ c) (at11_v62 m ρ c) (at11_v45 m ρ c) (at11_v47 m ρ c) (at11_v48 m ρ c) (at11_v49 m ρ c) (at11_v50 m ρ c) (at11_v51 m ρ c)).trans (Cert.ReferenceIdeal.RefSpec.node3 _ _ _ _ _ _ _ _ _ _ _ _ _ _ _ _ _ _ _ _ _ _ _ _ _ _ _).symm))

/-! ## The pooled means and the head -/
theorem at12_arg3 (c : Dev nD) : W12 m ρ c (Proc.devRef .tc main_arg3) = (A3 m c) :=
  ((W12_of_ne m ρ c main_arg3 (by decide)).trans ((by host_skip : W11 m ρ c (Proc.devRef .tc main_arg3) = W10 m ρ c (Proc.devRef .tc main_arg3)).trans ((W10_of_ne m ρ c main_arg3 (by decide)).trans ((by host_skip : W9 m ρ c (Proc.devRef .tc main_arg3) = W8 m ρ c (Proc.devRef .tc main_arg3)).trans ((W8_of_ne m ρ c main_arg3 (by decide)).trans ((by host_skip : W7 m ρ c (Proc.devRef .tc main_arg3) = W6 m ρ c (Proc.devRef .tc main_arg3)).trans ((W6_of_ne m ρ c main_arg3 (by decide)).trans ((by host_skip : W5 m ρ c (Proc.devRef .tc main_arg3) = W4 m ρ c (Proc.devRef .tc main_arg3)).trans ((W4_of_ne m ρ c main_arg3 (by decide)).trans ((by host_skip : W3 m ρ c (Proc.devRef .tc main_arg3) = W2 m ρ c (Proc.devRef .tc main_arg3)).trans ((W2_of_ne m ρ c main_arg3 (by decide)).trans ((by host_skip : W1 m ρ c (Proc.devRef .tc main_arg3) = W0 m ρ c (Proc.devRef .tc main_arg3)).trans rfl))))))))))))

theorem at12_arg28 (c : Dev nD) : W12 m ρ c (Proc.devRef .tc main_arg28) = (A28 m c) :=
  ((W12_of_ne m ρ c main_arg28 (by decide)).trans ((by host_skip : W11 m ρ c (Proc.devRef .tc main_arg28) = W10 m ρ c (Proc.devRef .tc main_arg28)).trans ((W10_of_ne m ρ c main_arg28 (by decide)).trans ((by host_skip : W9 m ρ c (Proc.devRef .tc main_arg28) = W8 m ρ c (Proc.devRef .tc main_arg28)).trans ((W8_of_ne m ρ c main_arg28 (by decide)).trans ((by host_skip : W7 m ρ c (Proc.devRef .tc main_arg28) = W6 m ρ c (Proc.devRef .tc main_arg28)).trans ((W6_of_ne m ρ c main_arg28 (by decide)).trans ((by host_skip : W5 m ρ c (Proc.devRef .tc main_arg28) = W4 m ρ c (Proc.devRef .tc main_arg28)).trans ((W4_of_ne m ρ c main_arg28 (by decide)).trans ((by host_skip : W3 m ρ c (Proc.devRef .tc main_arg28) = W2 m ρ c (Proc.devRef .tc main_arg28)).trans ((W2_of_ne m ρ c main_arg28 (by decide)).trans ((by host_skip : W1 m ρ c (Proc.devRef .tc main_arg28) = W0 m ρ c (Proc.devRef .tc main_arg28)).trans rfl))))))))))))

theorem at12_arg29 (c : Dev nD) : W12 m ρ c (Proc.devRef .tc main_arg29) = (A29 m c) :=
  ((W12_of_ne m ρ c main_arg29 (by decide)).trans ((by host_skip : W11 m ρ c (Proc.devRef .tc main_arg29) = W10 m ρ c (Proc.devRef .tc main_arg29)).trans ((W10_of_ne m ρ c main_arg29 (by decide)).trans ((by host_skip : W9 m ρ c (Proc.devRef .tc main_arg29) = W8 m ρ c (Proc.devRef .tc main_arg29)).trans ((W8_of_ne m ρ c main_arg29 (by decide)).trans ((by host_skip : W7 m ρ c (Proc.devRef .tc main_arg29) = W6 m ρ c (Proc.devRef .tc main_arg29)).trans ((W6_of_ne m ρ c main_arg29 (by decide)).trans ((by host_skip : W5 m ρ c (Proc.devRef .tc main_arg29) = W4 m ρ c (Proc.devRef .tc main_arg29)).trans ((W4_of_ne m ρ c main_arg29 (by decide)).trans ((by host_skip : W3 m ρ c (Proc.devRef .tc main_arg29) = W2 m ρ c (Proc.devRef .tc main_arg29)).trans ((W2_of_ne m ρ c main_arg29 (by decide)).trans ((by host_skip : W1 m ρ c (Proc.devRef .tc main_arg29) = W0 m ρ c (Proc.devRef .tc main_arg29)).trans rfl))))))))))))

theorem at12_arg30 (c : Dev nD) : W12 m ρ c (Proc.devRef .tc main_arg30) = (A30 m c) :=
  ((W12_of_ne m ρ c main_arg30 (by decide)).trans ((by host_skip : W11 m ρ c (Proc.devRef .tc main_arg30) = W10 m ρ c (Proc.devRef .tc main_arg30)).trans ((W10_of_ne m ρ c main_arg30 (by decide)).trans ((by host_skip : W9 m ρ c (Proc.devRef .tc main_arg30) = W8 m ρ c (Proc.devRef .tc main_arg30)).trans ((W8_of_ne m ρ c main_arg30 (by decide)).trans ((by host_skip : W7 m ρ c (Proc.devRef .tc main_arg30) = W6 m ρ c (Proc.devRef .tc main_arg30)).trans ((W6_of_ne m ρ c main_arg30 (by decide)).trans ((by host_skip : W5 m ρ c (Proc.devRef .tc main_arg30) = W4 m ρ c (Proc.devRef .tc main_arg30)).trans ((W4_of_ne m ρ c main_arg30 (by decide)).trans ((by host_skip : W3 m ρ c (Proc.devRef .tc main_arg30) = W2 m ρ c (Proc.devRef .tc main_arg30)).trans ((W2_of_ne m ρ c main_arg30 (by decide)).trans ((by host_skip : W1 m ρ c (Proc.devRef .tc main_arg30) = W0 m ρ c (Proc.devRef .tc main_arg30)).trans rfl))))))))))))

theorem at12_arg31 (c : Dev nD) : W12 m ρ c (Proc.devRef .tc main_arg31) = (A31 m c) :=
  ((W12_of_ne m ρ c main_arg31 (by decide)).trans ((by host_skip : W11 m ρ c (Proc.devRef .tc main_arg31) = W10 m ρ c (Proc.devRef .tc main_arg31)).trans ((W10_of_ne m ρ c main_arg31 (by decide)).trans ((by host_skip : W9 m ρ c (Proc.devRef .tc main_arg31) = W8 m ρ c (Proc.devRef .tc main_arg31)).trans ((W8_of_ne m ρ c main_arg31 (by decide)).trans ((by host_skip : W7 m ρ c (Proc.devRef .tc main_arg31) = W6 m ρ c (Proc.devRef .tc main_arg31)).trans ((W6_of_ne m ρ c main_arg31 (by decide)).trans ((by host_skip : W5 m ρ c (Proc.devRef .tc main_arg31) = W4 m ρ c (Proc.devRef .tc main_arg31)).trans ((W4_of_ne m ρ c main_arg31 (by decide)).trans ((by host_skip : W3 m ρ c (Proc.devRef .tc main_arg31) = W2 m ρ c (Proc.devRef .tc main_arg31)).trans ((W2_of_ne m ρ c main_arg31 (by decide)).trans ((by host_skip : W1 m ρ c (Proc.devRef .tc main_arg31) = W0 m ρ c (Proc.devRef .tc main_arg31)).trans rfl))))))))))))

theorem e13_v75 (c : Dev nD) : W13 m ρ c (Proc.devRef .tc main_v75) = val_main_v132 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c) (A24 m c) (A25 m c) (A26 m c) (A27 m c) :=
  (rd6_v75 (W12 m ρ c) (A3 m c) _ (e12_v63 m ρ c) (at12_arg3 m ρ c)).trans rfl
theorem at13_v75 (c : Dev nD) : V13 m ρ c main_v75 = val_main_v132 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c) (A24 m c) (A25 m c) (A26 m c) (A27 m c) :=
  e13_v75 m ρ c

theorem at13_v76 (c : Dev nD) : V13 m ρ c main_v76 = tr (A28 m c) :=
  (rd6_v76 (W12 m ρ c)).trans (congrArg tr (at12_arg28 m ρ c))

theorem at13_v77 (c : Dev nD) : V13 m ρ c main_v77 = row (A29 m c) :=
  (rd6_v77 (W12 m ρ c)).trans (congrArg row (at12_arg29 m ρ c))

theorem at13_v78 (c : Dev nD) : V13 m ρ c main_v78 = tr (A30 m c) :=
  (rd6_v78 (W12 m ρ c)).trans (congrArg tr (at12_arg30 m ρ c))

theorem at13_v79 (c : Dev nD) : V13 m ρ c main_v79 = row (A31 m c) :=
  (rd6_v79 (W12 m ρ c)).trans (congrArg row (at12_arg31 m ρ c))

/-- The result buffer ends at the reference's result stage of the same arguments. -/
theorem e14_v80 (c : Dev nD) : W14 m ρ c (Proc.devRef .tc main_v80) = val_main_v149 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c) (A24 m c) (A25 m c) (A26 m c) (A27 m c) (A28 m c) (A29 m c) (A30 m c) (A31 m c) :=
  (W14_arr m ρ c 5).trans ((Cert.KernelIdeal.ValH6.final6 (V13 m ρ) c).trans ((head_eq (at13_v75 m ρ c) (at13_v76 m ρ c) (at13_v77 m ρ c) (at13_v78 m ρ c) (at13_v79 m ρ c)).trans (Cert.ReferenceIdeal.RefSpec.head _ _ _ _ _ _ _ _ _ _ _ _ _ _ _ _ _ _ _ _ _ _ _ _ _ _ _ _ _ _ _ _).symm))

end Cert.KernelIdeal.Chain

end
-- ==== Proof.lean ====
/-
  A three-layer edge-conditioned graph network — per layer: gather the source node's features along every edge, add the
  edge attributes through a linear map and a bias, rectify (the message); sum the messages into their destination nodes;
  send node features plus aggregate through a linear map, normalise with running statistics, rectify (the update) —
  then the mean of the node features over each graph and a two-layer head ending in the logistic function.

  The kernel computes the message, the update and the head in blocks of rows on the matrix unit (a product into a zero
  accumulator, the operands narrowed to bf16 on the way in) and leaves the gathers and the segment sums to the host;
  the reference computes everything on the host.  On the extended reals a change of float format is the identity, a
  product into a zero accumulator and the host's contraction are the same finite sum, the blocks of rows tile the arrays,
  every entry of a message / an update / the head depends on its own row only, and the kernel's logistic operation is
  by definition 1 / (1 + e^(-x)), which the reference spells out.  So every intermediate array of the kernel IS the
  reference's stage of the same meaning, one after the other (Chain), and the two results are one function of the
  arguments.  No term is rearranged anywhere: the finiteness of the inputs is never used.

  The three frames: the two programs with kernels by their frame runs; the reference's by its run with the result
  dropped.  The idealization rewrote nothing, so that claim is trivial.
-/
import proofs.«180599_j70557722739068_1_alg».proof.Defs
import proofs.«180599_j70557722739068_1_alg».proof.Proof.Gen.Kernel
import proofs.«180599_j70557722739068_1_alg».proof.Proof.Gen.Kernel.Skeleton
import proofs.«180599_j70557722739068_1_alg».proof.Proof.Gen.Kernel.Launch
import proofs.«180599_j70557722739068_1_alg».proof.Proof.Gen.Kernel.Points
import proofs.«180599_j70557722739068_1_alg».proof.Proof.Gen.Kernel.Frame
import proofs.«180599_j70557722739068_1_alg».proof.Proof.Gen.KernelIdeal
import proofs.«180599_j70557722739068_1_alg».proof.Proof.Gen.KernelIdeal.Skeleton
import proofs.«180599_j70557722739068_1_alg».proof.Proof.Gen.KernelIdeal.Launch
import proofs.«180599_j70557722739068_1_alg».proof.Proof.Gen.KernelIdeal.Points
import proofs.«180599_j70557722739068_1_alg».proof.Proof.Gen.KernelIdeal.Frame
import proofs.«180599_j70557722739068_1_alg».proof.Proof.Gen.ReferenceIdeal
import proofs.«180599_j70557722739068_1_alg».proof.Proof.Gen.Pre_finite_inputs
import proofs.«180599_j70557722739068_1_alg».proof.Proof.Gen.ReferenceIdeal.Run
import proofs.«180599_j70557722739068_1_alg».proof.Proof.Gen.ReferenceIdeal.Read
import proofs.«180599_j70557722739068_1_alg».proof.Proof.KRun
import proofs.«180599_j70557722739068_1_alg».proof.Proof.Chain
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the result buffer at the reference's result term of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.KRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22, h23, h24, h25, h26, h27, h28, h29, h30, h31⟩ := hagree c
  rw [Cert.ReferenceIdeal.Read.val_main_v149_eq, h0, h1, h2, h3, h4, h5, h6, h7, h8, h9, h10, h11, h12, h13, h14, h15, h16, h17, h18, h19, h20, h21, h22, h23, h24, h25, h26, h27, h28, h29, h30, h31]
  exact (Cert.KernelIdeal.Chain.e14_v80 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
